-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x1024 : Shape := ⟨2, ![1024, 1024]⟩
abbrev S16x8192x64 : Shape := ⟨3, ![16, 8192, 64]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16x8192x64 : S_.BroadcastsInDim S16x8192x64 (![] : Fin 0 → Fin S16x8192x64.rank)
  reducesTo_S16x8192x64_S_d0_1_2 : S16x8192x64.ReducesTo [0, 1, 2] S_

variable [Facts]

def fn_part1 {F : FTy → Type} [FloatOps F] (main_arg4 : FVec F S16x8192x64 .f32) (main_arg5 : FVec F S16x8192x64 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S16x8192x64 .f32 := Host.absf main_arg4
  let main_cst_6 : FVec F S_ .f32 := constant S_ .f32 0x7F800000#32
  let main_v20 : FVec F S16x8192x64 .f32 := broadcastInDim S16x8192x64 ![] bcast_S_S16x8192x64 main_cst_6
  let main_v21 : IVec S16x8192x64 1 := cmpf .olt main_v19 main_v20
  let main_c_7 : IVec S_ 1 := constantI S_ 1 1#1
  let main_v22 : IVec S_ 1 := (fun x v => Host.reduce IntOp.andi x v reducesTo_S16x8192x64_S_d0_1_2 h_S_) main_v21 main_c_7
  let main_v23 : IVec S_ 1 := andi main_v18 main_v22
  let main_v24 : FVec F S16x8192x64 .f32 := Host.absf main_arg5
  let main_cst_8 : FVec F S_ .f32 := constant S_ .f32 0x7F800000#32
  let main_v25 : FVec F S16x8192x64 .f32 := broadcastInDim S16x8192x64 ![] bcast_S_S16x8192x64 main_cst_8
  let main_v26 : IVec S16x8192x64 1 := cmpf .olt main_v24 main_v25
  let main_c_9 : IVec S_ 1 := constantI S_ 1 1#1
  let main_v27 : IVec S_ 1 := (fun x v => Host.reduce IntOp.andi x v reducesTo_S16x8192x64_S_d0_1_2 h_S_) main_v26 main_c_9
  let main_v28 : IVec S_ 1 := andi main_v23 main_v27
  main_v28

def fn {F : FTy → Type} [FloatOps F] (main_arg0 : FVec F S512x1024 .f32) (main_arg1 : FVec F S1024x1024 .f32) (main_arg2 : FVec F S1024x1024 .f32) (main_arg3 : FVec F S1024x1024 .f32) (main_arg4 : FVec F S16x8192x64 .f32) (main_arg5 : FVec F S16x8192x64 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S512x1024 : Shape := ⟨2, ![512, 1024]⟩
abbrev S1024x1024 : Shape := ⟨2, ![1024, 1024]⟩
abbrev S16x8192x64 : Shape := ⟨3, ![16, 8192, 64]⟩
abbrev S512x16x64 : Shape := ⟨3, ![512, 16, 64]⟩
abbrev S16x512x64 : Shape := ⟨3, ![16, 512, 64]⟩
abbrev S16x1x8192 : Shape := ⟨3, ![16, 1, 8192]⟩
abbrev S1x512x64 : Shape := ⟨3, ![1, 512, 64]⟩
abbrev S1x7680x64 : Shape := ⟨3, ![1, 7680, 64]⟩
abbrev S1x1x8192 : Shape := ⟨3, ![1, 1, 8192]⟩
abbrev S512x64 : Shape := ⟨2, ![512, 64]⟩
abbrev S512x1 : Shape := ⟨2, ![512, 1]⟩
abbrev S64x512 : Shape := ⟨2, ![64, 512]⟩
abbrev S512x512 : Shape := ⟨2, ![512, 512]⟩
abbrev S512 : Shape := ⟨1, ![512]⟩
abbrev S1x512 : Shape := ⟨2, ![1, 512]⟩
abbrev S1x1x512 : Shape := ⟨3, ![1, 1, 512]⟩
abbrev S16x8192 : Shape := ⟨2, ![16, 8192]⟩

abbrev nBuf : Space → Nat
  | .hbm => 22
  | .vmem => 23
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16x8192x64, .f32⟩
  | .hbm, ⟨5, _⟩ => ⟨S16x8192x64, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S512x16x64, .bf16⟩
  | .hbm, ⟨10, _⟩ => ⟨S16x512x64, .bf16⟩
  | .hbm, ⟨11, _⟩ => ⟨S512x16x64, .bf16⟩
  | .hbm, ⟨12, _⟩ => ⟨S16x512x64, .bf16⟩
  | .hbm, ⟨13, _⟩ => ⟨S512x16x64, .bf16⟩
  | .hbm, ⟨14, _⟩ => ⟨S16x512x64, .bf16⟩
  | .hbm, ⟨15, _⟩ => ⟨S16x512x64, .f32⟩
  | .hbm, ⟨16, _⟩ => ⟨S16x1x8192, .f32⟩
  | .hbm, ⟨17, _⟩ => ⟨S16x1x8192, .f32⟩
  | .hbm, ⟨18, _⟩ => ⟨S512x16x64, .f32⟩
  | .hbm, ⟨19, _⟩ => ⟨S512x1024, .f32⟩
  | .hbm, ⟨20, _⟩ => ⟨S16x8192, .f32⟩
  | .hbm, ⟨21, _⟩ => ⟨S16x8192, .f32⟩
  | .local _ .vmem, ⟨0, _⟩ => ⟨S512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x512x64, .bf16⟩
  | .local _ .vmem, ⟨8, _⟩ => ⟨S1x512x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x512x64, .bf16⟩
  | .local _ .vmem, ⟨12, _⟩ => ⟨S1x512x64, .bf16⟩
  | .local _ .vmem, ⟨13, _⟩ => ⟨S1x7680x64, .f32⟩
  | .local _ .vmem, ⟨14, _⟩ => ⟨S1x7680x64, .f32⟩
  | .local _ .vmem, ⟨15, _⟩ => ⟨S1x7680x64, .f32⟩
  | .local _ .vmem, ⟨16, _⟩ => ⟨S1x7680x64, .f32⟩
  | .local _ .vmem, ⟨17, _⟩ => ⟨S1x512x64, .f32⟩
  | .local _ .vmem, ⟨18, _⟩ => ⟨S1x512x64, .f32⟩
  | .local _ .vmem, ⟨19, _⟩ => ⟨S1x1x8192, .f32⟩
  | .local _ .vmem, ⟨20, _⟩ => ⟨S1x1x8192, .f32⟩
  | .local _ .vmem, ⟨21, _⟩ => ⟨S1x1x8192, .f32⟩
  | .local _ .vmem, ⟨22, _⟩ => ⟨S1x1x8192, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![16], ![false]⟩

@[reducible] def k1_t1_loop : Scf.Loop 32 :=
  let c0_i32 : BitVec 32 := 0#32
  let c15_i32 : BitVec 32 := 15#32
  let v4 : BitVec 32 := Scalar.addi c0_i32 c15_i32
  let c1_i32 : BitVec 32 := 1#32
  ⟨c0_i32, v4, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c512_i32 : BitVec 32 := 512#32
  let v40 : BitVec 32 := Scalar.muli arg9 c512_i32
  v40
def k1_off1 (k1_t1 : Fin k1_t1_loop.trips) : Fin 3 → Nat :=
  let c0_28 : Index := 0#32
  let c0_i32 : BitVec 32 := 0#32
  let c1_i32 : BitVec 32 := 1#32
  let arg9 : BitVec 32 := Scf.iv c0_i32 c1_i32 k1_t1
  let c512_i32 : BitVec 32 := 512#32
  let v40 : BitVec 32 := Scalar.muli arg9 c512_i32
  let v41 : BitVec 32 := v40
  let v42 : Index := Scalar.indexCast v41
  let c0_29 : Index := 0#32
  ![0, v42.toNat, 0]
@[reducible] def k1_t2_loop : Scf.Loop 32 :=
  let c0_i32_24 : BitVec 32 := 0#32
  let c15_i32_25 : BitVec 32 := 15#32
  let v39 : BitVec 32 := Scalar.addi c0_i32_24 c15_i32_25
  let c1_i32_26 : BitVec 32 := 1#32
  ⟨c0_i32_24, v39, c1_i32_26⟩
def k1_mult2 (k1_t2 : Fin k1_t2_loop.trips) : BitVec 32 :=
  let c0_i32_24 : BitVec 32 := 0#32
  let c1_i32_26 : BitVec 32 := 1#32
  let arg9 : BitVec 32 := Scf.iv c0_i32_24 c1_i32_26 k1_t2
  let c512_i32 : BitVec 32 := 512#32
  let v40 : BitVec 32 := Scalar.muli arg9 c512_i32
  v40
def k1_off2 (k1_t2 : Fin k1_t2_loop.trips) : Fin 3 → Nat :=
  let c0_28 : Index := 0#32
  let c0_i32_24 : BitVec 32 := 0#32
  let c1_i32_26 : BitVec 32 := 1#32
  let arg9 : BitVec 32 := Scf.iv c0_i32_24 c1_i32_26 k1_t2
  let c512_i32 : BitVec 32 := 512#32
  let v40 : BitVec 32 := Scalar.muli arg9 c512_i32
  let v41 : BitVec 32 := v40
  let v42 : Index := Scalar.indexCast v41
  let c0_29 : Index := 0#32
  ![0, v42.toNat, 0]
def k1_off3 (k1_t2 : Fin k1_t2_loop.trips) : Fin 3 → Nat :=
  let c0_32 : Index := 0#32
  let c0_33 : Index := 0#32
  let c0_i32_24 : BitVec 32 := 0#32
  let c1_i32_26 : BitVec 32 := 1#32
  let arg9 : BitVec 32 := Scf.iv c0_i32_24 c1_i32_26 k1_t2
  let c512_i32 : BitVec 32 := 512#32
  let v40 : BitVec 32 := Scalar.muli arg9 c512_i32
  let v41 : BitVec 32 := v40
  let v53 : Index := Scalar.indexCast v41
  ![0, 0, v53.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x7680x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x7680x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x8192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x8192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  packedbf16_S512x1024_S512x1024_0_0 : (Rect.unit (s := S512x1024) ![0, 0] S512x1024.size inb_S512x1024_S512x1024_0_0).PackedRows (EltTy.packing .bf16)
  shapeCasts_S512x1024_S512x16x64 : S512x1024.ShapeCasts S512x16x64
  transposes_S512x16x64_S16x512x64_1_0_2 : S512x16x64.Transposes [1, 0, 2] S16x512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  reduces_S512x512_S512 : S512x512.Reduces [1] S512
  shapeCasts_S512_S512x1 : S512.ShapeCasts S512x1
  broadcasts_S512x1_S512x64 : S512x1.Broadcasts S512x64
  shapeCasts_S512x64_S1x512x64 : S512x64.ShapeCasts S1x512x64
  broadcasts_S512x1_S512x512 : S512x1.Broadcasts S512x512
  reduces_S512x512_S512_2 : S512x512.Reduces [0] S512
  shapeCasts_S512_S1x512 : S512.ShapeCasts S1x512
  inb_S1x1x8192_S1x1x512_0_0_7680 : ∀ a, (![0, 0, 7680] : Fin 3 → Nat) a + S1x1x512.size a ≤ S1x1x8192.size a
  h_S1x1x512 : 0 < S1x1x512.numel
  shapeCasts_S1x1x512_S1x512 : S1x1x512.ShapeCasts S1x512
  shapeCasts_S1x512_S1x1x512 : S1x512.ShapeCasts S1x1x512
  transposes_S16x512x64_S512x16x64_1_0_2 : S16x512x64.Transposes [1, 0, 2] S512x16x64
  shapeCasts_S512x16x64_S512x1024 : S512x16x64.ShapeCasts S512x1024
  shapeCasts_S16x1x8192_S16x8192 : S16x1x8192.ShapeCasts S16x8192
  dot_S512x1024_S1024x1024_S512x1024_1_0_0_1_n_n_wf : DotDims.WF S512x1024 S1024x1024 S512x1024 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S1x512x64.size a ≤ S1x7680x64.size a
  k1_t2_ok : k1_t2_loop.OK
  k1_mult2_dvd : ∀ k1_t2 : Fin k1_t2_loop.trips, 512 ∣ (k1_mult2 k1_t2).toNat
  k1_off2_inb : ∀ k1_t2 : Fin k1_t2_loop.trips, ∀ a, (k1_off2 k1_t2) a + S1x512x64.size a ≤ S1x7680x64.size a
  k1_off3_inb : ∀ k1_t2 : Fin k1_t2_loop.trips, ∀ a, (k1_off3 k1_t2) a + S1x1x512.size a ≤ S1x1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S16x512x64.size a
  hwx1_0 : ∀ i : grid1.Coords, EltTy.bits .bf16 = 32 ∨ (Rect.block (s := S16x512x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S16x512x64.size a
  hwx1_1 : ∀ i : grid1.Coords, EltTy.bits .bf16 = 32 ∨ (Rect.block (s := S16x512x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S16x512x64.size a
  hwx1_2 : ∀ i : grid1.Coords, EltTy.bits .bf16 = 32 ∨ (Rect.block (s := S16x512x64) S1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x7680x64.size a < S16x8192x64.size a
  hwx1_3 : ∀ i : grid1.Coords, EltTy.bits .f32 = 32 ∨ (Rect.unit (s := S16x8192x64) (fun a => cc1_transform_3 i a * S1x7680x64.size a) (fun a => (Pipeline.Clip.of (cc1_transform_3 i a) (S1x7680x64.size a) (S16x8192x64.size a)).extent (S1x7680x64.size a)) fun a => Pipeline.Clip.inb (Pipeline.Clip.ok_of (hstart1_3 i a))).WholeWords (EltTy.packing .f32)
  hwxs1_3 : ∀ i : grid1.Coords, EltTy.bits .f32 = 32 ∨ (Rect.unit (s := S1x7680x64) (fun _ => 0) (fun a => (Pipeline.Clip.of (cc1_transform_3 i a) (S1x7680x64.size a) (S16x8192x64.size a)).extent (S1x7680x64.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S1x7680x64.size a < S16x8192x64.size a
  hwx1_4 : ∀ i : grid1.Coords, EltTy.bits .f32 = 32 ∨ (Rect.unit (s := S16x8192x64) (fun a => cc1_transform_4 i a * S1x7680x64.size a) (fun a => (Pipeline.Clip.of (cc1_transform_4 i a) (S1x7680x64.size a) (S16x8192x64.size a)).extent (S1x7680x64.size a)) fun a => Pipeline.Clip.inb (Pipeline.Clip.ok_of (hstart1_4 i a))).WholeWords (EltTy.packing .f32)
  hwxs1_4 : ∀ i : grid1.Coords, EltTy.bits .f32 = 32 ∨ (Rect.unit (s := S1x7680x64) (fun _ => 0) (fun a => (Pipeline.Clip.of (cc1_transform_4 i a) (S1x7680x64.size a) (S16x8192x64.size a)).extent (S1x7680x64.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x64.size a ≤ S16x512x64.size a
  hwx1_5 : ∀ i : grid1.Coords, EltTy.bits .f32 = 32 ∨ (Rect.block (s := S16x512x64) S1x512x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x8192.size a ≤ S16x1x8192.size a
  hwx1_6 : ∀ i : grid1.Coords, EltTy.bits .f32 = 32 ∨ (Rect.block (s := S16x1x8192) S1x1x8192.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x8192.size a ≤ S16x1x8192.size a
  hwx1_7 : ∀ i : grid1.Coords, EltTy.bits .f32 = 32 ∨ (Rect.block (s := S16x1x8192) S1x1x8192.size (cc1_transform_7 i) (hinb1_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1024.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512x1024.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpecClip (Memref.whole main_arg4) S1x7680x64.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_arg5) S1x7680x64.size cc1_transform_4 reads1_4 false false 2 stage1_4 sem1_4
    hrank1 hreads1_4 hstart1_4 nbuf1_4 (Memref.isWhole_whole _) hwx1_4 hwxs1_4 hstage1_4

abbrev win1_5 : Pipeline.Window sig grid1 :=
  Pipeline.Window.ofSpec (Memref.whole main_v7_0) S1x512x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_1) S1x1x8192.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v7_2) S1x1x8192.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S512x1024 : Shape := ⟨2, ![512, 1024]⟩
abbrev S1024x1024 : Shape := ⟨2, ![1024, 1024]⟩
abbrev S16x8192x64 : Shape := ⟨3, ![16, 8192, 64]⟩
abbrev S512x16x64 : Shape := ⟨3, ![512, 16, 64]⟩
abbrev S16x512x64 : Shape := ⟨3, ![16, 512, 64]⟩
abbrev S_ : Shape := ⟨0, ![]⟩
abbrev S1 : Shape := ⟨1, ![1]⟩
abbrev S16x512x8192 : Shape := ⟨3, ![16, 512, 8192]⟩
abbrev S16x512 : Shape := ⟨2, ![16, 512]⟩
abbrev S16x512x1 : Shape := ⟨3, ![16, 512, 1]⟩
abbrev S16x8192 : Shape := ⟨2, ![16, 8192]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16x8192x64, .f32⟩
  | .hbm, ⟨5, _⟩ => ⟨S16x8192x64, .f32⟩
  | .hbm, ⟨6, _⟩ => ⟨S1024x1024, .f32⟩
  | .hbm, ⟨7, _⟩ => ⟨S512x1024, .f32⟩
  | .hbm, ⟨8, _⟩ => ⟨S512x16x64, .f32⟩
  | .hbm, ⟨9, _⟩ => ⟨S16x512x64, .f32⟩
  | .hbm, ⟨10, _⟩ => ⟨S1024x1024, .f32⟩
  | .hbm, ⟨11, _⟩ => ⟨S512x1024, .f32⟩
  | .hbm, ⟨12, _⟩ => ⟨S512x16x64, .f32⟩
  | .hbm, ⟨13, _⟩ => ⟨S16x512x64, .f32⟩
  | .hbm, ⟨14, _⟩ => ⟨S1024x1024, .f32⟩
  | .hbm, ⟨15, _⟩ => ⟨S512x1024, .f32⟩
  | .hbm, ⟨16, _⟩ => ⟨S512x16x64, .f32⟩
  | .hbm, ⟨17, _⟩ => ⟨S16x512x64, .f32⟩
  | .hbm, ⟨18, _⟩ => ⟨S_, .i32⟩
  | .hbm, ⟨19, _⟩ => ⟨S1, .i32⟩
  | .hbm, ⟨20, _⟩ => ⟨S16x8192x64, .f32⟩
  | .hbm, ⟨21, _⟩ => ⟨S_, .i32⟩
  | .hbm, ⟨22, _⟩ => ⟨S1, .i32⟩
  | .hbm, ⟨23, _⟩ => ⟨S16x8192x64, .f32⟩
  | .hbm, ⟨24, _⟩ => ⟨S16x512x8192, .f32⟩
  | .hbm, ⟨25, _⟩ => ⟨S16x512x8192, .f32⟩
  | .hbm, ⟨26, _⟩ => ⟨S_, .f32⟩
  | .hbm, ⟨27, _⟩ => ⟨S16x512, .f32⟩
  | .hbm, ⟨28, _⟩ => ⟨S16x512x1, .f32⟩
  | .hbm, ⟨29, _⟩ => ⟨S16x512x8192, .f32⟩
  | .hbm, ⟨30, _⟩ => ⟨S16x512x8192, .f32⟩
  | .hbm, ⟨31, _⟩ => ⟨S16x512x64, .f32⟩
  | .hbm, ⟨32, _⟩ => ⟨S_, .f32⟩
  | .hbm, ⟨33, _⟩ => ⟨S16x8192, .f32⟩
  | .hbm, ⟨34, _⟩ => ⟨S16x512x8192, .f32⟩
  | .hbm, ⟨35, _⟩ => ⟨S_, .f32⟩
  | .hbm, ⟨36, _⟩ => ⟨S16x8192, .f32⟩
  | .hbm, ⟨37, _⟩ => ⟨S512x16x64, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  transposes_S1024x1024_S1024x1024_1_0 : S1024x1024.Transposes [1, 0] S1024x1024
  shapeCasts_S512x1024_S512x16x64 : S512x1024.ShapeCasts S512x16x64
  transposes_S512x16x64_S16x512x64_1_0_2 : S512x16x64.Transposes [1, 0, 2] S16x512x64
  bcast_S_S1 : S_.BroadcastsInDim S1 (![] : Fin 0 → Fin S1.rank)
  reducesTo_S16x512x8192_S16x512_d2 : S16x512x8192.ReducesTo [2] S16x512
  h_S_ : 0 < S_.numel
  bcast_S16x512_S16x512x1_0_1 : S16x512.BroadcastsInDim S16x512x1 (![0, 1] : Fin 2 → Fin S16x512x1.rank)
  bcast_S16x512x1_S16x512x8192_0_1_2 : S16x512x1.BroadcastsInDim S16x512x8192 (![0, 1, 2] : Fin 3 → Fin S16x512x8192.rank)
  reducesTo_S16x512x8192_S16x8192_d1 : S16x512x8192.ReducesTo [1] S16x8192
  transposes_S16x512x64_S512x16x64_1_0_2 : S16x512x64.Transposes [1, 0, 2] S512x16x64
  shapeCasts_S512x16x64_S512x1024 : S512x16x64.ShapeCasts S512x1024
  dot_S512x1024_S1024x1024_S512x1024_1_0_0_1_n_n_wf : DotDims.WF S512x1024 S1024x1024 S512x1024 [1] [0] [0] [1] [] []
  scatter_S16x8192x64_S1_S16x512x64_012_n_1_0_wf : ScatterDims.WF S16x8192x64 S1 S16x512x64 [0, 1, 2] [] [1] 0
  dot_S16x512x64_S16x8192x64_S16x512x8192_2_2_1_1_0_0_wf : DotDims.WF S16x512x64 S16x8192x64 S16x512x8192 [2] [2] [1] [1] [0] [0]
  dot_S16x512x8192_S16x8192x64_S16x512x64_2_1_1_2_0_0_wf : DotDims.WF S16x512x8192 S16x8192x64 S16x512x64 [2] [1] [1] [2] [0] [0]

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def scatter_S16x8192x64_S1_S16x512x64_012_n_1_0 : ScatterDims S16x8192x64 S1 S16x512x64 where
  updateWindowDims := [0, 1, 2]
  insertedWindowDims := []
  scatterDimsToOperandDims := [1]
  indexVectorDim := 0
  wf := scatter_S16x8192x64_S1_S16x512x64_012_n_1_0_wf
def dot_S16x512x64_S16x8192x64_S16x512x8192_2_2_1_1_0_0 : DotDims S16x512x64 S16x8192x64 S16x512x8192 where
  lhsContracting := [2]
  rhsContracting := [2]
  lhsNonContracting := [1]
  rhsNonContracting := [1]
  lhsBatch := [0]
  rhsBatch := [0]
  wf := dot_S16x512x64_S16x8192x64_S16x512x8192_2_2_1_1_0_0_wf
def dot_S16x512x8192_S16x8192x64_S16x512x64_2_1_1_2_0_0 : DotDims S16x512x8192 S16x8192x64 S16x512x64 where
  lhsContracting := [2]
  rhsContracting := [1]
  lhsNonContracting := [1]
  rhsNonContracting := [2]
  lhsBatch := [0]
  rhsBatch := [0]
  wf := dot_S16x512x8192_S16x8192x64_S16x512x64_2_1_1_2_0_0_wf

class Facts : Prop extends Facts₀ where

variable [Facts]
-- ==== Proof.ProjFrameK.lean ====
/-
  The projection kernel's half of the frame: one grid point; the body loads the row block and the three weight
  matrices whole, and stores the three products x·wᵀ whole into the three result blocks. So after the body each
  result's buffer holds one function of the loaded blocks, each input's buffer its block, and the pipeline's
  proof data are those. Stated at any float instance.
-/
import proofs.«128360_j52493090291775_2_alg».proof.Proof.Gen.Kernel.Launch
import proofs.«128360_j52493090291775_2_alg».proof.Proof.Gen.Kernel.Skeleton
import proofs.«128360_j52493090291775_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at the point, whatever proof data has the region's arrays and leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the point, whatever proof data has the region's arrays and leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the point, whatever proof data has the region's arrays and leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at the point, whatever proof data has the region's arrays and leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole row block and the whole weight matrix, as rectangles. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- What the body leaves in the three result buffers: the one whole store of each. -/
def out0_4 (x0 : Vec F S512x1024 .f32) (x1 : Vec F S1024x1024 .f32) : Vec F S512x1024 .bf16 :=
  View.canon [⟨rX, k0_pay2 (View.ld x0 rX) (View.ld x1 rW)⟩]
def out0_5 (x0 : Vec F S512x1024 .f32) (x2 : Vec F S1024x1024 .f32) : Vec F S512x1024 .bf16 :=
  View.canon [⟨rX, k0_pay3 (View.ld x0 rX) (View.ld x2 rW)⟩]
def out0_6 (x0 : Vec F S512x1024 .f32) (x3 : Vec F S1024x1024 .f32) : Vec F S512x1024 .bf16 :=
  View.canon [⟨rX, k0_pay4 (View.ld x0 rX) (View.ld x3 rW)⟩]

/-- One whole store covers the buffer. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 2000000 in
/-- The body on whole staging memrefs: the inputs are read and kept, each result buffer ends at its store. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 x2 x3 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-- The proof data of the projection pipeline on core c: the arrays as the region finds them; after the body each
    input's buffer at its block, each result's at the product of the blocks; the class-A invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at the point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at the point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.AttnBodyK.lean ====
/-
  The attention kernel's body, one head per grid point. It reads the head's query block q, its new key and value
  blocks, and the first 7680 cache positions of the head's keys and values, fifteen tiles of 512 positions. A first
  loop carries, from zero, the running row sums l of the numerators e^{q·k} and the running products acc of the
  numerators with the values, tile by tile; the new tile is then added, the output block is acc·(1/l), and the new
  tile's column sums of the normalised numerators (and of their squares) are stored at positions 7680..8191 of the
  two column buffers. A second loop stores, tile by tile, the same column sums for the cache tiles at positions
  512·k .. 512·k+511. So the sixteen stores tile each column buffer, and what the body leaves in every output buffer
  is one function of the blocks it read. Stated at any float instance.
-/
import proofs.«128360_j52493090291775_2_alg».proof.Proof.Gen.Kernel.Launch
import proofs.«128360_j52493090291775_2_alg».proof.Proof.Gen.Kernel.Skeleton
import proofs.«128360_j52493090291775_2_alg».proof.Proof.Gen.Kernel.Loops
import proofs.«128360_j52493090291775_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole 1×512×64 block. -/
abbrev rB : Rect S1x512x64 := Rect.unit (s := S1x512x64) ![0, 0, 0] S1x512x64.size inb_S1x512x64_S1x512x64_0_0_0
/-- Positions 7680..8191 of a column buffer: the new tile. -/
abbrev rNew : Rect S1x1x8192 := Rect.unit (s := S1x1x8192) ![0, 0, 7680] S1x1x512.size inb_S1x1x8192_S1x1x512_0_0_7680
/-- Cache tile k, as the first loop reads it. -/
abbrev tile1 (k : Fin k1_t1_loop.trips) : Rect S1x7680x64 := Rect.unit (s := S1x7680x64) (k1_off1 k) S1x512x64.size (k1_off1_inb k)
/-- Cache tile k, as the second loop reads it. -/
abbrev tile2 (k : Fin k1_t2_loop.trips) : Rect S1x7680x64 := Rect.unit (s := S1x7680x64) (k1_off2 k) S1x512x64.size (k1_off2_inb k)
/-- Positions 512·k .. 512·k+511 of a column buffer. -/
abbrev tileC (k : Fin k1_t2_loop.trips) : Rect S1x1x8192 := Rect.unit (s := S1x1x8192) (k1_off3 k) S1x1x512.size (k1_off3_inb k)

/-! ## The first loop's carried pair, tile by tile -/

/-- The running row sums and running products after k cache tiles, from zero. -/
def carry (v0 : Vec F S1x512x64 .bf16) (x3 x4 : Vec F S1x7680x64 .f32) : ℕ → FVec F S512x1 .f32 × FVec F S512x64 .f32
  | 0 => (k1_pay7, k1_pay8)
  | k + 1 =>
    if h : k < k1_t1_loop.trips then
      (k1_pay10 v0 (carry v0 x3 x4 k).1 (View.ld x3 (tile1 ⟨k, h⟩)),
        k1_pay11 v0 (carry v0 x3 x4 k).2 (View.ld x3 (tile1 ⟨k, h⟩)) (View.ld x4 (tile1 ⟨k, h⟩)))
    else carry v0 x3 x4 k

/-- One trip of the first loop yields the two updates of the carried pair at the trip's tile. -/
theorem trip1_eq (𝒱 : Variants) (c : Dev nD) (bd : Option 𝒱.V) (i : grid1.Coords) (arg1 : Memref sig .tc .vmem S1x512x64 .bf16) (harg1 : arg1.IsWhole) (arg2 : Memref sig .tc .vmem S1x512x64 .bf16) (harg2 : arg2.IsWhole) (arg3 : Memref sig .tc .vmem S1x512x64 .bf16) (harg3 : arg3.IsWhole) (arg4 : Memref sig .tc .vmem S1x7680x64 .f32) (harg4 : arg4.IsWhole) (arg5 : Memref sig .tc .vmem S1x7680x64 .f32) (harg5 : arg5.IsWhole) (arg6 : Memref sig .tc .vmem S1x512x64 .f32) (harg6 : arg6.IsWhole) (arg7 : Memref sig .tc .vmem S1x1x8192 .f32) (harg7 : arg7.IsWhole) (arg8 : Memref sig .tc .vmem S1x1x8192 .f32) (harg8 : arg8.IsWhole)
    (v0 : Vec F S1x512x64 .bf16) (X4 : BufTy.Contents (Elt F) arg4.view.ty) (X5 : BufTy.Contents (Elt F) arg5.view.ty)
    (k : Fin k1_t1_loop.trips) (acc : FVec F S512x1 .f32 × FVec F S512x64 .f32) :
    tripR_k1_t1 (F := F) 𝒱 c bd i arg1 harg1 arg2 harg2 arg3 harg3 arg4 harg4 arg5 harg5 arg6 harg6 arg7 harg7 arg8 harg8 v0 X4 X5 k acc
      = (k1_pay10 v0 acc.1 (View.ld (arg4.view.read (Elt F) X4) (tile1 k)),
          k1_pay11 v0 acc.2 (View.ld (arg4.view.read (Elt F) X4) (tile1 k)) (View.ld (arg5.view.read (Elt F) X5) (tile1 k))) := by
  unfold tripR_k1_t1 trip_k1_t1
  rfl

/-- The loop's carried value before trip k is the running pair over the buffers' contents. -/
theorem st_eq (𝒱 : Variants) (c : Dev nD) (bd : Option 𝒱.V) (i : grid1.Coords) (arg1 : Memref sig .tc .vmem S1x512x64 .bf16) (harg1 : arg1.IsWhole) (arg2 : Memref sig .tc .vmem S1x512x64 .bf16) (harg2 : arg2.IsWhole) (arg3 : Memref sig .tc .vmem S1x512x64 .bf16) (harg3 : arg3.IsWhole) (arg4 : Memref sig .tc .vmem S1x7680x64 .f32) (harg4 : arg4.IsWhole) (arg5 : Memref sig .tc .vmem S1x7680x64 .f32) (harg5 : arg5.IsWhole) (arg6 : Memref sig .tc .vmem S1x512x64 .f32) (harg6 : arg6.IsWhole) (arg7 : Memref sig .tc .vmem S1x1x8192 .f32) (harg7 : arg7.IsWhole) (arg8 : Memref sig .tc .vmem S1x1x8192 .f32) (harg8 : arg8.IsWhole)
    (v0 : Vec F S1x512x64 .bf16) (X4 : BufTy.Contents (Elt F) arg4.view.ty) (X5 : BufTy.Contents (Elt F) arg5.view.ty) (k : ℕ) :
    st_k1_t1 (F := F) 𝒱 c bd i arg1 harg1 arg2 harg2 arg3 harg3 arg4 harg4 arg5 harg5 arg6 harg6 arg7 harg7 arg8 harg8 v0 X4 X5 (k1_pay7, k1_pay8) k
      = carry v0 (arg4.view.read (Elt F) X4) (arg5.view.read (Elt F) X5) k := by
  induction k with
  | zero => rfl
  | succ k ih =>
    rw [st_k1_t1.eq_2, carry]
    unfold st_k1_t1Step
    split
    · rw [ih, trip1_eq]
    · exact ih

/-! ## The second loop's stores, tile by tile -/

/-- The pieces the trips before k store into the two column buffers, last first. -/
def pieces (v1 : FVec F S512x64 .bf16) (v20 : FVec F S512x1 .f32) (x3 : Vec F S1x7680x64 .f32) :
    ℕ → List (View.Piece (Elt F) S1x1x8192 .f32) × List (View.Piece (Elt F) S1x1x8192 .f32)
  | 0 => ([], [])
  | k + 1 =>
    if h : k < k1_t2_loop.trips then
      ((⟨tileC ⟨k, h⟩, k1_pay4 v1 v20 (View.ld x3 (tile2 ⟨k, h⟩))⟩ : View.Piece (Elt F) S1x1x8192 .f32) :: (pieces v1 v20 x3 k).1,
        (⟨tileC ⟨k, h⟩, k1_pay5 v1 v20 (View.ld x3 (tile2 ⟨k, h⟩))⟩ : View.Piece (Elt F) S1x1x8192 .f32) :: (pieces v1 v20 x3 k).2)
    else pieces v1 v20 x3 k

/-- One trip of the second loop stores one piece into each column buffer, at the trip's positions. -/
theorem trip2_eq (𝒱 : Variants) (c : Dev nD) (bd : Option 𝒱.V) (i : grid1.Coords) (arg1 : Memref sig .tc .vmem S1x512x64 .bf16) (harg1 : arg1.IsWhole) (arg2 : Memref sig .tc .vmem S1x512x64 .bf16) (harg2 : arg2.IsWhole) (arg3 : Memref sig .tc .vmem S1x512x64 .bf16) (harg3 : arg3.IsWhole) (arg4 : Memref sig .tc .vmem S1x7680x64 .f32) (harg4 : arg4.IsWhole) (arg5 : Memref sig .tc .vmem S1x7680x64 .f32) (harg5 : arg5.IsWhole) (arg6 : Memref sig .tc .vmem S1x512x64 .f32) (harg6 : arg6.IsWhole) (arg7 : Memref sig .tc .vmem S1x1x8192 .f32) (harg7 : arg7.IsWhole) (arg8 : Memref sig .tc .vmem S1x1x8192 .f32) (harg8 : arg8.IsWhole)
    (v1 : FVec F S512x64 .bf16) (v20 : FVec F S512x1 .f32) (X4 : BufTy.Contents (Elt F) arg4.view.ty) (k : Fin k1_t2_loop.trips) :
    tripL_k1_t2 (F := F) 𝒱 c bd i arg1 harg1 arg2 harg2 arg3 harg3 arg4 harg4 arg5 harg5 arg6 harg6 arg7 harg7 arg8 harg8 v1 v20 X4 k
      = ([⟨tileC k, k1_pay4 v1 v20 (View.ld (arg4.view.read (Elt F) X4) (tile2 k))⟩],
          [⟨tileC k, k1_pay5 v1 v20 (View.ld (arg4.view.read (Elt F) X4) (tile2 k))⟩]) := by
  unfold tripL_k1_t2 trip_k1_t2
  rfl

/-- The pieces of the trips before k are the tile-by-tile list over the buffer's contents. -/
theorem pb_eq (𝒱 : Variants) (c : Dev nD) (bd : Option 𝒱.V) (i : grid1.Coords) (arg1 : Memref sig .tc .vmem S1x512x64 .bf16) (harg1 : arg1.IsWhole) (arg2 : Memref sig .tc .vmem S1x512x64 .bf16) (harg2 : arg2.IsWhole) (arg3 : Memref sig .tc .vmem S1x512x64 .bf16) (harg3 : arg3.IsWhole) (arg4 : Memref sig .tc .vmem S1x7680x64 .f32) (harg4 : arg4.IsWhole) (arg5 : Memref sig .tc .vmem S1x7680x64 .f32) (harg5 : arg5.IsWhole) (arg6 : Memref sig .tc .vmem S1x512x64 .f32) (harg6 : arg6.IsWhole) (arg7 : Memref sig .tc .vmem S1x1x8192 .f32) (harg7 : arg7.IsWhole) (arg8 : Memref sig .tc .vmem S1x1x8192 .f32) (harg8 : arg8.IsWhole)
    (v1 : FVec F S512x64 .bf16) (v20 : FVec F S512x1 .f32) (X4 : BufTy.Contents (Elt F) arg4.view.ty) (k : ℕ) :
    pb_k1_t2 (F := F) 𝒱 c bd i arg1 harg1 arg2 harg2 arg3 harg3 arg4 harg4 arg5 harg5 arg6 harg6 arg7 harg7 arg8 harg8 v1 v20 X4 k = pieces v1 v20 (arg4.view.read (Elt F) X4) k := by
  induction k with
  | zero => rfl
  | succ k ih =>
    rw [pb_k1_t2.eq_2, pieces]
    unfold pb_k1_t2Step
    split
    · rw [ih, trip2_eq]; rfl
    · exact ih

/-! ## The sixteen stores tile each column buffer -/

/-- Tile k's rectangle is among the first column buffer's pieces once k trips are past. -/
theorem rect_mem1 (v1 : FVec F S512x64 .bf16) (v20 : FVec F S512x1 .f32) (x3 : Vec F S1x7680x64 .f32) :
    ∀ (n k : ℕ) (hk : k < k1_t2_loop.trips), k < n → ∃ pc ∈ (pieces v1 v20 x3 n).1, pc.1 = tileC ⟨k, hk⟩
  | 0, k, hk, h => absurd h (Nat.not_lt_zero _)
  | n + 1, k, hk, h => by
    rw [pieces]; split
    · next hn =>
      by_cases e : k = n
      · subst e; exact ⟨_, List.mem_cons_self .., rfl⟩
      · obtain ⟨pc, hpc, e'⟩ := rect_mem1 v1 v20 x3 n k hk (by omega)
        exact ⟨pc, List.mem_cons_of_mem _ hpc, e'⟩
    · next hn => exact rect_mem1 v1 v20 x3 n k hk (by omega)

/-- The same for the second column buffer. -/
theorem rect_mem2 (v1 : FVec F S512x64 .bf16) (v20 : FVec F S512x1 .f32) (x3 : Vec F S1x7680x64 .f32) :
    ∀ (n k : ℕ) (hk : k < k1_t2_loop.trips), k < n → ∃ pc ∈ (pieces v1 v20 x3 n).2, pc.1 = tileC ⟨k, hk⟩
  | 0, k, hk, h => absurd h (Nat.not_lt_zero _)
  | n + 1, k, hk, h => by
    rw [pieces]; split
    · next hn =>
      by_cases e : k = n
      · subst e; exact ⟨_, List.mem_cons_self .., rfl⟩
      · obtain ⟨pc, hpc, e'⟩ := rect_mem2 v1 v20 x3 n k hk (by omega)
        exact ⟨pc, List.mem_cons_of_mem _ hpc, e'⟩
    · next hn => exact rect_mem2 v1 v20 x3 n k hk (by omega)

theorem trips2 : k1_t2_loop.trips = 15 := by decide

/-- Fifteen tiles of 512 positions and the new tile at 7680 cover the 8192 positions. -/
theorem cover_col (L : List (View.Piece (Elt F) S1x1x8192 .f32))
    (hL : ∀ (k : ℕ) (hk : k < k1_t2_loop.trips), ∃ pc ∈ L, pc.1 = tileC ⟨k, hk⟩)
    (p : FVec F S1x1x512 .f32) (y : S1x1x8192.Idx) :
    ∃ pc ∈ L ++ [(⟨rNew, p⟩ : View.Piece (Elt F) S1x1x8192 .f32)], y ∈ pc.1.set := by
  have h0 : (y 0).val < 1 := (y 0).isLt
  have h1 : (y 1).val < 1 := (y 1).isLt
  have h2 : (y 2).val < 8192 := (y 2).isLt
  by_cases hy : (y 2).val < 7680
  · have hk : (y 2).val / 512 < k1_t2_loop.trips := by rw [trips2]; omega
    obtain ⟨pc, hpc, e⟩ := hL ((y 2).val / 512) hk
    refine ⟨pc, List.mem_append_left _ hpc, ?_⟩
    rw [e, Rect.mem_set_unit, k1_off3_eq]
    intro a
    match a with
    | ⟨0, _⟩ => exact ⟨Nat.zero_le _, show (y 0).val < 0 + 1 by omega⟩
    | ⟨1, _⟩ => exact ⟨Nat.zero_le _, show (y 1).val < 0 + 1 by omega⟩
    | ⟨2, _⟩ =>
      refine ⟨show 512 * ((y 2).val / 512) ≤ (y 2).val by omega, show (y 2).val < 512 * ((y 2).val / 512) + 512 by omega⟩
  · refine ⟨⟨rNew, p⟩, List.mem_append_right _ (List.mem_singleton_self _), ?_⟩
    rw [Rect.mem_set_unit]
    intro a
    match a with
    | ⟨0, _⟩ => exact ⟨Nat.zero_le _, show (y 0).val < 0 + 1 by omega⟩
    | ⟨1, _⟩ => exact ⟨Nat.zero_le _, show (y 1).val < 0 + 1 by omega⟩
    | ⟨2, _⟩ => exact ⟨show 7680 ≤ (y 2).val by omega, show (y 2).val < 7680 + 512 by omega⟩

/-- One whole store covers the output block. -/
theorem coverB (p0 : Vec F S1x512x64 .f32) (y : S1x512x64.Idx) :
    ∃ pc ∈ ([⟨rB, p0⟩] : List (View.Piece (Elt F) S1x512x64 .f32)), y ∈ pc.1.set :=
  View.cover_of_tiled [⟨rB, p0⟩] S1x512x64.size (by rfl) y

/-! ## What the body leaves in its three output buffers -/

section Outs

variable (x0 x1 x2 : Vec F S1x512x64 .bf16) (x3 x4 : Vec F S1x7680x64 .f32)

/-- The running pair after all fifteen cache tiles. -/
def totals : FVec F S512x1 .f32 × FVec F S512x64 .f32 := carry (View.ld x0 rB) x3 x4 k1_t1_loop.trips
/-- The reciprocal of the completed row sums. -/
def invl : FVec F S512x1 .f32 := k1_pay13 (View.ld x0 rB) (totals x0 x3 x4).1 (View.ld x1 rB)

/-- The output block: one whole store. -/
def out1_5 : Vec F S1x512x64 .f32 :=
  View.canon [⟨rB, k1_pay14 (View.ld x0 rB) (totals x0 x3 x4).1 (totals x0 x3 x4).2 (View.ld x1 rB) (View.ld x2 rB)⟩]
/-- The first column buffer: the fifteen tiles' stores over the new tile's. -/
def out1_6 : Vec F S1x1x8192 .f32 :=
  View.canon ((pieces (k1_pay6 (View.ld x0 rB)) (invl x0 x1 x3 x4) x3 k1_t2_loop.trips).1
    ++ [⟨rNew, k1_pay1 (k1_pay16 (View.ld x0 rB) (totals x0 x3 x4).1 (View.ld x1 rB))⟩])
/-- The second column buffer. -/
def out1_7 : Vec F S1x1x8192 .f32 :=
  View.canon ((pieces (k1_pay6 (View.ld x0 rB)) (invl x0 x1 x3 x4) x3 k1_t2_loop.trips).2
    ++ [⟨rNew, k1_pay2 (k1_pay15 (View.ld x0 rB) (totals x0 x3 x4).1 (View.ld x1 rB))⟩])

end Outs

set_option maxHeartbeats 4000000 in
/-- The body on whole staging memrefs: the five inputs are read and kept; each output buffer ends at one function of them. -/
theorem sound_kernel1 (c : Dev nD) (E : Set ℕ) (i : grid1.Coords) (arg1 : Memref sig .tc .vmem S1x512x64 .bf16) (harg1 : arg1.IsWhole) (arg2 : Memref sig .tc .vmem S1x512x64 .bf16) (harg2 : arg2.IsWhole) (arg3 : Memref sig .tc .vmem S1x512x64 .bf16) (harg3 : arg3.IsWhole) (arg4 : Memref sig .tc .vmem S1x7680x64 .f32) (harg4 : arg4.IsWhole) (arg5 : Memref sig .tc .vmem S1x7680x64 .f32) (harg5 : arg5.IsWhole) (arg6 : Memref sig .tc .vmem S1x512x64 .f32) (harg6 : arg6.IsWhole) (arg7 : Memref sig .tc .vmem S1x1x8192 .f32) (harg7 : arg7.IsWhole) (arg8 : Memref sig .tc .vmem S1x1x8192 .f32) (harg8 : arg8.IsWhole)
    (x0 x1 x2 : Vec F S1x512x64 .bf16) (x3 x4 : Vec F S1x7680x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x3 x4)
            ∗ owns (c : Thread nD τ) arg8 fullShare (out1_7 x0 x1 x3 x4)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [st_eq]
    exact View.read_writes_eq_canon _ _ _ (coverB _)
  isplitl [H7]
  · iexists _; isplitr
    swap; · iexact H7
    ipureintro
    sl_unfold_run_names
    rw [pb_eq, st_eq]
    exact View.read_writes_eq_canon _ _ _ (cover_col _ (fun k hk => rect_mem1 _ _ _ _ k hk hk) _)
  iexists _; isplitr
  swap; · iexact H8
  ipureintro
  sl_unfold_run_names
  rw [pb_eq, st_eq]
  exact View.read_writes_eq_canon _ _ _ (cover_col _ (fun k hk => rect_mem2 _ _ _ _ k hk hk) _)

end Cert.Kernel.Hand

end
-- ==== Proof.AttnFrameK.lean ====
/-
  The attention kernel's half of the frame: sixteen grid points, one head each. Every input window's staging buffer
  holds the head's block when the body runs — for the two cache windows, whose block of 7680 positions is shorter
  than the array's 8192 and starts at position 0 at every point, nothing is cut, so a fetch fills the whole buffer
  with positions 0..7679 — and after the body each output's buffer holds the body's function of those blocks.
  Stated at any float instance.
-/
import proofs.«128360_j52493090291775_2_alg».proof.Proof.AttnBodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- No fetch of a cache window is cut: its block starts at position 0 and ends at 7680 ≤ 8192, at every point. -/
theorem clip1_3 : ∀ (t : Fin cfg1.N) (a : Fin (cfg1.win 3).shape.rank), (cfg1.win 3).clip (cfg1.grid.coords t) a = none := by decide
theorem clip1_4 : ∀ (t : Fin cfg1.N) (a : Fin (cfg1.win 4).shape.rank), (cfg1.win 4).clip (cfg1.grid.coords t) a = none := by decide

/-- A word to fill a buffer with where no fetch writes (nowhere, for these windows). -/
def pad3 : (cfg1.win 3).block.Idx → Elt F (cfg1.win 3).elt := fun _ => (Scalar.ofBits .f32 0x00000000#32 : F .f32)
def pad4 : (cfg1.win 4).block.Idx → Elt F (cfg1.win 4).elt := fun _ => (Scalar.ofBits .f32 0x00000000#32 : F .f32)

/-- The cache windows' staging buffers after a fetch at point t: the head's first 7680 positions. -/
def cblk1_3 (c : Dev nD) (t : Fin cfg1.N) : (cfg1.win 3).block.Idx → Elt F (cfg1.win 3).elt :=
  (cfg1.win 3).fill (cfg1.grid.coords t) (pad3 (F := F)) (iblk1 V c 3 t)
def cblk1_4 (c : Dev nD) (t : Fin cfg1.N) : (cfg1.win 4).block.Idx → Elt F (cfg1.win 4).elt :=
  (cfg1.win 4).fill (cfg1.grid.coords t) (pad4 (F := F)) (iblk1 V c 4 t)

theorem before1_3_of {c : Dev nD} (dat : Dat τ (Elt F) Unit ℕ (UR sig nD τ) ℕ cfg1 c) (hA : dat.A 3 = V c (Pipeline.arrRef spec1 3))
    (hafter : ∀ t, dat.after 3 t = cblk1_3 V c t) (t : Fin cfg1.N) (d) : dat.before 3 t d = cblk1_3 V c t := by
  rw [dat.before_in_eq_fetched 3 rfl (fun _ => rfl) (fun t t' _ => funext fun a => (clip1_3 t a).trans (clip1_3 t' a).symm)
      (fun t => by rw [hafter]; unfold cblk1_3; rw [Window.cut_fill]; unfold Dat.blockOf iblk1; rw [hA]) t d,
    dat.fetched_of_clip_none 3 t (clip1_3 t) d (pad3 (F := F))]
  unfold Dat.fetched Dat.blockOf cblk1_3 iblk1; rw [hA]

theorem before1_4_of {c : Dev nD} (dat : Dat τ (Elt F) Unit ℕ (UR sig nD τ) ℕ cfg1 c) (hA : dat.A 4 = V c (Pipeline.arrRef spec1 4))
    (hafter : ∀ t, dat.after 4 t = cblk1_4 V c t) (t : Fin cfg1.N) (d) : dat.before 4 t d = cblk1_4 V c t := by
  rw [dat.before_in_eq_fetched 4 rfl (fun _ => rfl) (fun t t' _ => funext fun a => (clip1_4 t a).trans (clip1_4 t' a).symm)
      (fun t => by rw [hafter]; unfold cblk1_4; rw [Window.cut_fill]; unfold Dat.blockOf iblk1; rw [hA]) t d,
    dat.fetched_of_clip_none 4 t (clip1_4 t) d (pad4 (F := F))]
  unfold Dat.fetched Dat.blockOf cblk1_4 iblk1; rw [hA]

/-- The proof data of the attention pipeline on core c: the arrays as the region finds them; after the body each
    input's buffer at its block, each output's at the body's function of the blocks; the class-A invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => cblk1_3 V c t
    | ⟨4, _⟩ => cblk1_4 V c t
    | ⟨5, _⟩ => out1_5 (iblk1 V c 0 t) (iblk1 V c 1 t) (iblk1 V c 2 t) (cblk1_3 V c t) (cblk1_4 V c t)
    | ⟨6, _⟩ => out1_6 (iblk1 V c 0 t) (iblk1 V c 1 t) (cblk1_3 V c t) (cblk1_4 V c t)
    | ⟨7, _⟩ => out1_7 (iblk1 V c 0 t) (iblk1 V c 1 t) (cblk1_3 V c t) (cblk1_4 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = cblk1_3 V c t := by dsimp only [dat1]
theorem after1_4 (c : Dev nD) (t : Fin cfg1.N) : (dat1 V c).after 4 t = cblk1_4 V c t := by dsimp only [dat1]
theorem after1_5 (c : Dev nD) (t : Fin cfg1.N) : (dat1 V c).after 5 t
    = out1_5 (iblk1 V c 0 t) (iblk1 V c 1 t) (iblk1 V c 2 t) (cblk1_3 V c t) (cblk1_4 V c t) := by dsimp only [dat1]
theorem after1_6 (c : Dev nD) (t : Fin cfg1.N) : (dat1 V c).after 6 t
    = out1_6 (iblk1 V c 0 t) (iblk1 V c 1 t) (cblk1_3 V c t) (cblk1_4 V c t) := by dsimp only [dat1]
theorem after1_7 (c : Dev nD) (t : Fin cfg1.N) : (dat1 V c).after 7 t
    = out1_7 (iblk1 V c 0 t) (iblk1 V c 1 t) (cblk1_3 V c t) (cblk1_4 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = cblk1_3 V c t :=
  before1_3_of V (dat1 V c) (A_eq1 V c 3) (after1_3 V c) t d
theorem before1_4 (c : Dev nD) (t : Fin cfg1.N) (d) : (dat1 V c).before 4 t d = cblk1_4 V c t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (cblk1_3 V c t) (cblk1_4 V c t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunK.lean ====
/-
  The whole program's run: the projection region, the host operations that split its three results into heads, the
  attention region, and the host operations that lay the heads' outputs back side by side. The contents of every
  unscoped buffer are named at each boundary — a region replaces its arrays by what its write-backs leave, a stretch
  of host operations applies them — and every weakly fair execution from a memory with zero counters terminates with
  every unscoped buffer at the last boundary's contents. Stated at any float instance.
-/
import proofs.«128360_j52493090291775_2_alg».proof.Proof.ProjFrameK
import proofs.«128360_j52493090291775_2_alg».proof.Proof.AttnFrameK
import proofs.«128360_j52493090291775_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the projection region: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the heads are split out. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the attention region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the heads are laid back side by side: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with the
    region's arrays at what its write-backs leave and every other buffer as entered; the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered; the generator register into the
    class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from a memory with zero counters terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- An input window's array is unchanged by its region. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

/-- The row block and the three weight matrices are read by the projection region only; nothing writes them. -/
theorem W4_proj_arg (c : Dev nD) (w : Fin cfg0.W) (hw : (cfg0.win w).isOut = false)
    (h2 : Pipeline.arrRef spec0 w ∉ hostOps2_W) (h3 : ∀ w', Pipeline.arrRef spec1 w' ≠ Pipeline.arrRef spec0 w)
    (h1 : Pipeline.arrRef spec0 w ∉ hostOps1_W) :
    W4 m ρ c (Proc.devRef .tc (Pipeline.arrRef spec0 w)) = m ((c : Thread nD τ).loc (Pipeline.arrRef spec0 w)) :=
  (StableHlo.after_of_writes_sub hostOps2 (W3 m ρ c) hostOps2_writes h2).trans <|
    (W3_of_ne m ρ c _ h3).trans <|
      (StableHlo.after_of_writes_sub hostOps1 (W1 m ρ c) hostOps1_writes h1).trans <|
        (W1_in m ρ c w hw).trans rfl
/-- The two caches are read by the attention region only; nothing writes them. -/
theorem W4_cache_arg (c : Dev nD) (w : Fin cfg1.W) (hw : (cfg1.win w).isOut = false)
    (h2 : Pipeline.arrRef spec1 w ∉ hostOps2_W) (h1 : Pipeline.arrRef spec1 w ∉ hostOps1_W)
    (h0 : ∀ w', Pipeline.arrRef spec0 w' ≠ Pipeline.arrRef spec1 w) :
    W4 m ρ c (Proc.devRef .tc (Pipeline.arrRef spec1 w)) = m ((c : Thread nD τ).loc (Pipeline.arrRef spec1 w)) :=
  (StableHlo.after_of_writes_sub hostOps2 (W3 m ρ c) hostOps2_writes h2).trans <|
    (W3_in m ρ c w hw).trans <|
      (StableHlo.after_of_writes_sub hostOps1 (W1 m ρ c) hostOps1_writes h1).trans <|
        (W1_of_ne m ρ c _ h0).trans rfl

/-- The frame: the program runs to the end from any memory with zero counters and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_proj_arg m ρ c 0 rfl (by decide) (by decide) (by decide)),
      (h c _ (mem_uc main_arg1 (by decide))).trans (W4_proj_arg m ρ c 1 rfl (by decide) (by decide) (by decide)),
      (h c _ (mem_uc main_arg2 (by decide))).trans (W4_proj_arg m ρ c 2 rfl (by decide) (by decide) (by decide)),
      (h c _ (mem_uc main_arg3 (by decide))).trans (W4_proj_arg m ρ c 3 rfl (by decide) (by decide) (by decide)),
      (h c _ (mem_uc main_arg4 (by decide))).trans (W4_cache_arg m ρ c 3 rfl (by decide) (by decide) (by decide)),
      (h c _ (mem_uc main_arg5 (by decide))).trans (W4_cache_arg m ρ c 4 rfl (by decide) (by decide) (by decide))⟩)
    (run_all m ρ)

end Cert.Kernel.Hand

end
-- ==== Proof.ProjFrameI.lean ====
/-
  The projection kernel's half of the frame: one grid point; the body loads the row block and the three weight
  matrices whole, and stores the three products x·wᵀ whole into the three result blocks. So after the body each
  result's buffer holds one function of the loaded blocks, each input's buffer its block, and the pipeline's
  proof data are those. Stated at any float instance.
-/
import proofs.«128360_j52493090291775_2_alg».proof.Proof.Gen.KernelIdeal.Launch
import proofs.«128360_j52493090291775_2_alg».proof.Proof.Gen.KernelIdeal.Skeleton
import proofs.«128360_j52493090291775_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at the point, whatever proof data has the region's arrays and leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at the point, whatever proof data has the region's arrays and leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at the point, whatever proof data has the region's arrays and leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at the point, whatever proof data has the region's arrays and leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole row block and the whole weight matrix, as rectangles. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- What the body leaves in the three result buffers: the one whole store of each. -/
def out0_4 (x0 : Vec F S512x1024 .f32) (x1 : Vec F S1024x1024 .f32) : Vec F S512x1024 .bf16 :=
  View.canon [⟨rX, k0_pay2 (View.ld x0 rX) (View.ld x1 rW)⟩]
def out0_5 (x0 : Vec F S512x1024 .f32) (x2 : Vec F S1024x1024 .f32) : Vec F S512x1024 .bf16 :=
  View.canon [⟨rX, k0_pay3 (View.ld x0 rX) (View.ld x2 rW)⟩]
def out0_6 (x0 : Vec F S512x1024 .f32) (x3 : Vec F S1024x1024 .f32) : Vec F S512x1024 .bf16 :=
  View.canon [⟨rX, k0_pay4 (View.ld x0 rX) (View.ld x3 rW)⟩]

/-- One whole store covers the buffer. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 2000000 in
/-- The body on whole staging memrefs: the inputs are read and kept, each result buffer ends at its store. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 x2 x3 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-- The proof data of the projection pipeline on core c: the arrays as the region finds them; after the body each
    input's buffer at its block, each result's at the product of the blocks; the class-A invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at the point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at the point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnBodyI.lean ====
/-
  The attention kernel's body, one head per grid point. It reads the head's query block q, its new key and value
  blocks, and the first 7680 cache positions of the head's keys and values, fifteen tiles of 512 positions. A first
  loop carries, from zero, the running row sums l of the numerators e^{q·k} and the running products acc of the
  numerators with the values, tile by tile; the new tile is then added, the output block is acc·(1/l), and the new
  tile's column sums of the normalised numerators (and of their squares) are stored at positions 7680..8191 of the
  two column buffers. A second loop stores, tile by tile, the same column sums for the cache tiles at positions
  512·k .. 512·k+511. So the sixteen stores tile each column buffer, and what the body leaves in every output buffer
  is one function of the blocks it read. Stated at any float instance.
-/
import proofs.«128360_j52493090291775_2_alg».proof.Proof.Gen.KernelIdeal.Launch
import proofs.«128360_j52493090291775_2_alg».proof.Proof.Gen.KernelIdeal.Skeleton
import proofs.«128360_j52493090291775_2_alg».proof.Proof.Gen.KernelIdeal.Loops
import proofs.«128360_j52493090291775_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole 1×512×64 block. -/
abbrev rB : Rect S1x512x64 := Rect.unit (s := S1x512x64) ![0, 0, 0] S1x512x64.size inb_S1x512x64_S1x512x64_0_0_0
/-- Positions 7680..8191 of a column buffer: the new tile. -/
abbrev rNew : Rect S1x1x8192 := Rect.unit (s := S1x1x8192) ![0, 0, 7680] S1x1x512.size inb_S1x1x8192_S1x1x512_0_0_7680
/-- Cache tile k, as the first loop reads it. -/
abbrev tile1 (k : Fin k1_t1_loop.trips) : Rect S1x7680x64 := Rect.unit (s := S1x7680x64) (k1_off1 k) S1x512x64.size (k1_off1_inb k)
/-- Cache tile k, as the second loop reads it. -/
abbrev tile2 (k : Fin k1_t2_loop.trips) : Rect S1x7680x64 := Rect.unit (s := S1x7680x64) (k1_off2 k) S1x512x64.size (k1_off2_inb k)
/-- Positions 512·k .. 512·k+511 of a column buffer. -/
abbrev tileC (k : Fin k1_t2_loop.trips) : Rect S1x1x8192 := Rect.unit (s := S1x1x8192) (k1_off3 k) S1x1x512.size (k1_off3_inb k)

/-! ## The first loop's carried pair, tile by tile -/

/-- The running row sums and running products after k cache tiles, from zero. -/
def carry (v0 : Vec F S1x512x64 .bf16) (x3 x4 : Vec F S1x7680x64 .f32) : ℕ → FVec F S512x1 .f32 × FVec F S512x64 .f32
  | 0 => (k1_pay7, k1_pay8)
  | k + 1 =>
    if h : k < k1_t1_loop.trips then
      (k1_pay10 v0 (carry v0 x3 x4 k).1 (View.ld x3 (tile1 ⟨k, h⟩)),
        k1_pay11 v0 (carry v0 x3 x4 k).2 (View.ld x3 (tile1 ⟨k, h⟩)) (View.ld x4 (tile1 ⟨k, h⟩)))
    else carry v0 x3 x4 k

/-- One trip of the first loop yields the two updates of the carried pair at the trip's tile. -/
theorem trip1_eq (𝒱 : Variants) (c : Dev nD) (bd : Option 𝒱.V) (i : grid1.Coords) (arg1 : Memref sig .tc .vmem S1x512x64 .bf16) (harg1 : arg1.IsWhole) (arg2 : Memref sig .tc .vmem S1x512x64 .bf16) (harg2 : arg2.IsWhole) (arg3 : Memref sig .tc .vmem S1x512x64 .bf16) (harg3 : arg3.IsWhole) (arg4 : Memref sig .tc .vmem S1x7680x64 .f32) (harg4 : arg4.IsWhole) (arg5 : Memref sig .tc .vmem S1x7680x64 .f32) (harg5 : arg5.IsWhole) (arg6 : Memref sig .tc .vmem S1x512x64 .f32) (harg6 : arg6.IsWhole) (arg7 : Memref sig .tc .vmem S1x1x8192 .f32) (harg7 : arg7.IsWhole) (arg8 : Memref sig .tc .vmem S1x1x8192 .f32) (harg8 : arg8.IsWhole)
    (v0 : Vec F S1x512x64 .bf16) (X4 : BufTy.Contents (Elt F) arg4.view.ty) (X5 : BufTy.Contents (Elt F) arg5.view.ty)
    (k : Fin k1_t1_loop.trips) (acc : FVec F S512x1 .f32 × FVec F S512x64 .f32) :
    tripR_k1_t1 (F := F) 𝒱 c bd i arg1 harg1 arg2 harg2 arg3 harg3 arg4 harg4 arg5 harg5 arg6 harg6 arg7 harg7 arg8 harg8 v0 X4 X5 k acc
      = (k1_pay10 v0 acc.1 (View.ld (arg4.view.read (Elt F) X4) (tile1 k)),
          k1_pay11 v0 acc.2 (View.ld (arg4.view.read (Elt F) X4) (tile1 k)) (View.ld (arg5.view.read (Elt F) X5) (tile1 k))) := by
  unfold tripR_k1_t1 trip_k1_t1
  rfl

/-- The loop's carried value before trip k is the running pair over the buffers' contents. -/
theorem st_eq (𝒱 : Variants) (c : Dev nD) (bd : Option 𝒱.V) (i : grid1.Coords) (arg1 : Memref sig .tc .vmem S1x512x64 .bf16) (harg1 : arg1.IsWhole) (arg2 : Memref sig .tc .vmem S1x512x64 .bf16) (harg2 : arg2.IsWhole) (arg3 : Memref sig .tc .vmem S1x512x64 .bf16) (harg3 : arg3.IsWhole) (arg4 : Memref sig .tc .vmem S1x7680x64 .f32) (harg4 : arg4.IsWhole) (arg5 : Memref sig .tc .vmem S1x7680x64 .f32) (harg5 : arg5.IsWhole) (arg6 : Memref sig .tc .vmem S1x512x64 .f32) (harg6 : arg6.IsWhole) (arg7 : Memref sig .tc .vmem S1x1x8192 .f32) (harg7 : arg7.IsWhole) (arg8 : Memref sig .tc .vmem S1x1x8192 .f32) (harg8 : arg8.IsWhole)
    (v0 : Vec F S1x512x64 .bf16) (X4 : BufTy.Contents (Elt F) arg4.view.ty) (X5 : BufTy.Contents (Elt F) arg5.view.ty) (k : ℕ) :
    st_k1_t1 (F := F) 𝒱 c bd i arg1 harg1 arg2 harg2 arg3 harg3 arg4 harg4 arg5 harg5 arg6 harg6 arg7 harg7 arg8 harg8 v0 X4 X5 (k1_pay7, k1_pay8) k
      = carry v0 (arg4.view.read (Elt F) X4) (arg5.view.read (Elt F) X5) k := by
  induction k with
  | zero => rfl
  | succ k ih =>
    rw [st_k1_t1.eq_2, carry]
    unfold st_k1_t1Step
    split
    · rw [ih, trip1_eq]
    · exact ih

/-! ## The second loop's stores, tile by tile -/

/-- The pieces the trips before k store into the two column buffers, last first. -/
def pieces (v1 : FVec F S512x64 .bf16) (v20 : FVec F S512x1 .f32) (x3 : Vec F S1x7680x64 .f32) :
    ℕ → List (View.Piece (Elt F) S1x1x8192 .f32) × List (View.Piece (Elt F) S1x1x8192 .f32)
  | 0 => ([], [])
  | k + 1 =>
    if h : k < k1_t2_loop.trips then
      ((⟨tileC ⟨k, h⟩, k1_pay4 v1 v20 (View.ld x3 (tile2 ⟨k, h⟩))⟩ : View.Piece (Elt F) S1x1x8192 .f32) :: (pieces v1 v20 x3 k).1,
        (⟨tileC ⟨k, h⟩, k1_pay5 v1 v20 (View.ld x3 (tile2 ⟨k, h⟩))⟩ : View.Piece (Elt F) S1x1x8192 .f32) :: (pieces v1 v20 x3 k).2)
    else pieces v1 v20 x3 k

/-- One trip of the second loop stores one piece into each column buffer, at the trip's positions. -/
theorem trip2_eq (𝒱 : Variants) (c : Dev nD) (bd : Option 𝒱.V) (i : grid1.Coords) (arg1 : Memref sig .tc .vmem S1x512x64 .bf16) (harg1 : arg1.IsWhole) (arg2 : Memref sig .tc .vmem S1x512x64 .bf16) (harg2 : arg2.IsWhole) (arg3 : Memref sig .tc .vmem S1x512x64 .bf16) (harg3 : arg3.IsWhole) (arg4 : Memref sig .tc .vmem S1x7680x64 .f32) (harg4 : arg4.IsWhole) (arg5 : Memref sig .tc .vmem S1x7680x64 .f32) (harg5 : arg5.IsWhole) (arg6 : Memref sig .tc .vmem S1x512x64 .f32) (harg6 : arg6.IsWhole) (arg7 : Memref sig .tc .vmem S1x1x8192 .f32) (harg7 : arg7.IsWhole) (arg8 : Memref sig .tc .vmem S1x1x8192 .f32) (harg8 : arg8.IsWhole)
    (v1 : FVec F S512x64 .bf16) (v20 : FVec F S512x1 .f32) (X4 : BufTy.Contents (Elt F) arg4.view.ty) (k : Fin k1_t2_loop.trips) :
    tripL_k1_t2 (F := F) 𝒱 c bd i arg1 harg1 arg2 harg2 arg3 harg3 arg4 harg4 arg5 harg5 arg6 harg6 arg7 harg7 arg8 harg8 v1 v20 X4 k
      = ([⟨tileC k, k1_pay4 v1 v20 (View.ld (arg4.view.read (Elt F) X4) (tile2 k))⟩],
          [⟨tileC k, k1_pay5 v1 v20 (View.ld (arg4.view.read (Elt F) X4) (tile2 k))⟩]) := by
  unfold tripL_k1_t2 trip_k1_t2
  rfl

/-- The pieces of the trips before k are the tile-by-tile list over the buffer's contents. -/
theorem pb_eq (𝒱 : Variants) (c : Dev nD) (bd : Option 𝒱.V) (i : grid1.Coords) (arg1 : Memref sig .tc .vmem S1x512x64 .bf16) (harg1 : arg1.IsWhole) (arg2 : Memref sig .tc .vmem S1x512x64 .bf16) (harg2 : arg2.IsWhole) (arg3 : Memref sig .tc .vmem S1x512x64 .bf16) (harg3 : arg3.IsWhole) (arg4 : Memref sig .tc .vmem S1x7680x64 .f32) (harg4 : arg4.IsWhole) (arg5 : Memref sig .tc .vmem S1x7680x64 .f32) (harg5 : arg5.IsWhole) (arg6 : Memref sig .tc .vmem S1x512x64 .f32) (harg6 : arg6.IsWhole) (arg7 : Memref sig .tc .vmem S1x1x8192 .f32) (harg7 : arg7.IsWhole) (arg8 : Memref sig .tc .vmem S1x1x8192 .f32) (harg8 : arg8.IsWhole)
    (v1 : FVec F S512x64 .bf16) (v20 : FVec F S512x1 .f32) (X4 : BufTy.Contents (Elt F) arg4.view.ty) (k : ℕ) :
    pb_k1_t2 (F := F) 𝒱 c bd i arg1 harg1 arg2 harg2 arg3 harg3 arg4 harg4 arg5 harg5 arg6 harg6 arg7 harg7 arg8 harg8 v1 v20 X4 k = pieces v1 v20 (arg4.view.read (Elt F) X4) k := by
  induction k with
  | zero => rfl
  | succ k ih =>
    rw [pb_k1_t2.eq_2, pieces]
    unfold pb_k1_t2Step
    split
    · rw [ih, trip2_eq]; rfl
    · exact ih

/-! ## The sixteen stores tile each column buffer -/

/-- Tile k's rectangle is among the first column buffer's pieces once k trips are past. -/
theorem rect_mem1 (v1 : FVec F S512x64 .bf16) (v20 : FVec F S512x1 .f32) (x3 : Vec F S1x7680x64 .f32) :
    ∀ (n k : ℕ) (hk : k < k1_t2_loop.trips), k < n → ∃ pc ∈ (pieces v1 v20 x3 n).1, pc.1 = tileC ⟨k, hk⟩
  | 0, k, hk, h => absurd h (Nat.not_lt_zero _)
  | n + 1, k, hk, h => by
    rw [pieces]; split
    · next hn =>
      by_cases e : k = n
      · subst e; exact ⟨_, List.mem_cons_self .., rfl⟩
      · obtain ⟨pc, hpc, e'⟩ := rect_mem1 v1 v20 x3 n k hk (by omega)
        exact ⟨pc, List.mem_cons_of_mem _ hpc, e'⟩
    · next hn => exact rect_mem1 v1 v20 x3 n k hk (by omega)

/-- The same for the second column buffer. -/
theorem rect_mem2 (v1 : FVec F S512x64 .bf16) (v20 : FVec F S512x1 .f32) (x3 : Vec F S1x7680x64 .f32) :
    ∀ (n k : ℕ) (hk : k < k1_t2_loop.trips), k < n → ∃ pc ∈ (pieces v1 v20 x3 n).2, pc.1 = tileC ⟨k, hk⟩
  | 0, k, hk, h => absurd h (Nat.not_lt_zero _)
  | n + 1, k, hk, h => by
    rw [pieces]; split
    · next hn =>
      by_cases e : k = n
      · subst e; exact ⟨_, List.mem_cons_self .., rfl⟩
      · obtain ⟨pc, hpc, e'⟩ := rect_mem2 v1 v20 x3 n k hk (by omega)
        exact ⟨pc, List.mem_cons_of_mem _ hpc, e'⟩
    · next hn => exact rect_mem2 v1 v20 x3 n k hk (by omega)

theorem trips2 : k1_t2_loop.trips = 15 := by decide

/-- Fifteen tiles of 512 positions and the new tile at 7680 cover the 8192 positions. -/
theorem cover_col (L : List (View.Piece (Elt F) S1x1x8192 .f32))
    (hL : ∀ (k : ℕ) (hk : k < k1_t2_loop.trips), ∃ pc ∈ L, pc.1 = tileC ⟨k, hk⟩)
    (p : FVec F S1x1x512 .f32) (y : S1x1x8192.Idx) :
    ∃ pc ∈ L ++ [(⟨rNew, p⟩ : View.Piece (Elt F) S1x1x8192 .f32)], y ∈ pc.1.set := by
  have h0 : (y 0).val < 1 := (y 0).isLt
  have h1 : (y 1).val < 1 := (y 1).isLt
  have h2 : (y 2).val < 8192 := (y 2).isLt
  by_cases hy : (y 2).val < 7680
  · have hk : (y 2).val / 512 < k1_t2_loop.trips := by rw [trips2]; omega
    obtain ⟨pc, hpc, e⟩ := hL ((y 2).val / 512) hk
    refine ⟨pc, List.mem_append_left _ hpc, ?_⟩
    rw [e, Rect.mem_set_unit, k1_off3_eq]
    intro a
    match a with
    | ⟨0, _⟩ => exact ⟨Nat.zero_le _, show (y 0).val < 0 + 1 by omega⟩
    | ⟨1, _⟩ => exact ⟨Nat.zero_le _, show (y 1).val < 0 + 1 by omega⟩
    | ⟨2, _⟩ =>
      refine ⟨show 512 * ((y 2).val / 512) ≤ (y 2).val by omega, show (y 2).val < 512 * ((y 2).val / 512) + 512 by omega⟩
  · refine ⟨⟨rNew, p⟩, List.mem_append_right _ (List.mem_singleton_self _), ?_⟩
    rw [Rect.mem_set_unit]
    intro a
    match a with
    | ⟨0, _⟩ => exact ⟨Nat.zero_le _, show (y 0).val < 0 + 1 by omega⟩
    | ⟨1, _⟩ => exact ⟨Nat.zero_le _, show (y 1).val < 0 + 1 by omega⟩
    | ⟨2, _⟩ => exact ⟨show 7680 ≤ (y 2).val by omega, show (y 2).val < 7680 + 512 by omega⟩

/-- One whole store covers the output block. -/
theorem coverB (p0 : Vec F S1x512x64 .f32) (y : S1x512x64.Idx) :
    ∃ pc ∈ ([⟨rB, p0⟩] : List (View.Piece (Elt F) S1x512x64 .f32)), y ∈ pc.1.set :=
  View.cover_of_tiled [⟨rB, p0⟩] S1x512x64.size (by rfl) y

/-! ## What the body leaves in its three output buffers -/

section Outs

variable (x0 x1 x2 : Vec F S1x512x64 .bf16) (x3 x4 : Vec F S1x7680x64 .f32)

/-- The running pair after all fifteen cache tiles. -/
def totals : FVec F S512x1 .f32 × FVec F S512x64 .f32 := carry (View.ld x0 rB) x3 x4 k1_t1_loop.trips
/-- The reciprocal of the completed row sums. -/
def invl : FVec F S512x1 .f32 := k1_pay13 (View.ld x0 rB) (totals x0 x3 x4).1 (View.ld x1 rB)

/-- The output block: one whole store. -/
def out1_5 : Vec F S1x512x64 .f32 :=
  View.canon [⟨rB, k1_pay14 (View.ld x0 rB) (totals x0 x3 x4).1 (totals x0 x3 x4).2 (View.ld x1 rB) (View.ld x2 rB)⟩]
/-- The first column buffer: the fifteen tiles' stores over the new tile's. -/
def out1_6 : Vec F S1x1x8192 .f32 :=
  View.canon ((pieces (k1_pay6 (View.ld x0 rB)) (invl x0 x1 x3 x4) x3 k1_t2_loop.trips).1
    ++ [⟨rNew, k1_pay1 (k1_pay16 (View.ld x0 rB) (totals x0 x3 x4).1 (View.ld x1 rB))⟩])
/-- The second column buffer. -/
def out1_7 : Vec F S1x1x8192 .f32 :=
  View.canon ((pieces (k1_pay6 (View.ld x0 rB)) (invl x0 x1 x3 x4) x3 k1_t2_loop.trips).2
    ++ [⟨rNew, k1_pay2 (k1_pay15 (View.ld x0 rB) (totals x0 x3 x4).1 (View.ld x1 rB))⟩])

end Outs

set_option maxHeartbeats 4000000 in
/-- The body on whole staging memrefs: the five inputs are read and kept; each output buffer ends at one function of them. -/
theorem sound_kernel1 (c : Dev nD) (E : Set ℕ) (i : grid1.Coords) (arg1 : Memref sig .tc .vmem S1x512x64 .bf16) (harg1 : arg1.IsWhole) (arg2 : Memref sig .tc .vmem S1x512x64 .bf16) (harg2 : arg2.IsWhole) (arg3 : Memref sig .tc .vmem S1x512x64 .bf16) (harg3 : arg3.IsWhole) (arg4 : Memref sig .tc .vmem S1x7680x64 .f32) (harg4 : arg4.IsWhole) (arg5 : Memref sig .tc .vmem S1x7680x64 .f32) (harg5 : arg5.IsWhole) (arg6 : Memref sig .tc .vmem S1x512x64 .f32) (harg6 : arg6.IsWhole) (arg7 : Memref sig .tc .vmem S1x1x8192 .f32) (harg7 : arg7.IsWhole) (arg8 : Memref sig .tc .vmem S1x1x8192 .f32) (harg8 : arg8.IsWhole)
    (x0 x1 x2 : Vec F S1x512x64 .bf16) (x3 x4 : Vec F S1x7680x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x3 x4)
            ∗ owns (c : Thread nD τ) arg8 fullShare (out1_7 x0 x1 x3 x4)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [st_eq]
    exact View.read_writes_eq_canon _ _ _ (coverB _)
  isplitl [H7]
  · iexists _; isplitr
    swap; · iexact H7
    ipureintro
    sl_unfold_run_names
    rw [pb_eq, st_eq]
    exact View.read_writes_eq_canon _ _ _ (cover_col _ (fun k hk => rect_mem1 _ _ _ _ k hk hk) _)
  iexists _; isplitr
  swap; · iexact H8
  ipureintro
  sl_unfold_run_names
  rw [pb_eq, st_eq]
  exact View.read_writes_eq_canon _ _ _ (cover_col _ (fun k hk => rect_mem2 _ _ _ _ k hk hk) _)

end Cert.KernelIdeal.Hand

end
-- ==== Proof.AttnFrameI.lean ====
/-
  The attention kernel's half of the frame: sixteen grid points, one head each. Every input window's staging buffer
  holds the head's block when the body runs — for the two cache windows, whose block of 7680 positions is shorter
  than the array's 8192 and starts at position 0 at every point, nothing is cut, so a fetch fills the whole buffer
  with positions 0..7679 — and after the body each output's buffer holds the body's function of those blocks.
  Stated at any float instance.
-/
import proofs.«128360_j52493090291775_2_alg».proof.Proof.AttnBodyI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- No fetch of a cache window is cut: its block starts at position 0 and ends at 7680 ≤ 8192, at every point. -/
theorem clip1_3 : ∀ (t : Fin cfg1.N) (a : Fin (cfg1.win 3).shape.rank), (cfg1.win 3).clip (cfg1.grid.coords t) a = none := by decide
theorem clip1_4 : ∀ (t : Fin cfg1.N) (a : Fin (cfg1.win 4).shape.rank), (cfg1.win 4).clip (cfg1.grid.coords t) a = none := by decide

/-- A word to fill a buffer with where no fetch writes (nowhere, for these windows). -/
def pad3 : (cfg1.win 3).block.Idx → Elt F (cfg1.win 3).elt := fun _ => (Scalar.ofBits .f32 0x00000000#32 : F .f32)
def pad4 : (cfg1.win 4).block.Idx → Elt F (cfg1.win 4).elt := fun _ => (Scalar.ofBits .f32 0x00000000#32 : F .f32)

/-- The cache windows' staging buffers after a fetch at point t: the head's first 7680 positions. -/
def cblk1_3 (c : Dev nD) (t : Fin cfg1.N) : (cfg1.win 3).block.Idx → Elt F (cfg1.win 3).elt :=
  (cfg1.win 3).fill (cfg1.grid.coords t) (pad3 (F := F)) (iblk1 V c 3 t)
def cblk1_4 (c : Dev nD) (t : Fin cfg1.N) : (cfg1.win 4).block.Idx → Elt F (cfg1.win 4).elt :=
  (cfg1.win 4).fill (cfg1.grid.coords t) (pad4 (F := F)) (iblk1 V c 4 t)

theorem before1_3_of {c : Dev nD} (dat : Dat τ (Elt F) Unit ℕ (UR sig nD τ) ℕ cfg1 c) (hA : dat.A 3 = V c (Pipeline.arrRef spec1 3))
    (hafter : ∀ t, dat.after 3 t = cblk1_3 V c t) (t : Fin cfg1.N) (d) : dat.before 3 t d = cblk1_3 V c t := by
  rw [dat.before_in_eq_fetched 3 rfl (fun _ => rfl) (fun t t' _ => funext fun a => (clip1_3 t a).trans (clip1_3 t' a).symm)
      (fun t => by rw [hafter]; unfold cblk1_3; rw [Window.cut_fill]; unfold Dat.blockOf iblk1; rw [hA]) t d,
    dat.fetched_of_clip_none 3 t (clip1_3 t) d (pad3 (F := F))]
  unfold Dat.fetched Dat.blockOf cblk1_3 iblk1; rw [hA]

theorem before1_4_of {c : Dev nD} (dat : Dat τ (Elt F) Unit ℕ (UR sig nD τ) ℕ cfg1 c) (hA : dat.A 4 = V c (Pipeline.arrRef spec1 4))
    (hafter : ∀ t, dat.after 4 t = cblk1_4 V c t) (t : Fin cfg1.N) (d) : dat.before 4 t d = cblk1_4 V c t := by
  rw [dat.before_in_eq_fetched 4 rfl (fun _ => rfl) (fun t t' _ => funext fun a => (clip1_4 t a).trans (clip1_4 t' a).symm)
      (fun t => by rw [hafter]; unfold cblk1_4; rw [Window.cut_fill]; unfold Dat.blockOf iblk1; rw [hA]) t d,
    dat.fetched_of_clip_none 4 t (clip1_4 t) d (pad4 (F := F))]
  unfold Dat.fetched Dat.blockOf cblk1_4 iblk1; rw [hA]

/-- The proof data of the attention pipeline on core c: the arrays as the region finds them; after the body each
    input's buffer at its block, each output's at the body's function of the blocks; the class-A invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => cblk1_3 V c t
    | ⟨4, _⟩ => cblk1_4 V c t
    | ⟨5, _⟩ => out1_5 (iblk1 V c 0 t) (iblk1 V c 1 t) (iblk1 V c 2 t) (cblk1_3 V c t) (cblk1_4 V c t)
    | ⟨6, _⟩ => out1_6 (iblk1 V c 0 t) (iblk1 V c 1 t) (cblk1_3 V c t) (cblk1_4 V c t)
    | ⟨7, _⟩ => out1_7 (iblk1 V c 0 t) (iblk1 V c 1 t) (cblk1_3 V c t) (cblk1_4 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = cblk1_3 V c t := by dsimp only [dat1]
theorem after1_4 (c : Dev nD) (t : Fin cfg1.N) : (dat1 V c).after 4 t = cblk1_4 V c t := by dsimp only [dat1]
theorem after1_5 (c : Dev nD) (t : Fin cfg1.N) : (dat1 V c).after 5 t
    = out1_5 (iblk1 V c 0 t) (iblk1 V c 1 t) (iblk1 V c 2 t) (cblk1_3 V c t) (cblk1_4 V c t) := by dsimp only [dat1]
theorem after1_6 (c : Dev nD) (t : Fin cfg1.N) : (dat1 V c).after 6 t
    = out1_6 (iblk1 V c 0 t) (iblk1 V c 1 t) (cblk1_3 V c t) (cblk1_4 V c t) := by dsimp only [dat1]
theorem after1_7 (c : Dev nD) (t : Fin cfg1.N) : (dat1 V c).after 7 t
    = out1_7 (iblk1 V c 0 t) (iblk1 V c 1 t) (cblk1_3 V c t) (cblk1_4 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = cblk1_3 V c t :=
  before1_3_of V (dat1 V c) (A_eq1 V c 3) (after1_3 V c) t d
theorem before1_4 (c : Dev nD) (t : Fin cfg1.N) (d) : (dat1 V c).before 4 t d = cblk1_4 V c t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (cblk1_3 V c t) (cblk1_4 V c t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunI.lean ====
/-
  The whole program's run: the projection region, the host operations that split its three results into heads, the
  attention region, and the host operations that lay the heads' outputs back side by side. The contents of every
  unscoped buffer are named at each boundary — a region replaces its arrays by what its write-backs leave, a stretch
  of host operations applies them — and every weakly fair execution from a memory with zero counters terminates with
  every unscoped buffer at the last boundary's contents. Stated at any float instance.
-/
import proofs.«128360_j52493090291775_2_alg».proof.Proof.ProjFrameI
import proofs.«128360_j52493090291775_2_alg».proof.Proof.AttnFrameI
import proofs.«128360_j52493090291775_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the projection region: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the heads are split out. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the attention region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the heads are laid back side by side: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with the
    region's arrays at what its write-backs leave and every other buffer as entered; the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered; the generator register into the
    class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from a memory with zero counters terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- An input window's array is unchanged by its region. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

/-- The row block and the three weight matrices are read by the projection region only; nothing writes them. -/
theorem W4_proj_arg (c : Dev nD) (w : Fin cfg0.W) (hw : (cfg0.win w).isOut = false)
    (h2 : Pipeline.arrRef spec0 w ∉ hostOps2_W) (h3 : ∀ w', Pipeline.arrRef spec1 w' ≠ Pipeline.arrRef spec0 w)
    (h1 : Pipeline.arrRef spec0 w ∉ hostOps1_W) :
    W4 m ρ c (Proc.devRef .tc (Pipeline.arrRef spec0 w)) = m ((c : Thread nD τ).loc (Pipeline.arrRef spec0 w)) :=
  (StableHlo.after_of_writes_sub hostOps2 (W3 m ρ c) hostOps2_writes h2).trans <|
    (W3_of_ne m ρ c _ h3).trans <|
      (StableHlo.after_of_writes_sub hostOps1 (W1 m ρ c) hostOps1_writes h1).trans <|
        (W1_in m ρ c w hw).trans rfl
/-- The two caches are read by the attention region only; nothing writes them. -/
theorem W4_cache_arg (c : Dev nD) (w : Fin cfg1.W) (hw : (cfg1.win w).isOut = false)
    (h2 : Pipeline.arrRef spec1 w ∉ hostOps2_W) (h1 : Pipeline.arrRef spec1 w ∉ hostOps1_W)
    (h0 : ∀ w', Pipeline.arrRef spec0 w' ≠ Pipeline.arrRef spec1 w) :
    W4 m ρ c (Proc.devRef .tc (Pipeline.arrRef spec1 w)) = m ((c : Thread nD τ).loc (Pipeline.arrRef spec1 w)) :=
  (StableHlo.after_of_writes_sub hostOps2 (W3 m ρ c) hostOps2_writes h2).trans <|
    (W3_in m ρ c w hw).trans <|
      (StableHlo.after_of_writes_sub hostOps1 (W1 m ρ c) hostOps1_writes h1).trans <|
        (W1_of_ne m ρ c _ h0).trans rfl

/-- The frame: the program runs to the end from any memory with zero counters and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_proj_arg m ρ c 0 rfl (by decide) (by decide) (by decide)),
      (h c _ (mem_uc main_arg1 (by decide))).trans (W4_proj_arg m ρ c 1 rfl (by decide) (by decide) (by decide)),
      (h c _ (mem_uc main_arg2 (by decide))).trans (W4_proj_arg m ρ c 2 rfl (by decide) (by decide) (by decide)),
      (h c _ (mem_uc main_arg3 (by decide))).trans (W4_proj_arg m ρ c 3 rfl (by decide) (by decide) (by decide)),
      (h c _ (mem_uc main_arg4 (by decide))).trans (W4_cache_arg m ρ c 3 rfl (by decide) (by decide) (by decide)),
      (h c _ (mem_uc main_arg5 (by decide))).trans (W4_cache_arg m ρ c 4 rfl (by decide) (by decide) (by decide))⟩)
    (run_all m ρ)

end Cert.KernelIdeal.Hand

end
-- ==== Proof.ResultsI.lean ====
/-
  The idealized program's run with its post in the shape the equivalence claim takes: the three results at the last
  boundary's contents, the six argument arrays as launched.
-/
import proofs.«128360_j52493090291775_2_alg».proof.Proof.RunI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_results : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_v10) = W4 m ρ c (Proc.devRef .tc main_v10)
      ∧ r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v9 (by decide)), h c _ (mem_uc main_v10 (by decide)), h c _ (mem_uc main_v11 (by decide)),
      (h c _ (mem_uc main_arg0 (by decide))).trans (W4_proj_arg m ρ c 0 rfl (by decide) (by decide) (by decide)),
      (h c _ (mem_uc main_arg1 (by decide))).trans (W4_proj_arg m ρ c 1 rfl (by decide) (by decide) (by decide)),
      (h c _ (mem_uc main_arg2 (by decide))).trans (W4_proj_arg m ρ c 2 rfl (by decide) (by decide) (by decide)),
      (h c _ (mem_uc main_arg3 (by decide))).trans (W4_proj_arg m ρ c 3 rfl (by decide) (by decide) (by decide)),
      (h c _ (mem_uc main_arg4 (by decide))).trans (W4_cache_arg m ρ c 3 rfl (by decide) (by decide) (by decide)),
      (h c _ (mem_uc main_arg5 (by decide))).trans (W4_cache_arg m ρ c 4 rfl (by decide) (by decide) (by decide))⟩)
    (run_all m ρ)

end Cert.KernelIdeal.Hand

end
-- ==== Proof.Spec.lean ====
/-
  The mathematics of one step of cached attention without maximum subtraction, over the extended reals.

  Sixteen heads of width 64. A row block x (512 rows, 1024 features) is projected by three weight matrices:
  entry (m, h·64+d) of x·wᵀ is head h's query / key / value component d of row m. The new keys and values
  replace the last 512 of the 8192 cache positions of every head. With logits L(h,m,p) = Σ_d q(h,m,d)·K(h,p,d),
  numerators e^L, denominators Σ_p e^L and weights e^L / Σ_p e^L, the three results are
    the attention output     o(m, h·64+d) = Σ_p weight(h,m,p)·V(h,p,d),
    the weights' column sums c₁(h,p)      = Σ_m weight(h,m,p),
    and their squares' sums  c₂(h,p)      = Σ_m weight(h,m,p)².
  Everything is a plain finite sum of extended reals; nothing here assumes finiteness.
-/
import Idealize.ShloMosaic.PureOps.Ideal
import Idealize.ShloMosaic.Lib.ValueIdx

noncomputable section

namespace Cert.Attn

open Idealize.ShloMosaic Idealize.ShloMosaic.ValueIdx

/-- A matrix of extended reals over a literal shape. -/
abbrev Mat (a b : Nat) : Type := (⟨2, ![a, b]⟩ : Shape).Idx → EReal
/-- A rank-3 array of extended reals over a literal shape. -/
abbrev Ten (a b c : Nat) : Type := (⟨3, ![a, b, c]⟩ : Shape).Idx → EReal
/-- One value per head, position and component. -/
abbrev Heads (r : Nat) : Type := Fin 16 → Fin r → Fin 64 → EReal

/-- Feature h·64+d: component d of head h. -/
def col (h : Fin 16) (d : Fin 64) : Fin 1024 := ⟨h.val * 64 + d.val, by have := h.isLt; have := d.isLt; omega⟩

/-- Head h, row m, component d of x·wᵀ. -/
def proj (x : Mat 512 1024) (w : Mat 1024 1024) : Heads 512 :=
  fun h m d => ∑ n : Fin 1024, x (ix2 m n) * w (ix2 (col h d) n)

/-- The cache with its last 512 positions replaced by the new rows. -/
def appended (cache : Ten 16 8192 64) (new : Heads 512) : Heads 8192 :=
  fun h p d => if hp : p.val < 7680 then cache (ix3 h p d) else new h ⟨p.val - 7680, by have := p.isLt; omega⟩ d

/-- The logit of row m against position p in head h. -/
def logit (q : Heads 512) (K : Heads 8192) (h : Fin 16) (m : Fin 512) (p : Fin 8192) : EReal :=
  ∑ d : Fin 64, q h m d * K h p d

/-- The numerator e^logit. -/
def num (q : Heads 512) (K : Heads 8192) (h : Fin 16) (m : Fin 512) (p : Fin 8192) : EReal :=
  Ideal.exp (logit q K h m p)

/-- The denominator: the numerators summed over all positions. -/
def den (q : Heads 512) (K : Heads 8192) (h : Fin 16) (m : Fin 512) : EReal :=
  ∑ p : Fin 8192, num q K h m p

/-- The attention weight. -/
def wgt (q : Heads 512) (K : Heads 8192) (h : Fin 16) (m : Fin 512) (p : Fin 8192) : EReal :=
  Ideal.div (num q K h m p) (den q K h m)

/-- The weighted sum of the values. -/
def attnOut (q : Heads 512) (K V : Heads 8192) (h : Fin 16) (m : Fin 512) (d : Fin 64) : EReal :=
  ∑ p : Fin 8192, wgt q K h m p * V h p d

/-- The weights summed over the rows. -/
def colSum (q : Heads 512) (K : Heads 8192) (h : Fin 16) (p : Fin 8192) : EReal :=
  ∑ m : Fin 512, wgt q K h m p

/-- The squared weights summed over the rows. -/
def colSq (q : Heads 512) (K : Heads 8192) (h : Fin 16) (p : Fin 8192) : EReal :=
  ∑ m : Fin 512, wgt q K h m p * wgt q K h m p

section Results

variable (x : Mat 512 1024) (wq wk wv : Mat 1024 1024) (cK cV : Ten 16 8192 64)

/-- The keys every head attends over. -/
def keys : Heads 8192 := appended cK (proj x wk)
/-- The values every head attends over. -/
def vals : Heads 8192 := appended cV (proj x wv)

/-- The first result: the attention output with the heads laid side by side along the features. -/
def resultOut : Mat 512 1024 := fun i =>
  attnOut (proj x wq) (keys x wk cK) (vals x wv cV)
    ⟨(i 1).val / 64, by have := idx2_lt1 i; omega⟩ ⟨(i 0).val, idx2_lt0 i⟩ ⟨(i 1).val % 64, Nat.mod_lt _ (by norm_num)⟩

/-- The second result: the weights' column sums. -/
def resultSum : Mat 16 8192 := fun i =>
  colSum (proj x wq) (keys x wk cK) ⟨(i 0).val, idx2_lt0 i⟩ ⟨(i 1).val, idx2_lt1 i⟩

/-- The third result: the squared weights' column sums. -/
def resultSq : Mat 16 8192 := fun i =>
  colSq (proj x wq) (keys x wk cK) ⟨(i 0).val, idx2_lt0 i⟩ ⟨(i 1).val, idx2_lt1 i⟩

end Results

end Cert.Attn

end
-- ==== Proof.HostRead.lean ====
/-
  The two stretches of layout operations around the attention kernel, read one element at a time.

  Before the attention kernel, each of the three projection outputs (512 rows, 1024 features) is cut into
  heads: reshaped to (row, head, component) and transposed to (head, row, component), so that element
  (h, m, d) of the result is element (m, h·64+d) of the projection output. After the kernel the opposite
  happens to the attention output: transposed back to (row, head, component) and flattened, so that element
  (m, h·64+d) of the result is element (h, m, d) of the kernel's output; and the two column statistics lose
  their middle axis of size one, element (h, p) being element (h, 0, p). Every other array is left as it was.
  These are statements about arbitrary contents of the arrays the operations read.
-/
import proofs.«128360_j52493090291775_2_alg».proof.Proof.Gen.KernelIdeal.Launch
import proofs.«128360_j52493090291775_2_alg».proof.Proof.Gen.KernelIdeal.Regions
import proofs.«128360_j52493090291775_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.Attn.Host

open Cert.KernelIdeal Cert.KernelIdeal.Gen Idealize.ShloMosaic Idealize.ShloMosaic.TcCoe Idealize.ShloMosaic.ValueIdx

/-! ## The layout maps on any array -/

section Maps

variable {α : Type}

theorem col_val (h : Fin 16) (d : Fin 64) : (Cert.Attn.col h d).val = h.val * 64 + d.val := rfl

/-- Cutting the features into heads: element (h, m, d) is element (m, h·64+d). -/
theorem heads_read (y : S512x1024.Idx → α) (h : Fin 16) (m : Fin 512) (d : Fin 64) :
    transpose S16x512x64 [1, 0, 2] (shapeCast S512x16x64 y shapeCasts_S512x1024_S512x16x64)
        transposes_S512x16x64_S16x512x64_1_0_2 (ix3 h m d)
      = y (ix2 m (Cert.Attn.col h d)) := by
  have hh := h.isLt
  have hm := m.isLt
  have hd := d.isLt
  rw [transpose_apply [1, 0, 2] _ transposes_S512x16x64_S16x512x64_1_0_2 (ix3 h m d) (ix3 m h d)
    (fun b => match b with
      | ⟨0, _⟩ => rfl
      | ⟨1, _⟩ => rfl
      | ⟨2, _⟩ => rfl)]
  refine shapeCast_apply y shapeCasts_S512x1024_S512x16x64 (ix3 m h d) (ix2 m (Cert.Attn.col h d)) ?_
  rewrite [Shape.rowMajor_val_two, Shape.rowMajor_val_three]
  show m.val * 1024 + (Cert.Attn.col h d).val = (m.val * 16 + h.val) * 64 + d.val
  rw [col_val]
  omega

/-- Laying the heads back side by side: element (m, h·64+d) is element (h, m, d). -/
theorem flat_read (y : S16x512x64.Idx → α) (m : Fin 512) (h : Fin 16) (d : Fin 64) :
    shapeCast S512x1024 (transpose S512x16x64 [1, 0, 2] y transposes_S16x512x64_S512x16x64_1_0_2)
        shapeCasts_S512x16x64_S512x1024 (ix2 m (Cert.Attn.col h d))
      = y (ix3 h m d) := by
  have hh := h.isLt
  have hm := m.isLt
  have hd := d.isLt
  rw [shapeCast_apply _ shapeCasts_S512x16x64_S512x1024 (ix2 m (Cert.Attn.col h d)) (ix3 m h d) (by
    rewrite [Shape.rowMajor_val_two, Shape.rowMajor_val_three]
    show (m.val * 16 + h.val) * 64 + d.val = m.val * 1024 + (Cert.Attn.col h d).val
    rw [col_val]
    omega)]
  exact transpose_apply [1, 0, 2] y transposes_S16x512x64_S512x16x64_1_0_2 (ix3 m h d) (ix3 h m d)
    (fun b => match b with
      | ⟨0, _⟩ => rfl
      | ⟨1, _⟩ => rfl
      | ⟨2, _⟩ => rfl)

/-- Dropping the middle axis of size one: element (h, p) is element (h, 0, p). -/
theorem squeeze_read (y : S16x1x8192.Idx → α) (h : Fin 16) (p : Fin 8192) :
    shapeCast S16x8192 y shapeCasts_S16x1x8192_S16x8192 (ix2 h p) = y (ix3 h (0 : Fin 1) p) := by
  refine shapeCast_apply y shapeCasts_S16x1x8192_S16x8192 (ix2 h p) (ix3 h (0 : Fin 1) p) ?_
  rewrite [Shape.rowMajor_val_two, Shape.rowMajor_val_three]
  show (h.val * 1 + 0) * 8192 + p.val = h.val * 8192 + p.val
  omega

end Maps

variable {F : FTy → Type} [FloatOps F]

/-! ## The stretch before the attention kernel -/

theorem after1_q_term (W : Valuation τ sig (Elt F)) :
    (StableHlo.after hostOps1 W (Proc.devRef .tc main_v2) : S16x512x64.Idx → Elt F .bf16)
      = transpose S16x512x64 [1, 0, 2]
          (shapeCast S512x16x64 (W (Proc.devRef .tc main_v0_0) : S512x1024.Idx → Elt F .bf16) shapeCasts_S512x1024_S512x16x64)
          transposes_S512x16x64_S16x512x64_1_0_2 := by
  after_results
  rfl

theorem after1_k_term (W : Valuation τ sig (Elt F)) :
    (StableHlo.after hostOps1 W (Proc.devRef .tc main_v4) : S16x512x64.Idx → Elt F .bf16)
      = transpose S16x512x64 [1, 0, 2]
          (shapeCast S512x16x64 (W (Proc.devRef .tc main_v0_1) : S512x1024.Idx → Elt F .bf16) shapeCasts_S512x1024_S512x16x64)
          transposes_S512x16x64_S16x512x64_1_0_2 := by
  after_results
  rfl

theorem after1_v_term (W : Valuation τ sig (Elt F)) :
    (StableHlo.after hostOps1 W (Proc.devRef .tc main_v6) : S16x512x64.Idx → Elt F .bf16)
      = transpose S16x512x64 [1, 0, 2]
          (shapeCast S512x16x64 (W (Proc.devRef .tc main_v0_2) : S512x1024.Idx → Elt F .bf16) shapeCasts_S512x1024_S512x16x64)
          transposes_S512x16x64_S16x512x64_1_0_2 := by
  after_results
  rfl

/-- The queries by heads. -/
theorem after1_q (W : Valuation τ sig (Elt F)) (h : Fin 16) (m : Fin 512) (d : Fin 64) :
    (StableHlo.after hostOps1 W (Proc.devRef .tc main_v2) : S16x512x64.Idx → Elt F .bf16) (ix3 h m d)
      = (W (Proc.devRef .tc main_v0_0) : S512x1024.Idx → Elt F .bf16) (ix2 m (Cert.Attn.col h d)) := by
  rw [after1_q_term W]
  exact heads_read _ h m d

/-- The new keys by heads. -/
theorem after1_k (W : Valuation τ sig (Elt F)) (h : Fin 16) (m : Fin 512) (d : Fin 64) :
    (StableHlo.after hostOps1 W (Proc.devRef .tc main_v4) : S16x512x64.Idx → Elt F .bf16) (ix3 h m d)
      = (W (Proc.devRef .tc main_v0_1) : S512x1024.Idx → Elt F .bf16) (ix2 m (Cert.Attn.col h d)) := by
  rw [after1_k_term W]
  exact heads_read _ h m d

/-- The new values by heads. -/
theorem after1_v (W : Valuation τ sig (Elt F)) (h : Fin 16) (m : Fin 512) (d : Fin 64) :
    (StableHlo.after hostOps1 W (Proc.devRef .tc main_v6) : S16x512x64.Idx → Elt F .bf16) (ix3 h m d)
      = (W (Proc.devRef .tc main_v0_2) : S512x1024.Idx → Elt F .bf16) (ix2 m (Cert.Attn.col h d)) := by
  rw [after1_v_term W]
  exact heads_read _ h m d

/-- Every array the first stretch does not write is left as it was. -/
theorem after1_keep (W : Valuation τ sig (Elt F)) (b : Ref sig .tc)
    (hb : b ∉ [main_v1, main_v2, main_v3, main_v4, main_v5, main_v6]) :
    StableHlo.after hostOps1 W (Proc.devRef .tc b) = W (Proc.devRef .tc b) :=
  StableHlo.after_of_writes_sub hostOps1 W hostOps1_writes hb

/-! ## The stretch after the attention kernel -/

theorem after2_out_term (W : Valuation τ sig (Elt F)) :
    (StableHlo.after hostOps2 W (Proc.devRef .tc main_v9) : S512x1024.Idx → Elt F .f32)
      = shapeCast S512x1024
          (transpose S512x16x64 [1, 0, 2] (W (Proc.devRef .tc main_v7_0) : S16x512x64.Idx → Elt F .f32) transposes_S16x512x64_S512x16x64_1_0_2)
          shapeCasts_S512x16x64_S512x1024 := by
  after_results
  rfl

theorem after2_sum_term (W : Valuation τ sig (Elt F)) :
    (StableHlo.after hostOps2 W (Proc.devRef .tc main_v10) : S16x8192.Idx → Elt F .f32)
      = shapeCast S16x8192 (W (Proc.devRef .tc main_v7_1) : S16x1x8192.Idx → Elt F .f32) shapeCasts_S16x1x8192_S16x8192 := by
  after_results
  rfl

theorem after2_sq_term (W : Valuation τ sig (Elt F)) :
    (StableHlo.after hostOps2 W (Proc.devRef .tc main_v11) : S16x8192.Idx → Elt F .f32)
      = shapeCast S16x8192 (W (Proc.devRef .tc main_v7_2) : S16x1x8192.Idx → Elt F .f32) shapeCasts_S16x1x8192_S16x8192 := by
  after_results
  rfl

/-- The first result at feature h·64+d of row m is the kernel's output at (h, m, d). -/
theorem after2_out (W : Valuation τ sig (Elt F)) (m : Fin 512) (h : Fin 16) (d : Fin 64) :
    (StableHlo.after hostOps2 W (Proc.devRef .tc main_v9) : S512x1024.Idx → Elt F .f32) (ix2 m (Cert.Attn.col h d))
      = (W (Proc.devRef .tc main_v7_0) : S16x512x64.Idx → Elt F .f32) (ix3 h m d) := by
  rw [after2_out_term W]
  exact flat_read _ m h d

/-- The same at any position of the first result: head (i 1)/64, row i 0, component (i 1) mod 64. -/
theorem after2_out_at (W : Valuation τ sig (Elt F)) (i : S512x1024.Idx) :
    (StableHlo.after hostOps2 W (Proc.devRef .tc main_v9) : S512x1024.Idx → Elt F .f32) i
      = (W (Proc.devRef .tc main_v7_0) : S16x512x64.Idx → Elt F .f32)
          (ix3 (⟨(i 1).val / 64, by have := idx2_lt1 i; omega⟩ : Fin 16) (⟨(i 0).val, idx2_lt0 i⟩ : Fin 512)
            (⟨(i 1).val % 64, Nat.mod_lt _ (by norm_num)⟩ : Fin 64)) := by
  have h1 : (i 1).val < 1024 := idx2_lt1 i
  have e : i = ix2 (⟨(i 0).val, idx2_lt0 i⟩ : Fin 512)
      (Cert.Attn.col (⟨(i 1).val / 64, by omega⟩ : Fin 16) (⟨(i 1).val % 64, Nat.mod_lt _ (by norm_num)⟩ : Fin 64)) := by
    funext a
    match a with
    | ⟨0, _⟩ => rfl
    | ⟨1, _⟩ =>
      apply Fin.ext
      show (i 1).val = (i 1).val / 64 * 64 + (i 1).val % 64
      omega
  conv_lhs => rw [e]
  exact after2_out W _ _ _

/-- The second result at (h, p) is the kernel's column sums at (h, 0, p). -/
theorem after2_sum (W : Valuation τ sig (Elt F)) (h : Fin 16) (p : Fin 8192) :
    (StableHlo.after hostOps2 W (Proc.devRef .tc main_v10) : S16x8192.Idx → Elt F .f32) (ix2 h p)
      = (W (Proc.devRef .tc main_v7_1) : S16x1x8192.Idx → Elt F .f32) (ix3 h (0 : Fin 1) p) := by
  rw [after2_sum_term W]
  exact squeeze_read _ h p

/-- The third result at (h, p) is the kernel's column sums of squares at (h, 0, p). -/
theorem after2_sq (W : Valuation τ sig (Elt F)) (h : Fin 16) (p : Fin 8192) :
    (StableHlo.after hostOps2 W (Proc.devRef .tc main_v11) : S16x8192.Idx → Elt F .f32) (ix2 h p)
      = (W (Proc.devRef .tc main_v7_2) : S16x1x8192.Idx → Elt F .f32) (ix3 h (0 : Fin 1) p) := by
  rw [after2_sq_term W]
  exact squeeze_read _ h p

/-- Every array the second stretch does not write is left as it was. -/
theorem after2_keep (W : Valuation τ sig (Elt F)) (b : Ref sig .tc)
    (hb : b ∉ [main_v8, main_v9, main_v10, main_v11]) :
    StableHlo.after hostOps2 W (Proc.devRef .tc b) = W (Proc.devRef .tc b) :=
  StableHlo.after_of_writes_sub hostOps2 W hostOps2_writes hb

end Cert.Attn.Host

end
-- ==== Proof.AttnValue.lean ====
/-
  The attention region, read one element at a time.

  The region has sixteen grid points, one per head: point t works on head t. Each input window's block at
  point t is head t of its array — for the two caches, the head's first 7680 positions, none of them cut off —
  and each output window's block at point t is written back to head t of its array. So after the region every
  element (h, ·, ·) of an output array is the corresponding element of what the body left at point h.
-/
import proofs.«128360_j52493090291775_2_alg».proof.Proof.AttnFrameI
import Idealize.ShloMosaic.Lib.Pipeline.Value
import Idealize.ShloMosaic.Lib.ValueIdx

noncomputable section

namespace Cert.Attn.Blocks

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable {F : FTy → Type} [FloatOps F]

/-- Every window's block index at point t is (t, 0, 0). -/
theorem idx_facts : ∀ t : Fin cfg1.N,
    (win1_0.index t 0 = t.val ∧ win1_0.index t 1 = 0 ∧ win1_0.index t 2 = 0)
    ∧ (win1_1.index t 0 = t.val ∧ win1_1.index t 1 = 0 ∧ win1_1.index t 2 = 0)
    ∧ (win1_2.index t 0 = t.val ∧ win1_2.index t 1 = 0 ∧ win1_2.index t 2 = 0)
    ∧ (win1_3.index t 0 = t.val ∧ win1_3.index t 1 = 0 ∧ win1_3.index t 2 = 0)
    ∧ (win1_4.index t 0 = t.val ∧ win1_4.index t 1 = 0 ∧ win1_4.index t 2 = 0)
    ∧ (win1_5.index t 0 = t.val ∧ win1_5.index t 1 = 0 ∧ win1_5.index t 2 = 0)
    ∧ (win1_6.index t 0 = t.val ∧ win1_6.index t 1 = 0 ∧ win1_6.index t 2 = 0)
    ∧ (win1_7.index t 0 = t.val ∧ win1_7.index t 1 = 0 ∧ win1_7.index t 2 = 0) :=
  (by decide +kernel : ∀ t : Fin grid1.N, _)

/-- The grid point of head h. -/
def pt (h : Fin 16) : Fin cfg1.N := ⟨h.val, by rw [show cfg1.N = 16 from N_1]; exact h.isLt⟩

theorem pt_val (h : Fin 16) : (pt h).val = h.val := rfl

theorem pt_eq (t : Fin cfg1.N) (h : Fin 16) (ht : h.val = t.val) : pt h = t := Fin.ext ht

/-! ## The input blocks -/

section Inputs

variable (V : (c : Dev nD) → (b : Ref sig .tc) → Buf (Elt F) ((c : Thread nD τ).loc b))

/-- The query block at point t is head t of the query array. -/
theorem iblk_q (c : Dev nD) (t : Fin cfg1.N) (h : Fin 16) (ht : h.val = t.val) (m : Fin 512) (d : Fin 64) :
    (iblk1 V c 0 t : S1x512x64.Idx → Elt F .bf16) (ix3 (0 : Fin 1) m d)
      = (V c main_v2 : S16x512x64.Idx → Elt F .bf16) (ix3 h m d) := by
  obtain ⟨⟨e0, e1, e2⟩, -⟩ := idx_facts t
  unfold iblk1
  rw [View.read_apply]
  show (V c main_v2 : S16x512x64.Idx → Elt F .bf16) _ = _
  congr 1
  funext a
  apply Fin.ext
  match a with
  | ⟨0, _⟩ => show win1_0.index t 0 * 1 + 1 * 0 = h.val; rw [e0]; omega
  | ⟨1, _⟩ => show win1_0.index t 1 * 512 + 1 * m.val = m.val; rw [e1]; omega
  | ⟨2, _⟩ => show win1_0.index t 2 * 64 + 1 * d.val = d.val; rw [e2]; omega

/-- The new-key block at point t is head t of the new keys. -/
theorem iblk_k (c : Dev nD) (t : Fin cfg1.N) (h : Fin 16) (ht : h.val = t.val) (m : Fin 512) (d : Fin 64) :
    (iblk1 V c 1 t : S1x512x64.Idx → Elt F .bf16) (ix3 (0 : Fin 1) m d)
      = (V c main_v4 : S16x512x64.Idx → Elt F .bf16) (ix3 h m d) := by
  obtain ⟨-, ⟨e0, e1, e2⟩, -⟩ := idx_facts t
  unfold iblk1
  rw [View.read_apply]
  show (V c main_v4 : S16x512x64.Idx → Elt F .bf16) _ = _
  congr 1
  funext a
  apply Fin.ext
  match a with
  | ⟨0, _⟩ => show win1_1.index t 0 * 1 + 1 * 0 = h.val; rw [e0]; omega
  | ⟨1, _⟩ => show win1_1.index t 1 * 512 + 1 * m.val = m.val; rw [e1]; omega
  | ⟨2, _⟩ => show win1_1.index t 2 * 64 + 1 * d.val = d.val; rw [e2]; omega

/-- The new-value block at point t is head t of the new values. -/
theorem iblk_v (c : Dev nD) (t : Fin cfg1.N) (h : Fin 16) (ht : h.val = t.val) (m : Fin 512) (d : Fin 64) :
    (iblk1 V c 2 t : S1x512x64.Idx → Elt F .bf16) (ix3 (0 : Fin 1) m d)
      = (V c main_v6 : S16x512x64.Idx → Elt F .bf16) (ix3 h m d) := by
  obtain ⟨-, -, ⟨e0, e1, e2⟩, -⟩ := idx_facts t
  unfold iblk1
  rw [View.read_apply]
  show (V c main_v6 : S16x512x64.Idx → Elt F .bf16) _ = _
  congr 1
  funext a
  apply Fin.ext
  match a with
  | ⟨0, _⟩ => show win1_2.index t 0 * 1 + 1 * 0 = h.val; rw [e0]; omega
  | ⟨1, _⟩ => show win1_2.index t 1 * 512 + 1 * m.val = m.val; rw [e1]; omega
  | ⟨2, _⟩ => show win1_2.index t 2 * 64 + 1 * d.val = d.val; rw [e2]; omega

/-- The key-cache block at point t is the first 7680 positions of head t of the key cache. -/
theorem cblk_K (c : Dev nD) (t : Fin cfg1.N) (h : Fin 16) (ht : h.val = t.val) (p : Fin 7680) (d : Fin 64) :
    (cblk1_3 V c t : S1x7680x64.Idx → Elt F .f32) (ix3 (0 : Fin 1) p d)
      = (V c main_arg4 : S16x8192x64.Idx → Elt F .f32) (ix3 h (⟨p.val, by have := p.isLt; omega⟩ : Fin 8192) d) := by
  obtain ⟨-, -, -, ⟨e0, e1, e2⟩, -⟩ := idx_facts t
  have hm : (cfg1.win 3).moved (cfg1.grid.coords t) (ix3 (0 : Fin 1) p d) = true :=
    ((cfg1.win 3).moved_iff _ _).mpr fun a => by
      have := ((ix3 (0 : Fin 1) p d : S1x7680x64.Idx) a).isLt
      unfold Window.xsize; rw [clip1_3 t a]; exact this
  unfold cblk1_3 Window.fill
  rw [dif_pos hm]
  unfold iblk1
  rw [View.read_apply]
  show (V c main_arg4 : S16x8192x64.Idx → Elt F .f32) _ = _
  congr 1
  funext a
  apply Fin.ext
  match a with
  | ⟨0, _⟩ => show win1_3.index t 0 * 1 + 1 * 0 = h.val; rw [e0]; omega
  | ⟨1, _⟩ => show win1_3.index t 1 * 7680 + 1 * p.val = p.val; rw [e1]; omega
  | ⟨2, _⟩ => show win1_3.index t 2 * 64 + 1 * d.val = d.val; rw [e2]; omega

/-- The value-cache block at point t is the first 7680 positions of head t of the value cache. -/
theorem cblk_V (c : Dev nD) (t : Fin cfg1.N) (h : Fin 16) (ht : h.val = t.val) (p : Fin 7680) (d : Fin 64) :
    (cblk1_4 V c t : S1x7680x64.Idx → Elt F .f32) (ix3 (0 : Fin 1) p d)
      = (V c main_arg5 : S16x8192x64.Idx → Elt F .f32) (ix3 h (⟨p.val, by have := p.isLt; omega⟩ : Fin 8192) d) := by
  obtain ⟨-, -, -, -, ⟨e0, e1, e2⟩, -⟩ := idx_facts t
  have hm : (cfg1.win 4).moved (cfg1.grid.coords t) (ix3 (0 : Fin 1) p d) = true :=
    ((cfg1.win 4).moved_iff _ _).mpr fun a => by
      have := ((ix3 (0 : Fin 1) p d : S1x7680x64.Idx) a).isLt
      unfold Window.xsize; rw [clip1_4 t a]; exact this
  unfold cblk1_4 Window.fill
  rw [dif_pos hm]
  unfold iblk1
  rw [View.read_apply]
  show (V c main_arg5 : S16x8192x64.Idx → Elt F .f32) _ = _
  congr 1
  funext a
  apply Fin.ext
  match a with
  | ⟨0, _⟩ => show win1_4.index t 0 * 1 + 1 * 0 = h.val; rw [e0]; omega
  | ⟨1, _⟩ => show win1_4.index t 1 * 7680 + 1 * p.val = p.val; rw [e1]; omega
  | ⟨2, _⟩ => show win1_4.index t 2 * 64 + 1 * d.val = d.val; rw [e2]; omega

end Inputs

/-! ## The output arrays from the per-head blocks

Stated for any proof data whose output buffers after the body are a given family of blocks, one per point. -/

section Outputs

variable {c : Dev nD}

/-- The whole attention output from its per-head blocks. -/
def G5 (B : Fin cfg1.N → Vec F S1x512x64 .f32) : S16x512x64.Idx → Elt F .f32 := fun i =>
  B (pt ⟨(i 0).val, (i 0).isLt⟩) (ix3 (0 : Fin 1) (⟨(i 1).val, (i 1).isLt⟩ : Fin 512) (⟨(i 2).val, (i 2).isLt⟩ : Fin 64))

/-- A whole column-statistics array from its per-head blocks. -/
def G6 (B : Fin cfg1.N → Vec F S1x1x8192 .f32) : S16x1x8192.Idx → Elt F .f32 := fun i =>
  B (pt ⟨(i 0).val, (i 0).isLt⟩) (ix3 (0 : Fin 1) (0 : Fin 1) (⟨(i 2).val, (i 2).isLt⟩ : Fin 8192))

theorem G5_at (B : Fin cfg1.N → Vec F S1x512x64 .f32) (t : Fin cfg1.N) (i : S16x512x64.Idx) (x : S1x512x64.Idx)
    (h0 : (i 0).val = t.val) (h1 : (i 1).val = (x 1).val) (h2 : (i 2).val = (x 2).val) : G5 B i = B t x := by
  unfold G5
  rw [pt_eq t ⟨(i 0).val, (i 0).isLt⟩ h0]
  congr 1
  funext a
  apply Fin.ext
  match a with
  | ⟨0, _⟩ => show 0 = (x 0).val; have : (x 0).val < 1 := (x 0).isLt; omega
  | ⟨1, _⟩ => exact h1
  | ⟨2, _⟩ => exact h2

theorem G6_at (B : Fin cfg1.N → Vec F S1x1x8192 .f32) (t : Fin cfg1.N) (i : S16x1x8192.Idx) (x : S1x1x8192.Idx)
    (h0 : (i 0).val = t.val) (h2 : (i 2).val = (x 2).val) : G6 B i = B t x := by
  unfold G6
  rw [pt_eq t ⟨(i 0).val, (i 0).isLt⟩ h0]
  congr 1
  funext a
  apply Fin.ext
  match a with
  | ⟨0, _⟩ => show 0 = (x 0).val; have : (x 0).val < 1 := (x 0).isLt; omega
  | ⟨1, _⟩ => show 0 = (x 1).val; have : (x 1).val < 1 := (x 1).isLt; omega
  | ⟨2, _⟩ => exact h2

variable (dat : Dat τ (Elt F) Unit ℕ (UR sig nD τ) ℕ cfg1 c)

/-- What point t writes back to the attention output is block t of the whole array. -/
theorem flushed5_eq (B : Fin cfg1.N → Vec F S1x512x64 .f32) (hafter : ∀ t, dat.after 5 t = B t) (t : Fin cfg1.N) :
    dat.flushed 5 t = ((cfg1.win 5).blk t).view.read (Elt F) (G5 B) := by
  obtain ⟨-, -, -, -, -, ⟨e0, e1, e2⟩, -⟩ := idx_facts t
  show (cfg1.win 5).cut (grid1.coords t) (dat.after 5 t) = _
  rw [hafter]
  funext j
  rw [View.read_apply]
  show B t j = G5 B (((cfg1.win 5).blk t).view.emb j)
  refine (G5_at B t _ j ?_ ?_ ?_).symm
  · show win1_5.index t 0 * 1 + 1 * (j 0).val = t.val
    have : (j 0).val < 1 := (j 0).isLt
    rw [e0]; omega
  · show win1_5.index t 1 * 512 + 1 * (j 1).val = (j 1).val
    rw [e1]; omega
  · show win1_5.index t 2 * 64 + 1 * (j 2).val = (j 2).val
    rw [e2]; omega

theorem flushed6_eq (B : Fin cfg1.N → Vec F S1x1x8192 .f32) (hafter : ∀ t, dat.after 6 t = B t) (t : Fin cfg1.N) :
    dat.flushed 6 t = ((cfg1.win 6).blk t).view.read (Elt F) (G6 B) := by
  obtain ⟨-, -, -, -, -, -, ⟨e0, e1, e2⟩, -⟩ := idx_facts t
  show (cfg1.win 6).cut (grid1.coords t) (dat.after 6 t) = _
  rw [hafter]
  funext j
  rw [View.read_apply]
  show B t j = G6 B (((cfg1.win 6).blk t).view.emb j)
  refine (G6_at B t _ j ?_ ?_).symm
  · show win1_6.index t 0 * 1 + 1 * (j 0).val = t.val
    have : (j 0).val < 1 := (j 0).isLt
    rw [e0]; omega
  · show win1_6.index t 2 * 8192 + 1 * (j 2).val = (j 2).val
    rw [e2]; omega

theorem flushed7_eq (B : Fin cfg1.N → Vec F S1x1x8192 .f32) (hafter : ∀ t, dat.after 7 t = B t) (t : Fin cfg1.N) :
    dat.flushed 7 t = ((cfg1.win 7).blk t).view.read (Elt F) (G6 B) := by
  obtain ⟨-, -, -, -, -, -, -, ⟨e0, e1, e2⟩⟩ := idx_facts t
  show (cfg1.win 7).cut (grid1.coords t) (dat.after 7 t) = _
  rw [hafter]
  funext j
  rw [View.read_apply]
  show B t j = G6 B (((cfg1.win 7).blk t).view.emb j)
  refine (G6_at B t _ j ?_ ?_).symm
  · show win1_7.index t 0 * 1 + 1 * (j 0).val = t.val
    have : (j 0).val < 1 := (j 0).isLt
    rw [e0]; omega
  · show win1_7.index t 2 * 8192 + 1 * (j 2).val = (j 2).val
    rw [e2]; omega

/-- Every position of the attention output is in the block of its head's point. -/
theorem cover5 (i : S16x512x64.Idx) : ∃ t : Fin cfg1.N, (cfg1.win 5).flush t = true ∧ i ∈ ((cfg1.win 5).blk t).view.set := by
  have h0 : (i 0).val < 16 := (i 0).isLt
  have h1 : (i 1).val < 512 := (i 1).isLt
  have h2 : (i 2).val < 64 := (i 2).isLt
  refine ⟨pt ⟨(i 0).val, h0⟩, flush1_5 _, ?_⟩
  obtain ⟨-, -, -, -, -, ⟨e0, e1, e2⟩, -⟩ := idx_facts (pt ⟨(i 0).val, h0⟩)
  show i ∈ ((View.whole main_v7_0).slice (win1_5.rect (pt ⟨(i 0).val, h0⟩))).set
  rw [View.set_slice_whole, Rect.mem_set_unit]
  intro a
  match a with
  | ⟨0, _⟩ =>
    show win1_5.index (pt ⟨(i 0).val, h0⟩) 0 * 1 ≤ (i 0).val ∧ (i 0).val < win1_5.index (pt ⟨(i 0).val, h0⟩) 0 * 1 + 1
    rw [e0]
    show (i 0).val * 1 ≤ (i 0).val ∧ (i 0).val < (i 0).val * 1 + 1
    omega
  | ⟨1, _⟩ =>
    show win1_5.index (pt ⟨(i 0).val, h0⟩) 1 * 512 ≤ (i 1).val ∧ (i 1).val < win1_5.index (pt ⟨(i 0).val, h0⟩) 1 * 512 + 512
    rw [e1]; omega
  | ⟨2, _⟩ =>
    show win1_5.index (pt ⟨(i 0).val, h0⟩) 2 * 64 ≤ (i 2).val ∧ (i 2).val < win1_5.index (pt ⟨(i 0).val, h0⟩) 2 * 64 + 64
    rw [e2]; omega

/-- Every position of a column-statistics array is in the block of its head's point. -/
theorem cover6 (i : S16x1x8192.Idx) : ∃ t : Fin cfg1.N, (cfg1.win 6).flush t = true ∧ i ∈ ((cfg1.win 6).blk t).view.set := by
  have h0 : (i 0).val < 16 := (i 0).isLt
  have h1 : (i 1).val < 1 := (i 1).isLt
  have h2 : (i 2).val < 8192 := (i 2).isLt
  refine ⟨pt ⟨(i 0).val, h0⟩, flush1_6 _, ?_⟩
  obtain ⟨-, -, -, -, -, -, ⟨e0, e1, e2⟩, -⟩ := idx_facts (pt ⟨(i 0).val, h0⟩)
  show i ∈ ((View.whole main_v7_1).slice (win1_6.rect (pt ⟨(i 0).val, h0⟩))).set
  rw [View.set_slice_whole, Rect.mem_set_unit]
  intro a
  match a with
  | ⟨0, _⟩ =>
    show win1_6.index (pt ⟨(i 0).val, h0⟩) 0 * 1 ≤ (i 0).val ∧ (i 0).val < win1_6.index (pt ⟨(i 0).val, h0⟩) 0 * 1 + 1
    rw [e0]
    show (i 0).val * 1 ≤ (i 0).val ∧ (i 0).val < (i 0).val * 1 + 1
    omega
  | ⟨1, _⟩ =>
    show win1_6.index (pt ⟨(i 0).val, h0⟩) 1 * 1 ≤ (i 1).val ∧ (i 1).val < win1_6.index (pt ⟨(i 0).val, h0⟩) 1 * 1 + 1
    rw [e1]; omega
  | ⟨2, _⟩ =>
    show win1_6.index (pt ⟨(i 0).val, h0⟩) 2 * 8192 ≤ (i 2).val ∧ (i 2).val < win1_6.index (pt ⟨(i 0).val, h0⟩) 2 * 8192 + 8192
    rw [e2]; omega

theorem cover7 (i : S16x1x8192.Idx) : ∃ t : Fin cfg1.N, (cfg1.win 7).flush t = true ∧ i ∈ ((cfg1.win 7).blk t).view.set := by
  have h0 : (i 0).val < 16 := (i 0).isLt
  have h1 : (i 1).val < 1 := (i 1).isLt
  have h2 : (i 2).val < 8192 := (i 2).isLt
  refine ⟨pt ⟨(i 0).val, h0⟩, flush1_7 _, ?_⟩
  obtain ⟨-, -, -, -, -, -, -, ⟨e0, e1, e2⟩⟩ := idx_facts (pt ⟨(i 0).val, h0⟩)
  show i ∈ ((View.whole main_v7_2).slice (win1_7.rect (pt ⟨(i 0).val, h0⟩))).set
  rw [View.set_slice_whole, Rect.mem_set_unit]
  intro a
  match a with
  | ⟨0, _⟩ =>
    show win1_7.index (pt ⟨(i 0).val, h0⟩) 0 * 1 ≤ (i 0).val ∧ (i 0).val < win1_7.index (pt ⟨(i 0).val, h0⟩) 0 * 1 + 1
    rw [e0]
    show (i 0).val * 1 ≤ (i 0).val ∧ (i 0).val < (i 0).val * 1 + 1
    omega
  | ⟨1, _⟩ =>
    show win1_7.index (pt ⟨(i 0).val, h0⟩) 1 * 1 ≤ (i 1).val ∧ (i 1).val < win1_7.index (pt ⟨(i 0).val, h0⟩) 1 * 1 + 1
    rw [e1]; omega
  | ⟨2, _⟩ =>
    show win1_7.index (pt ⟨(i 0).val, h0⟩) 2 * 8192 ≤ (i 2).val ∧ (i 2).val < win1_7.index (pt ⟨(i 0).val, h0⟩) 2 * 8192 + 8192
    rw [e2]; omega

/-- The attention output after the region: head by head, what the body left at that head's point. -/
theorem arrAt5_of (B : Fin cfg1.N → Vec F S1x512x64 .f32) (hafter : ∀ t, dat.after 5 t = B t) :
    dat.arrAt 5 cfg1.N = G5 B :=
  dat.arrAt_eq_of_cover 5 (G5 B) (fun t _ => flushed5_eq dat B hafter t) cover5

theorem arrAt6_of (B : Fin cfg1.N → Vec F S1x1x8192 .f32) (hafter : ∀ t, dat.after 6 t = B t) :
    dat.arrAt 6 cfg1.N = G6 B :=
  dat.arrAt_eq_of_cover 6 (G6 B) (fun t _ => flushed6_eq dat B hafter t) cover6

theorem arrAt7_of (B : Fin cfg1.N → Vec F S1x1x8192 .f32) (hafter : ∀ t, dat.after 7 t = B t) :
    dat.arrAt 7 cfg1.N = G6 B :=
  dat.arrAt_eq_of_cover 7 (G6 B) (fun t _ => flushed7_eq dat B hafter t) cover7

end Outputs

/-! ## The three result arrays after the region -/

section Results

variable (V : (c : Dev nD) → (b : Ref sig .tc) → Buf (Elt F) ((c : Thread nD τ).loc b))

/-- The attention output at (h, m, d) is the body's output block at head h's point, at (0, m, d). -/
theorem arr5_read (c : Dev nD) (t : Fin cfg1.N) (h : Fin 16) (ht : h.val = t.val) (m : Fin 512) (d : Fin 64) :
    ((dat1 V c).arrAt 5 cfg1.N : S16x512x64.Idx → Elt F .f32) (ix3 h m d)
      = out1_5 (iblk1 V c 0 t) (iblk1 V c 1 t) (iblk1 V c 2 t) (cblk1_3 V c t) (cblk1_4 V c t) (ix3 (0 : Fin 1) m d) := by
  rw [arrAt5_of (dat1 V c) (fun t => out1_5 (iblk1 V c 0 t) (iblk1 V c 1 t) (iblk1 V c 2 t) (cblk1_3 V c t) (cblk1_4 V c t))
    (fun t => after1_5 V c t)]
  exact G5_at _ t (ix3 h m d) (ix3 (0 : Fin 1) m d) ht rfl rfl

/-- The first column statistic at (h, 0, p) is the body's first column block at head h's point, at (0, 0, p). -/
theorem arr6_read (c : Dev nD) (t : Fin cfg1.N) (h : Fin 16) (ht : h.val = t.val) (p : Fin 8192) :
    ((dat1 V c).arrAt 6 cfg1.N : S16x1x8192.Idx → Elt F .f32) (ix3 h (0 : Fin 1) p)
      = out1_6 (iblk1 V c 0 t) (iblk1 V c 1 t) (cblk1_3 V c t) (cblk1_4 V c t) (ix3 (0 : Fin 1) (0 : Fin 1) p) := by
  rw [arrAt6_of (dat1 V c) (fun t => out1_6 (iblk1 V c 0 t) (iblk1 V c 1 t) (cblk1_3 V c t) (cblk1_4 V c t))
    (fun t => after1_6 V c t)]
  exact G6_at _ t (ix3 h (0 : Fin 1) p) (ix3 (0 : Fin 1) (0 : Fin 1) p) ht rfl

/-- The second column statistic at (h, 0, p) is the body's second column block at head h's point, at (0, 0, p). -/
theorem arr7_read (c : Dev nD) (t : Fin cfg1.N) (h : Fin 16) (ht : h.val = t.val) (p : Fin 8192) :
    ((dat1 V c).arrAt 7 cfg1.N : S16x1x8192.Idx → Elt F .f32) (ix3 h (0 : Fin 1) p)
      = out1_7 (iblk1 V c 0 t) (iblk1 V c 1 t) (cblk1_3 V c t) (cblk1_4 V c t) (ix3 (0 : Fin 1) (0 : Fin 1) p) := by
  rw [arrAt7_of (dat1 V c) (fun t => out1_7 (iblk1 V c 0 t) (iblk1 V c 1 t) (cblk1_3 V c t) (cblk1_4 V c t))
    (fun t => after1_7 V c t)]
  exact G6_at _ t (ix3 h (0 : Fin 1) p) (ix3 (0 : Fin 1) (0 : Fin 1) p) ht rfl

end Results

end Cert.Attn.Blocks

end
-- ==== Proof.Pay0.lean ====
/-
  The projection kernel's arithmetic read at one entry, over the extended reals.

  The kernel rounds the row block x and a weight matrix w to a narrower format, multiplies x by the
  transpose of w into a zero accumulator, and rounds the product again. Over the extended reals a
  change of format is the identity, the zero accumulator adds nothing, and the transpose only swaps
  the two coordinates of w, so entry (m, n) of each of the three products is the plain sum
      Σ_k x(m, k) · w(n, k),
  the entry of x·wᵀ. The narrowed copy of x is x itself.
-/
import proofs.«128360_j52493090291775_2_alg».proof.Proof.Gen.KernelIdeal.Skeleton
import proofs.«128360_j52493090291775_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Attn.Pay

open Idealize.ShloMosaic Idealize.ShloMosaic.ValueIdx Cert.KernelIdeal Cert.KernelIdeal.Gen

/-! ### The product 512x1024 · 1024x1024 read at an entry -/

theorem mm0_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm0_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem mm0_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem mm0_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The contraction's sum re-indexed by the contracted coordinate: entry (m, n) pairs left(m, k) with right(k, n). -/
theorem mm0_sum (lhs : FVec Ideal S512x1024 .bf16) (rhs : FVec Ideal S1024x1024 .bf16) (m : Fin 512) (n : Fin 1024) :
    (∑ q : dot_S512x1024_S1024x1024_S512x1024_1_0_0_1_n_n.contr.Idx, lhs (dot_S512x1024_S1024x1024_S512x1024_1_0_0_1_n_n.lhsIdx (ix2 m n) q) * rhs (dot_S512x1024_S1024x1024_S512x1024_1_0_0_1_n_n.rhsIdx (ix2 m n) q))
      = ∑ k : Fin 1024, lhs (ix2 m k) * rhs (ix2 k n) := by
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 m n) ((contrEquiv1 dot_S512x1024_S1024x1024_S512x1024_1_0_0_1_n_n 1024 rfl rfl).symm k) = ix2 m k := funext fun a => Fin.ext (by
    match a with
    | ⟨0, _⟩ => exact mm0_lhs_0 _ _
    | ⟨1, _⟩ => exact (mm0_lhs_1 _ _).trans hk)
  have er : dot_S512x1024_S1024x1024_S512x1024_1_0_0_1_n_n.rhsIdx (ix2 m n) ((contrEquiv1 dot_S512x1024_S1024x1024_S512x1024_1_0_0_1_n_n 1024 rfl rfl).symm k) = ix2 k n := funext fun a => Fin.ext (by
    match a with
    | ⟨0, _⟩ => exact (mm0_rhs_0 _ _).trans hk
    | ⟨1, _⟩ => exact mm0_rhs_1 _ _)
  rw [el, er]

/-- Into a zero accumulator, entry (m, n) of the product is Σ_k left(m, k) · right(k, n). -/
theorem mm0_apply (lhs : FVec Ideal S512x1024 .bf16) (rhs : FVec Ideal S1024x1024 .bf16) (m : Fin 512) (n : Fin 1024) :
    matmul dot_S512x1024_S1024x1024_S512x1024_1_0_0_1_n_n none lhs rhs (constant (F := Ideal) S512x1024 .f32 0x00000000#32) (ix2 m n)
      = ∑ k : Fin 1024, lhs (ix2 m k) * rhs (ix2 k n) :=
  (Ideal.matmul_constant_zero_apply dot_S512x1024_S1024x1024_S512x1024_1_0_0_1_n_n none lhs rhs (ix2 m n)).trans (mm0_sum lhs rhs m n)

/-! ### The four payloads -/

/-- The narrowed copy of x is x. -/
theorem pay1_apply (v0 : Vec Ideal S512x1024 .f32) (m : Fin 512) (n : Fin 1024) :
    k0_pay1 (F := Ideal) v0 (ix2 m n) = v0 (ix2 m n) := rfl

/-- The shared shape of the three products: narrow, transpose, multiply into zero, narrow. -/
theorem proj_apply (v0 : Vec Ideal S512x1024 .f32) (w : Vec Ideal S1024x1024 .f32) (m : Fin 512) (n : Fin 1024) :
    (truncf .bf16 (matmul dot_S512x1024_S1024x1024_S512x1024_1_0_0_1_n_n none (k0_pay1 (F := Ideal) v0)
        (transpose S1024x1024 [1, 0] (truncf .bf16 w bitsLt_bf16_f32 : FVec Ideal S1024x1024 .bf16) transposes_S1024x1024_p1_0_S1024x1024)
        (constant (F := Ideal) S512x1024 .f32 0x00000000#32)) bitsLt_bf16_f32 : FVec Ideal S512x1024 .bf16) (ix2 m n)
      = ∑ k : Fin 1024, v0 (ix2 m k) * w (ix2 n k) := by
  refine (mm0_apply _ _ m n).trans ?_
  refine Finset.sum_congr rfl fun k _ => ?_
  exact congrArg (v0 (ix2 m k) * ·)
    (transpose_ix2_apply (truncf .bf16 w bitsLt_bf16_f32 : FVec Ideal S1024x1024 .bf16) transposes_S1024x1024_p1_0_S1024x1024 k n)

/-- Entry (m, n) of the first product is Σ_k x(m, k) · w(n, k). -/
theorem pay2_apply (v0 : Vec Ideal S512x1024 .f32) (v2 : Vec Ideal S1024x1024 .f32) (m : Fin 512) (n : Fin 1024) :
    k0_pay2 (F := Ideal) v0 v2 (ix2 m n) = ∑ k : Fin 1024, v0 (ix2 m k) * v2 (ix2 n k) :=
  proj_apply v0 v2 m n

/-- Entry (m, n) of the second product is Σ_k x(m, k) · w(n, k). -/
theorem pay3_apply (v0 : Vec Ideal S512x1024 .f32) (v4 : Vec Ideal S1024x1024 .f32) (m : Fin 512) (n : Fin 1024) :
    k0_pay3 (F := Ideal) v0 v4 (ix2 m n) = ∑ k : Fin 1024, v0 (ix2 m k) * v4 (ix2 n k) :=
  proj_apply v0 v4 m n

/-- Entry (m, n) of the third product is Σ_k x(m, k) · w(n, k). -/
theorem pay4_apply (v0 : Vec Ideal S512x1024 .f32) (v6 : Vec Ideal S1024x1024 .f32) (m : Fin 512) (n : Fin 1024) :
    k0_pay4 (F := Ideal) v0 v6 (ix2 m n) = ∑ k : Fin 1024, v0 (ix2 m k) * v6 (ix2 n k) :=
  proj_apply v0 v6 m n

end Cert.Attn.Pay

end
-- ==== Proof.ProjValue.lean ====
/-
  The projection region's three result arrays in closed form, over the extended reals.

  The region has one grid point, and at it every window's block is its whole array: the block index is (0, 0) and
  the block has the array's sizes. So the blocks the body loads are the row block x and the weight matrices
  themselves, what the one point writes back into each result array is the whole product, and the one block
  covers the array. Entry (m, n) of each result is therefore Σ_k x(m, k) · w(n, k) for its weight matrix w.
-/
import proofs.«128360_j52493090291775_2_alg».proof.Proof.ProjFrameI
import proofs.«128360_j52493090291775_2_alg».proof.Proof.Pay0
import Idealize.ShloMosaic.Lib.Pipeline.Value
import Idealize.ShloMosaic.Lib.ValueIdx

noncomputable section

namespace Cert.Attn.Proj

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The row block's window reads the whole row block at the one point, -/
theorem iblk_x (c : Dev nD) (t : Fin cfg0.N) : iblk0 V c 0 t = V c main_arg0 := by
  have hz' : (fun a => win0_0.index t a * main_arg0.ty.shape.size a) = fun _ => 0 :=
    funext fun a => by fin_cases a <;> rfl
  exact Memref.read_access_unit_zero (Elt Ideal) main_arg0 hz' (fun a => by rw [congrFun hz' a]; simp) (V c main_arg0)

/-- and each weight matrix's window the whole matrix. -/
theorem iblk_wq (c : Dev nD) (t : Fin cfg0.N) : iblk0 V c 1 t = V c main_arg1 := by
  have hz' : (fun a => win0_1.index t a * main_arg1.ty.shape.size a) = fun _ => 0 :=
    funext fun a => by fin_cases a <;> rfl
  exact Memref.read_access_unit_zero (Elt Ideal) main_arg1 hz' (fun a => by rw [congrFun hz' a]; simp) (V c main_arg1)
theorem iblk_wk (c : Dev nD) (t : Fin cfg0.N) : iblk0 V c 2 t = V c main_arg2 := by
  have hz' : (fun a => win0_2.index t a * main_arg2.ty.shape.size a) = fun _ => 0 :=
    funext fun a => by fin_cases a <;> rfl
  exact Memref.read_access_unit_zero (Elt Ideal) main_arg2 hz' (fun a => by rw [congrFun hz' a]; simp) (V c main_arg2)
theorem iblk_wv (c : Dev nD) (t : Fin cfg0.N) : iblk0 V c 3 t = V c main_arg3 := by
  have hz' : (fun a => win0_3.index t a * main_arg3.ty.shape.size a) = fun _ => 0 :=
    funext fun a => by fin_cases a <;> rfl
  exact Memref.read_access_unit_zero (Elt Ideal) main_arg3 hz' (fun a => by rw [congrFun hz' a]; simp) (V c main_arg3)

/-- The row block and the three weight matrices as the region finds them, as matrices of extended reals. -/
abbrev argX (c : Dev nD) : Cert.Attn.Mat 512 1024 := V c main_arg0
abbrev argWq (c : Dev nD) : Cert.Attn.Mat 1024 1024 := V c main_arg1
abbrev argWk (c : Dev nD) : Cert.Attn.Mat 1024 1024 := V c main_arg2
abbrev argWv (c : Dev nD) : Cert.Attn.Mat 1024 1024 := V c main_arg3

/-- The three products of the arrays as the region finds them. -/
abbrev Gq (c : Dev nD) : S512x1024.Idx → Elt Ideal .bf16 := k0_pay2 (F := Ideal) (V c main_arg0) (V c main_arg1)
abbrev Gk (c : Dev nD) : S512x1024.Idx → Elt Ideal .bf16 := k0_pay3 (F := Ideal) (V c main_arg0) (V c main_arg2)
abbrev Gv (c : Dev nD) : S512x1024.Idx → Elt Ideal .bf16 := k0_pay4 (F := Ideal) (V c main_arg0) (V c main_arg3)

/-- What the point writes back into the first result array is the whole first product, -/
theorem flushed_q (c : Dev nD) (t : Fin cfg0.N) :
    (dat0 V c).flushed 4 t = ((cfg0.win 4).blk t).view.read (Elt Ideal) (Gq V c) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x1024) hz]
  rw [iblk_x, iblk_wq]
  have hz' : (fun a => win0_4.index t a * main_v0_0.ty.shape.size a) = fun _ => 0 :=
    funext fun a => by fin_cases a <;> rfl
  exact (Memref.read_access_unit_zero (Elt Ideal) main_v0_0 hz' (fun a => by rw [congrFun hz' a]; simp) (Gq V c)).symm

/-- into the second the second, -/
theorem flushed_k (c : Dev nD) (t : Fin cfg0.N) :
    (dat0 V c).flushed 5 t = ((cfg0.win 5).blk t).view.read (Elt Ideal) (Gk V c) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x1024) hz]
  rw [iblk_x, iblk_wk]
  have hz' : (fun a => win0_5.index t a * main_v0_1.ty.shape.size a) = fun _ => 0 :=
    funext fun a => by fin_cases a <;> rfl
  exact (Memref.read_access_unit_zero (Elt Ideal) main_v0_1 hz' (fun a => by rw [congrFun hz' a]; simp) (Gk V c)).symm

/-- into the third the third. -/
theorem flushed_v (c : Dev nD) (t : Fin cfg0.N) :
    (dat0 V c).flushed 6 t = ((cfg0.win 6).blk t).view.read (Elt Ideal) (Gv V c) := by
  show (cfg0.win 6).cut (grid0.coords t) ((dat0 V c).after 6 t) = _
  rw [after0_6]
  unfold out0_6
  rw [View.canon_unit_zero hz]
  simp only [View.ld_unit_zero (S := S512x1024) hz, View.ld_unit_zero (S := S1024x1024) hz]
  rw [iblk_x, iblk_wv]
  have hz' : (fun a => win0_6.index t a * main_v0_2.ty.shape.size a) = fun _ => 0 :=
    funext fun a => by fin_cases a <;> rfl
  exact (Memref.read_access_unit_zero (Elt Ideal) main_v0_2 hz' (fun a => by rw [congrFun hz' a]; simp) (Gv V c)).symm

/-- The one block of each result window is the whole array. -/
theorem cover_q (i : S512x1024.Idx) : ∃ t : Fin cfg0.N, (cfg0.win 4).flush t = true ∧ i ∈ ((cfg0.win 4).blk t).view.set :=
  ⟨t0_0, flush0_4 t0_0, by
    show i ∈ ((View.whole main_v0_0).slice (win0_4.rect t0_0)).set
    rw [View.set_slice_whole, Rect.mem_set_unit]
    intro a
    have h0 : (i 0 : Nat) < 512 := (i 0).isLt
    have h1 : (i 1 : Nat) < 1024 := (i 1).isLt
    match a with
    | ⟨0, _⟩ => show win0_4.index t0_0 0 * win0_4.size 0 ≤ (i 0 : Nat) ∧ (i 0 : Nat) < win0_4.index t0_0 0 * win0_4.size 0 + win0_4.xsize (grid0.coords t0_0) 0
                rw [show win0_4.index t0_0 0 * win0_4.size 0 = 0 from rfl, show win0_4.xsize (grid0.coords t0_0) 0 = 512 from rfl]; omega
    | ⟨1, _⟩ => show win0_4.index t0_0 1 * win0_4.size 1 ≤ (i 1 : Nat) ∧ (i 1 : Nat) < win0_4.index t0_0 1 * win0_4.size 1 + win0_4.xsize (grid0.coords t0_0) 1
                rw [show win0_4.index t0_0 1 * win0_4.size 1 = 0 from rfl, show win0_4.xsize (grid0.coords t0_0) 1 = 1024 from rfl]; omega⟩

/-- So the first result array ends holding the first product. -/
theorem final_q (c : Dev nD) : (dat0 V c).arrAt 4 cfg0.N = Gq V c :=
  (dat0 V c).arrAt_eq_of_cover 4 (Gq V c) (fun t _ => flushed_q V c t) cover_q

/-- Entry (m, n) of the first result array is Σ_k x(m, k) · wq(n, k). -/
theorem proj_q (c : Dev nD) (m : Fin 512) (n : Fin 1024) :
    ((dat0 (F := Ideal) V c).arrAt 4 cfg0.N : S512x1024.Idx → Elt Ideal .bf16) (ix2 m n)
      = (∑ k : Fin 1024, argX V c (ix2 m k) * argWq V c (ix2 n k) : EReal) := by
  rw [final_q]
  exact Cert.Attn.Pay.pay2_apply _ _ m n

/-- The same entry as head h's query component d of row m. -/
theorem proj_q_heads (c : Dev nD) (h : Fin 16) (m : Fin 512) (d : Fin 64) :
    ((dat0 (F := Ideal) V c).arrAt 4 cfg0.N : S512x1024.Idx → Elt Ideal .bf16) (ix2 m (Cert.Attn.col h d))
      = Cert.Attn.proj (argX V c) (argWq V c) h m d :=
  proj_q V c m (Cert.Attn.col h d)

theorem cover_k (i : S512x1024.Idx) : ∃ t : Fin cfg0.N, (cfg0.win 5).flush t = true ∧ i ∈ ((cfg0.win 5).blk t).view.set :=
  ⟨t0_0, flush0_5 t0_0, by
    show i ∈ ((View.whole main_v0_1).slice (win0_5.rect t0_0)).set
    rw [View.set_slice_whole, Rect.mem_set_unit]
    intro a
    have h0 : (i 0 : Nat) < 512 := (i 0).isLt
    have h1 : (i 1 : Nat) < 1024 := (i 1).isLt
    match a with
    | ⟨0, _⟩ => show win0_5.index t0_0 0 * win0_5.size 0 ≤ (i 0 : Nat) ∧ (i 0 : Nat) < win0_5.index t0_0 0 * win0_5.size 0 + win0_5.xsize (grid0.coords t0_0) 0
                rw [show win0_5.index t0_0 0 * win0_5.size 0 = 0 from rfl, show win0_5.xsize (grid0.coords t0_0) 0 = 512 from rfl]; omega
    | ⟨1, _⟩ => show win0_5.index t0_0 1 * win0_5.size 1 ≤ (i 1 : Nat) ∧ (i 1 : Nat) < win0_5.index t0_0 1 * win0_5.size 1 + win0_5.xsize (grid0.coords t0_0) 1
                rw [show win0_5.index t0_0 1 * win0_5.size 1 = 0 from rfl, show win0_5.xsize (grid0.coords t0_0) 1 = 1024 from rfl]; omega⟩

/-- So the second result array ends holding the second product. -/
theorem final_k (c : Dev nD) : (dat0 V c).arrAt 5 cfg0.N = Gk V c :=
  (dat0 V c).arrAt_eq_of_cover 5 (Gk V c) (fun t _ => flushed_k V c t) cover_k

/-- Entry (m, n) of the second result array is Σ_k x(m, k) · wk(n, k). -/
theorem proj_k (c : Dev nD) (m : Fin 512) (n : Fin 1024) :
    ((dat0 (F := Ideal) V c).arrAt 5 cfg0.N : S512x1024.Idx → Elt Ideal .bf16) (ix2 m n)
      = (∑ k : Fin 1024, argX V c (ix2 m k) * argWk V c (ix2 n k) : EReal) := by
  rw [final_k]
  exact Cert.Attn.Pay.pay3_apply _ _ m n

/-- The same entry as head h's key component d of row m. -/
theorem proj_k_heads (c : Dev nD) (h : Fin 16) (m : Fin 512) (d : Fin 64) :
    ((dat0 (F := Ideal) V c).arrAt 5 cfg0.N : S512x1024.Idx → Elt Ideal .bf16) (ix2 m (Cert.Attn.col h d))
      = Cert.Attn.proj (argX V c) (argWk V c) h m d :=
  proj_k V c m (Cert.Attn.col h d)

theorem cover_v (i : S512x1024.Idx) : ∃ t : Fin cfg0.N, (cfg0.win 6).flush t = true ∧ i ∈ ((cfg0.win 6).blk t).view.set :=
  ⟨t0_0, flush0_6 t0_0, by
    show i ∈ ((View.whole main_v0_2).slice (win0_6.rect t0_0)).set
    rw [View.set_slice_whole, Rect.mem_set_unit]
    intro a
    have h0 : (i 0 : Nat) < 512 := (i 0).isLt
    have h1 : (i 1 : Nat) < 1024 := (i 1).isLt
    match a with
    | ⟨0, _⟩ => show win0_6.index t0_0 0 * win0_6.size 0 ≤ (i 0 : Nat) ∧ (i 0 : Nat) < win0_6.index t0_0 0 * win0_6.size 0 + win0_6.xsize (grid0.coords t0_0) 0
                rw [show win0_6.index t0_0 0 * win0_6.size 0 = 0 from rfl, show win0_6.xsize (grid0.coords t0_0) 0 = 512 from rfl]; omega
    | ⟨1, _⟩ => show win0_6.index t0_0 1 * win0_6.size 1 ≤ (i 1 : Nat) ∧ (i 1 : Nat) < win0_6.index t0_0 1 * win0_6.size 1 + win0_6.xsize (grid0.coords t0_0) 1
                rw [show win0_6.index t0_0 1 * win0_6.size 1 = 0 from rfl, show win0_6.xsize (grid0.coords t0_0) 1 = 1024 from rfl]; omega⟩

/-- So the third result array ends holding the third product. -/
theorem final_v (c : Dev nD) : (dat0 V c).arrAt 6 cfg0.N = Gv V c :=
  (dat0 V c).arrAt_eq_of_cover 6 (Gv V c) (fun t _ => flushed_v V c t) cover_v

/-- Entry (m, n) of the third result array is Σ_k x(m, k) · wv(n, k). -/
theorem proj_v (c : Dev nD) (m : Fin 512) (n : Fin 1024) :
    ((dat0 (F := Ideal) V c).arrAt 6 cfg0.N : S512x1024.Idx → Elt Ideal .bf16) (ix2 m n)
      = (∑ k : Fin 1024, argX V c (ix2 m k) * argWv V c (ix2 n k) : EReal) := by
  rw [final_v]
  exact Cert.Attn.Pay.pay4_apply _ _ m n

/-- The same entry as head h's value component d of row m. -/
theorem proj_v_heads (c : Dev nD) (h : Fin 16) (m : Fin 512) (d : Fin 64) :
    ((dat0 (F := Ideal) V c).arrAt 6 cfg0.N : S512x1024.Idx → Elt Ideal .bf16) (ix2 m (Cert.Attn.col h d))
      = Cert.Attn.proj (argX V c) (argWv V c) h m d :=
  proj_v V c m (Cert.Attn.col h d)

end Cert.Attn.Proj

end
-- ==== Proof.Pay1.lean ====
/-
  The attention kernel's arithmetic read at one entry, over the extended reals.

  For one head the kernel holds the query block q (512 rows of width 64) and walks the cached keys and
  values in tiles of 512 positions. For a key tile k and value tile v it forms the numerators
      n(m, s) = e^(Σ_d q(m, d) · k(s, d)),
  adds their row sums to a running denominator l(m) and the products Σ_s n(m, s) · v(s, d) to a running
  accumulator. The new keys and values make one more such tile; then the output block is the
  accumulator times 1 / l, the normalised new tile is n · (1 / l), and the column sums of the
  normalised tile and of its squares are the two per-position statistics. A second walk over the cached
  tiles recomputes n(m, s) · (1 / l)(m) and takes the same two column sums.

  Over the extended reals a change of format is the identity, a product into a zero accumulator is the
  plain sum over the contracted coordinate, a transpose swaps two coordinates, a cast that adds or
  drops a unit axis keeps the remaining coordinates, and a column broadcast along a row repeats the
  column's entry. Each lemma below reads one of the kernel's values at explicit coordinates as such
  sums and products of the values it was computed from.
-/
import proofs.«128360_j52493090291775_2_alg».proof.Proof.Gen.KernelIdeal.Skeleton
import proofs.«128360_j52493090291775_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Attn.Pay

open Idealize.ShloMosaic Idealize.ShloMosaic.ValueIdx Cert.KernelIdeal Cert.KernelIdeal.Gen

/-! ### Layout: a vector as a column, a column repeated along rows -/

/-- A length-a vector cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bit pattern of 1.0 denotes the extended real 1. -/
theorem ofBits_one_f32 : Ideal.ofBits .f32 0x3F800000#32 = 1 := by
  simp [Ideal.ofBits, Ideal.ieee, -EReal.coe_mul]; norm_num

/-! ### Lane sums of a 512×512 tile -/

/-- The sum along a row: at row m, Σ_s tile(m, s). -/
theorem rowSum_apply (src : FVec Ideal S512x512 .f32) (m : Fin 512) :
    multiReduction (F := Ideal) .add [1] S512 src 0x00000000#32 reduces_S512x512_S512 (.inl rfl) rfl (ix1 m)
      = ∑ s : Fin 512, src (ix2 m s) := by
  refine (Ideal.multiReduction_add_single src 0x00000000#32 reduces_S512x512_S512 (.inl rfl) rfl (ix1 m)).trans ?_
  refine Finset.sum_congr rfl fun s _ => congrArg src (funext fun a => Fin.ext ?_)
  match a with
  | ⟨0, _⟩ => rfl
  | ⟨1, _⟩ => rfl

/-- The sum along a column: at column s, Σ_m tile(m, s). -/
theorem colSum_apply (src : FVec Ideal S512x512 .f32) (s : Fin 512) :
    multiReduction (F := Ideal) .add [0] S512 src 0x00000000#32 reduces_S512x512_S512_2 (.inl rfl) rfl (ix1 s)
      = ∑ m : Fin 512, src (ix2 m s) := by
  refine (Ideal.multiReduction_add_single src 0x00000000#32 reduces_S512x512_S512_2 (.inl rfl) rfl (ix1 s)).trans ?_
  refine Finset.sum_congr rfl fun m _ => congrArg src (funext fun a => Fin.ext ?_)
  match a with
  | ⟨0, _⟩ => rfl
  | ⟨1, _⟩ => rfl

/-- The row sums kept as a column. -/
theorem rowSumCol_apply (src : FVec Ideal S512x512 .f32) (m : Fin 512) (u : Fin 1) :
    shapeCast S512x1 (multiReduction (F := Ideal) .add [1] S512 src 0x00000000#32 reduces_S512x512_S512 (.inl rfl) rfl)
        shapeCasts_S512_S512x1 (ix2 m u)
      = ∑ s : Fin 512, src (ix2 m s) :=
  (shapeCast_a_a1_apply _ shapeCasts_S512_S512x1 m u).trans (rowSum_apply src m)

/-- The column sums kept as a row. -/
theorem colSumRow_apply (src : FVec Ideal S512x512 .f32) (w : Fin 1) (s : Fin 512) :
    shapeCast S1x512 (multiReduction (F := Ideal) .add [0] S512 src 0x00000000#32 reduces_S512x512_S512_2 (.inl rfl) rfl)
        shapeCasts_S512_S1x512 (ix2 w s)
      = ∑ m : Fin 512, src (ix2 m s) :=
  (shapeCast_a_1a_apply _ shapeCasts_S512_S1x512 w s).trans (colSum_apply src s)

/-- The column sums kept as a row of a one-row block. -/
theorem colSumRow3_apply (src : FVec Ideal S512x512 .f32) (u w : Fin 1) (s : Fin 512) :
    shapeCast S1x1x512 (shapeCast S1x512 (multiReduction (F := Ideal) .add [0] S512 src 0x00000000#32 reduces_S512x512_S512_2 (.inl rfl) rfl)
        shapeCasts_S512_S1x512) shapeCasts_S1x512_S1x1x512 (ix3 u w s)
      = ∑ m : Fin 512, src (ix2 m s) :=
  (shapeCast_ab_1ab_apply _ shapeCasts_S1x512_S1x1x512 u w s).trans (colSumRow_apply src w s)

/-! ### The product 512x64 · 64x512 read at an entry -/

theorem mm1_lhs_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem mm1_lhs_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem mm1_rhs_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem mm1_rhs_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- The contraction's sum re-indexed by the contracted coordinate: entry (m, n) pairs left(m, k) with right(k, n). -/
theorem mm1_sum (lhs : FVec Ideal S512x64 .bf16) (rhs : FVec Ideal S64x512 .bf16) (m : Fin 512) (n : Fin 512) :
    (∑ q : dot_S512x64_S64x512_S512x512_1_0_0_1_n_n.contr.Idx, lhs (dot_S512x64_S64x512_S512x512_1_0_0_1_n_n.lhsIdx (ix2 m n) q) * rhs (dot_S512x64_S64x512_S512x512_1_0_0_1_n_n.rhsIdx (ix2 m n) q))
      = ∑ k : Fin 64, lhs (ix2 m k) * rhs (ix2 k n) := by
  rw [← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 m n) ((contrEquiv1 dot_S512x64_S64x512_S512x512_1_0_0_1_n_n 64 rfl rfl).symm k) = ix2 m k := funext fun a => Fin.ext (by
    match a with
    | ⟨0, _⟩ => exact mm1_lhs_0 _ _
    | ⟨1, _⟩ => exact (mm1_lhs_1 _ _).trans hk)
  have er : dot_S512x64_S64x512_S512x512_1_0_0_1_n_n.rhsIdx (ix2 m n) ((contrEquiv1 dot_S512x64_S64x512_S512x512_1_0_0_1_n_n 64 rfl rfl).symm k) = ix2 k n := funext fun a => Fin.ext (by
    match a with
    | ⟨0, _⟩ => exact (mm1_rhs_0 _ _).trans hk
    | ⟨1, _⟩ => exact mm1_rhs_1 _ _)
  rw [el, er]

/-- Into a zero accumulator, entry (m, n) of the product is Σ_k left(m, k) · right(k, n). -/
theorem mm1_apply (lhs : FVec Ideal S512x64 .bf16) (rhs : FVec Ideal S64x512 .bf16) (m : Fin 512) (n : Fin 512) :
    matmul dot_S512x64_S64x512_S512x512_1_0_0_1_n_n none lhs rhs (constant (F := Ideal) S512x512 .f32 0x00000000#32) (ix2 m n)
      = ∑ k : Fin 64, lhs (ix2 m k) * rhs (ix2 k n) :=
  (Ideal.matmul_constant_zero_apply dot_S512x64_S64x512_S512x512_1_0_0_1_n_n none lhs rhs (ix2 m n)).trans (mm1_sum lhs rhs m n)

/-! ### The product 512x512 · 512x64 read at an entry -/

theorem mm2_lhs_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem mm2_lhs_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem mm2_rhs_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem mm2_rhs_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- The contraction's sum re-indexed by the contracted coordinate: entry (m, n) pairs left(m, k) with right(k, n). -/
theorem mm2_sum (lhs : FVec Ideal S512x512 .bf16) (rhs : FVec Ideal S512x64 .bf16) (m : Fin 512) (n : Fin 64) :
    (∑ q : dot_S512x512_S512x64_S512x64_1_0_0_1_n_n.contr.Idx, lhs (dot_S512x512_S512x64_S512x64_1_0_0_1_n_n.lhsIdx (ix2 m n) q) * rhs (dot_S512x512_S512x64_S512x64_1_0_0_1_n_n.rhsIdx (ix2 m n) q))
      = ∑ k : Fin 512, lhs (ix2 m k) * rhs (ix2 k n) := by
  rw [← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 m n) ((contrEquiv1 dot_S512x512_S512x64_S512x64_1_0_0_1_n_n 512 rfl rfl).symm k) = ix2 m k := funext fun a => Fin.ext (by
    match a with
    | ⟨0, _⟩ => exact mm2_lhs_0 _ _
    | ⟨1, _⟩ => exact (mm2_lhs_1 _ _).trans hk)
  have er : dot_S512x512_S512x64_S512x64_1_0_0_1_n_n.rhsIdx (ix2 m n) ((contrEquiv1 dot_S512x512_S512x64_S512x64_1_0_0_1_n_n 512 rfl rfl).symm k) = ix2 k n := funext fun a => Fin.ext (by
    match a with
    | ⟨0, _⟩ => exact (mm2_rhs_0 _ _).trans hk
    | ⟨1, _⟩ => exact mm2_rhs_1 _ _)
  rw [el, er]

/-- Into a zero accumulator, entry (m, n) of the product is Σ_k left(m, k) · right(k, n). -/
theorem mm2_apply (lhs : FVec Ideal S512x512 .bf16) (rhs : FVec Ideal S512x64 .bf16) (m : Fin 512) (n : Fin 64) :
    matmul dot_S512x512_S512x64_S512x64_1_0_0_1_n_n none lhs rhs (constant (F := Ideal) S512x64 .f32 0x00000000#32) (ix2 m n)
      = ∑ k : Fin 512, lhs (ix2 m k) * rhs (ix2 k n) :=
  (Ideal.matmul_constant_zero_apply dot_S512x512_S512x64_S512x64_1_0_0_1_n_n none lhs rhs (ix2 m n)).trans (mm2_sum lhs rhs m n)

/-! ### The numerator tile and the query block -/

/-- The bit pattern of zero denotes 0: the running denominator starts at 0. -/
theorem k1_pay7_apply (m : Fin 512) (u : Fin 1) : k1_pay7 (F := Ideal) (ix2 m u) = 0 :=
  Ideal.ofBits_zero_f32

/-- The running accumulator starts at 0. -/
theorem k1_pay8_apply (m : Fin 512) (d : Fin 64) : k1_pay8 (F := Ideal) (ix2 m d) = 0 :=
  Ideal.ofBits_zero_f32

/-- The query block with its unit axis dropped: entry (m, d) is q(0, m, d). -/
theorem k1_pay6_apply (v0 : Vec Ideal S1x512x64 .bf16) (m : Fin 512) (d : Fin 64) :
    k1_pay6 (F := Ideal) v0 (ix2 m d) = v0 (ix3 (0 : Fin 1) m d) :=
  shapeCast_1ab_ab_apply v0 shapeCasts_S1x512x64_S512x64 m d

/-- The exponential of a product with a transposed tile: entry (m, s) is e^(Σ_d q(m, d) · k(s, d)). -/
theorem expTile_apply (q kt : FVec Ideal S512x64 .bf16) (m s : Fin 512) :
    (exp (matmul dot_S512x64_S64x512_S512x512_1_0_0_1_n_n none q
        (transpose S64x512 [1, 0] kt transposes_S512x64_p1_0_S64x512)
        (constant (F := Ideal) S512x512 .f32 0x00000000#32)) : FVec Ideal S512x512 .f32) (ix2 m s)
      = Ideal.exp (∑ d : Fin 64, q (ix2 m d) * kt (ix2 s d)) := by
  show Ideal.exp (matmul dot_S512x64_S64x512_S512x512_1_0_0_1_n_n none q
        (transpose S64x512 [1, 0] kt transposes_S512x64_p1_0_S64x512)
        (constant (F := Ideal) S512x512 .f32 0x00000000#32) (ix2 m s)) = _
  refine congrArg Ideal.exp ((mm1_apply _ _ m s).trans ?_)
  refine Finset.sum_congr rfl fun d _ => ?_
  exact congrArg (q (ix2 m d) * ·) (transpose_ix2_apply kt transposes_S512x64_p1_0_S64x512 d s)

/-! ### One trip over a cached tile -/

/-- The numerators of a cached tile: entry (m, s) is e^(Σ_d q(0, m, d) · k(0, s, d)). -/
theorem k1_pay9_apply (v0 : Vec Ideal S1x512x64 .bf16) (v43 : Vec Ideal S1x512x64 .f32) (m s : Fin 512) :
    k1_pay9 (F := Ideal) v0 v43 (ix2 m s)
      = Ideal.exp (∑ d : Fin 64, v0 (ix3 (0 : Fin 1) m d) * v43 (ix3 (0 : Fin 1) s d)) := by
  refine (expTile_apply (k1_pay6 (F := Ideal) v0)
    (truncf .bf16 (shapeCast S512x64 v43 shapeCasts_S1x512x64_S512x64 : FVec Ideal S512x64 .f32) bitsLt_bf16_f32) m s).trans ?_
  refine congrArg Ideal.exp (Finset.sum_congr rfl fun d _ => ?_)
  exact congrArg₂ (· * ·) (k1_pay6_apply v0 m d) (shapeCast_1ab_ab_apply v43 shapeCasts_S1x512x64_S512x64 s d)

/-- The running denominator after a cached tile: l(m) + Σ_s e^(Σ_d q(0, m, d) · k(0, s, d)). -/
theorem k1_pay10_apply (v0 : Vec Ideal S1x512x64 .bf16) (arg10 : FVec Ideal S512x1 .f32) (v43 : Vec Ideal S1x512x64 .f32)
    (m : Fin 512) (u : Fin 1) :
    k1_pay10 (F := Ideal) v0 arg10 v43 (ix2 m u)
      = arg10 (ix2 m u) + ∑ s : Fin 512, Ideal.exp (∑ d : Fin 64, v0 (ix3 (0 : Fin 1) m d) * v43 (ix3 (0 : Fin 1) s d)) := by
  show arg10 (ix2 m u) + shapeCast S512x1 (multiReduction (F := Ideal) .add [1] S512 (k1_pay9 (F := Ideal) v0 v43) 0x00000000#32
      reduces_S512x512_S512 (.inl rfl) rfl) shapeCasts_S512_S512x1 (ix2 m u) = _
  refine congrArg (arg10 (ix2 m u) + ·) ((rowSumCol_apply _ m u).trans ?_)
  exact Finset.sum_congr rfl fun s _ => k1_pay9_apply v0 v43 m s

/-- The running accumulator after a cached tile: acc(m, d) + Σ_s e^(Σ_e q(0, m, e) · k(0, s, e)) · v(0, s, d). -/
theorem k1_pay11_apply (v0 : Vec Ideal S1x512x64 .bf16) (arg11 : FVec Ideal S512x64 .f32) (v43 v47 : Vec Ideal S1x512x64 .f32)
    (m : Fin 512) (d : Fin 64) :
    k1_pay11 (F := Ideal) v0 arg11 v43 v47 (ix2 m d)
      = arg11 (ix2 m d) + ∑ s : Fin 512,
          Ideal.exp (∑ e : Fin 64, v0 (ix3 (0 : Fin 1) m e) * v43 (ix3 (0 : Fin 1) s e)) * v47 (ix3 (0 : Fin 1) s d) := by
  show arg11 (ix2 m d) + matmul dot_S512x512_S512x64_S512x64_1_0_0_1_n_n none
      (truncf .bf16 (k1_pay9 (F := Ideal) v0 v43) bitsLt_bf16_f32 : FVec Ideal S512x512 .bf16)
      (truncf .bf16 (shapeCast S512x64 v47 shapeCasts_S1x512x64_S512x64 : FVec Ideal S512x64 .f32) bitsLt_bf16_f32 : FVec Ideal S512x64 .bf16)
      (constant (F := Ideal) S512x64 .f32 0x00000000#32) (ix2 m d) = _
  refine congrArg (arg11 (ix2 m d) + ·) ((mm2_apply _ _ m d).trans ?_)
  refine Finset.sum_congr rfl fun s _ => ?_
  exact congrArg₂ (· * ·) (k1_pay9_apply v0 v43 m s) (shapeCast_1ab_ab_apply v47 shapeCasts_S1x512x64_S512x64 s d)

/-! ### The new tile, the reciprocal denominator and the output block -/

/-- The numerators of the new tile: entry (m, s) is e^(Σ_d q(0, m, d) · k(0, s, d)). -/
theorem k1_pay12_apply (v0 v6 : Vec Ideal S1x512x64 .bf16) (m s : Fin 512) :
    k1_pay12 (F := Ideal) v0 v6 (ix2 m s)
      = Ideal.exp (∑ d : Fin 64, v0 (ix3 (0 : Fin 1) m d) * v6 (ix3 (0 : Fin 1) s d)) := by
  refine (expTile_apply (k1_pay6 (F := Ideal) v0)
    (shapeCast S512x64 v6 shapeCasts_S1x512x64_S512x64 : FVec Ideal S512x64 .bf16) m s).trans ?_
  refine congrArg Ideal.exp (Finset.sum_congr rfl fun d _ => ?_)
  exact congrArg₂ (· * ·) (k1_pay6_apply v0 m d) (shapeCast_1ab_ab_apply v6 shapeCasts_S1x512x64_S512x64 s d)

/-- The reciprocal of the full denominator: 1 / (l(m) + Σ_s e^(Σ_d q(0, m, d) · k(0, s, d))). -/
theorem k1_pay13_apply (v0 : Vec Ideal S1x512x64 .bf16) (v5_0 : FVec Ideal S512x1 .f32) (v6 : Vec Ideal S1x512x64 .bf16)
    (m : Fin 512) (u : Fin 1) :
    k1_pay13 (F := Ideal) v0 v5_0 v6 (ix2 m u)
      = Ideal.div 1 (v5_0 (ix2 m u)
          + ∑ s : Fin 512, Ideal.exp (∑ d : Fin 64, v0 (ix3 (0 : Fin 1) m d) * v6 (ix3 (0 : Fin 1) s d))) := by
  show Ideal.div (Ideal.ofBits .f32 0x3F800000#32) (v5_0 (ix2 m u)
      + shapeCast S512x1 (multiReduction (F := Ideal) .add [1] S512 (k1_pay12 (F := Ideal) v0 v6) 0x00000000#32
          reduces_S512x512_S512 (.inl rfl) rfl) shapeCasts_S512_S512x1 (ix2 m u)) = _
  refine congrArg₂ Ideal.div ofBits_one_f32 (congrArg (v5_0 (ix2 m u) + ·) ((rowSumCol_apply _ m u).trans ?_))
  exact Finset.sum_congr rfl fun s _ => k1_pay12_apply v0 v6 m s

/-- The output block: (acc(m, d) + Σ_s e^(Σ_e q(0, m, e) · k(0, s, e)) · v(0, s, d)) times the reciprocal denominator of row m. -/
theorem k1_pay14_apply (v0 : Vec Ideal S1x512x64 .bf16) (v5_0 : FVec Ideal S512x1 .f32) (v5_1 : FVec Ideal S512x64 .f32)
    (v6 v8 : Vec Ideal S1x512x64 .bf16) (u : Fin 1) (m : Fin 512) (d : Fin 64) :
    k1_pay14 (F := Ideal) v0 v5_0 v5_1 v6 v8 (ix3 u m d)
      = (v5_1 (ix2 m d) + ∑ s : Fin 512,
            Ideal.exp (∑ e : Fin 64, v0 (ix3 (0 : Fin 1) m e) * v6 (ix3 (0 : Fin 1) s e)) * v8 (ix3 (0 : Fin 1) s d))
          * Ideal.div 1 (v5_0 (ix2 m (0 : Fin 1))
              + ∑ s : Fin 512, Ideal.exp (∑ e : Fin 64, v0 (ix3 (0 : Fin 1) m e) * v6 (ix3 (0 : Fin 1) s e))) := by
  show shapeCast S1x512x64
      (mulf (addf v5_1 (matmul dot_S512x512_S512x64_S512x64_1_0_0_1_n_n none
          (truncf .bf16 (k1_pay12 (F := Ideal) v0 v6) bitsLt_bf16_f32 : FVec Ideal S512x512 .bf16)
          (shapeCast S512x64 v8 shapeCasts_S1x512x64_S512x64 : FVec Ideal S512x64 .bf16)
          (constant (F := Ideal) S512x64 .f32 0x00000000#32)))
        (broadcastTo S512x64 (k1_pay13 (F := Ideal) v0 v5_0 v6) broadcasts_S512x1_S512x64) : FVec Ideal S512x64 .f32)
      shapeCasts_S512x64_S1x512x64 (ix3 u m d) = _
  refine (shapeCast_ab_1ab_apply _ shapeCasts_S512x64_S1x512x64 u m d).trans ?_
  show (v5_1 (ix2 m d) + matmul dot_S512x512_S512x64_S512x64_1_0_0_1_n_n none
        (truncf .bf16 (k1_pay12 (F := Ideal) v0 v6) bitsLt_bf16_f32 : FVec Ideal S512x512 .bf16)
        (shapeCast S512x64 v8 shapeCasts_S1x512x64_S512x64 : FVec Ideal S512x64 .bf16)
        (constant (F := Ideal) S512x64 .f32 0x00000000#32) (ix2 m d))
      * broadcastTo S512x64 (k1_pay13 (F := Ideal) v0 v5_0 v6) broadcasts_S512x1_S512x64 (ix2 m d) = _
  refine congrArg₂ (· * ·) (congrArg (v5_1 (ix2 m d) + ·) ((mm2_apply _ _ m d).trans ?_))
    ((broadcastTo_a1_ab_apply _ broadcasts_S512x1_S512x64 m d).trans (k1_pay13_apply v0 v5_0 v6 m 0))
  refine Finset.sum_congr rfl fun s _ => ?_
  exact congrArg₂ (· * ·) (k1_pay12_apply v0 v6 m s) (shapeCast_1ab_ab_apply v8 shapeCasts_S1x512x64_S512x64 s d)

/-! ### The normalised new tile and its column sums -/

/-- The normalised new tile: the numerator times the reciprocal denominator of its row. -/
theorem k1_pay15_apply (v0 : Vec Ideal S1x512x64 .bf16) (v5_0 : FVec Ideal S512x1 .f32) (v6 : Vec Ideal S1x512x64 .bf16)
    (m s : Fin 512) :
    k1_pay15 (F := Ideal) v0 v5_0 v6 (ix2 m s)
      = Ideal.exp (∑ d : Fin 64, v0 (ix3 (0 : Fin 1) m d) * v6 (ix3 (0 : Fin 1) s d))
          * Ideal.div 1 (v5_0 (ix2 m (0 : Fin 1))
              + ∑ t : Fin 512, Ideal.exp (∑ d : Fin 64, v0 (ix3 (0 : Fin 1) m d) * v6 (ix3 (0 : Fin 1) t d))) := by
  show k1_pay12 (F := Ideal) v0 v6 (ix2 m s)
      * broadcastTo S512x512 (k1_pay13 (F := Ideal) v0 v5_0 v6) broadcasts_S512x1_S512x512 (ix2 m s) = _
  exact congrArg₂ (· * ·) (k1_pay12_apply v0 v6 m s)
    ((broadcastTo_a1_ab_apply _ broadcasts_S512x1_S512x512 m s).trans (k1_pay13_apply v0 v5_0 v6 m 0))

/-- The column sums of the normalised new tile, as a row: at position s, Σ_m of the normalised tile. -/
theorem k1_pay16_apply (v0 : Vec Ideal S1x512x64 .bf16) (v5_0 : FVec Ideal S512x1 .f32) (v6 : Vec Ideal S1x512x64 .bf16)
    (w : Fin 1) (s : Fin 512) :
    k1_pay16 (F := Ideal) v0 v5_0 v6 (ix2 w s) = ∑ m : Fin 512, k1_pay15 (F := Ideal) v0 v5_0 v6 (ix2 m s) :=
  colSumRow_apply (k1_pay15 (F := Ideal) v0 v5_0 v6) w s

/-- The same with the tile's entries written out. -/
theorem k1_pay16_apply' (v0 : Vec Ideal S1x512x64 .bf16) (v5_0 : FVec Ideal S512x1 .f32) (v6 : Vec Ideal S1x512x64 .bf16)
    (w : Fin 1) (s : Fin 512) :
    k1_pay16 (F := Ideal) v0 v5_0 v6 (ix2 w s)
      = ∑ m : Fin 512, Ideal.exp (∑ d : Fin 64, v0 (ix3 (0 : Fin 1) m d) * v6 (ix3 (0 : Fin 1) s d))
          * Ideal.div 1 (v5_0 (ix2 m (0 : Fin 1))
              + ∑ t : Fin 512, Ideal.exp (∑ d : Fin 64, v0 (ix3 (0 : Fin 1) m d) * v6 (ix3 (0 : Fin 1) t d))) :=
  (k1_pay16_apply v0 v5_0 v6 w s).trans (Finset.sum_congr rfl fun m _ => k1_pay15_apply v0 v5_0 v6 m s)

/-- The row of column sums stored as a one-row block. -/
theorem k1_pay1_apply (v29 : FVec Ideal S1x512 .f32) (u w : Fin 1) (s : Fin 512) :
    k1_pay1 (F := Ideal) v29 (ix3 u w s) = v29 (ix2 w s) :=
  shapeCast_ab_1ab_apply v29 shapeCasts_S1x512_S1x1x512 u w s

/-- The column sums of the squared tile: at position s, Σ_m tile(m, s)². -/
theorem k1_pay2_apply (v27 : FVec Ideal S512x512 .f32) (u w : Fin 1) (s : Fin 512) :
    k1_pay2 (F := Ideal) v27 (ix3 u w s) = ∑ m : Fin 512, v27 (ix2 m s) * v27 (ix2 m s) :=
  colSumRow3_apply (mulf v27 v27) u w s

/-! ### One trip of the second walk over a cached tile -/

/-- The normalised cached tile: e^(Σ_d q(m, d) · k(0, s, d)) times the reciprocal denominator of row m. -/
theorem k1_pay3_apply (v1 : FVec Ideal S512x64 .bf16) (v20 : FVec Ideal S512x1 .f32) (v43 : Vec Ideal S1x512x64 .f32)
    (m s : Fin 512) :
    k1_pay3 (F := Ideal) v1 v20 v43 (ix2 m s)
      = Ideal.exp (∑ d : Fin 64, v1 (ix2 m d) * v43 (ix3 (0 : Fin 1) s d)) * v20 (ix2 m (0 : Fin 1)) := by
  show (exp (matmul dot_S512x64_S64x512_S512x512_1_0_0_1_n_n none v1
        (transpose S64x512 [1, 0]
          (truncf .bf16 (shapeCast S512x64 v43 shapeCasts_S1x512x64_S512x64 : FVec Ideal S512x64 .f32) bitsLt_bf16_f32 : FVec Ideal S512x64 .bf16)
          transposes_S512x64_p1_0_S64x512)
        (constant (F := Ideal) S512x512 .f32 0x00000000#32)) : FVec Ideal S512x512 .f32) (ix2 m s)
      * broadcastTo S512x512 v20 broadcasts_S512x1_S512x512 (ix2 m s) = _
  refine congrArg₂ (· * ·) ((expTile_apply v1 _ m s).trans ?_) (broadcastTo_a1_ab_apply v20 broadcasts_S512x1_S512x512 m s)
  refine congrArg Ideal.exp (Finset.sum_congr rfl fun d _ => ?_)
  exact congrArg (v1 (ix2 m d) * ·) (shapeCast_1ab_ab_apply v43 shapeCasts_S1x512x64_S512x64 s d)

/-- Its column sums, stored as a one-row block: at position s, Σ_m of the normalised tile. -/
theorem k1_pay4_apply (v1 : FVec Ideal S512x64 .bf16) (v20 : FVec Ideal S512x1 .f32) (v43 : Vec Ideal S1x512x64 .f32)
    (u w : Fin 1) (s : Fin 512) :
    k1_pay4 (F := Ideal) v1 v20 v43 (ix3 u w s)
      = ∑ m : Fin 512, Ideal.exp (∑ d : Fin 64, v1 (ix2 m d) * v43 (ix3 (0 : Fin 1) s d)) * v20 (ix2 m (0 : Fin 1)) :=
  (colSumRow3_apply (k1_pay3 (F := Ideal) v1 v20 v43) u w s).trans
    (Finset.sum_congr rfl fun m _ => k1_pay3_apply v1 v20 v43 m s)

/-- The column sums of its squares, stored as a one-row block. -/
theorem k1_pay5_apply (v1 : FVec Ideal S512x64 .bf16) (v20 : FVec Ideal S512x1 .f32) (v43 : Vec Ideal S1x512x64 .f32)
    (u w : Fin 1) (s : Fin 512) :
    k1_pay5 (F := Ideal) v1 v20 v43 (ix3 u w s)
      = ∑ m : Fin 512,
          (Ideal.exp (∑ d : Fin 64, v1 (ix2 m d) * v43 (ix3 (0 : Fin 1) s d)) * v20 (ix2 m (0 : Fin 1)))
            * (Ideal.exp (∑ d : Fin 64, v1 (ix2 m d) * v43 (ix3 (0 : Fin 1) s d)) * v20 (ix2 m (0 : Fin 1))) :=
  (colSumRow3_apply (mulf (k1_pay3 (F := Ideal) v1 v20 v43) (k1_pay3 (F := Ideal) v1 v20 v43)) u w s).trans
    (Finset.sum_congr rfl fun m _ => congrArg₂ (· * ·) (k1_pay3_apply v1 v20 v43 m s) (k1_pay3_apply v1 v20 v43 m s))

end Cert.Attn.Pay

end
-- ==== Proof.LibClipLaw.lean ====
/-
  Clipping a row to the unit ball, on the extended reals: general lemmas (no program, no shape).

  For a row with sum of squares `s`, one program scales the row by `min 1 (1 · s^(-1/2))`, the other by
  `1 / max (√s / 1) 1`. For every extended real `s ≥ 0` these are one number:
    * `s = 0`:  `s^(-1/2) = +∞`, so the minimum is `1`; and `√0 = 0`, `max 0 1 = 1`, `1 / 1 = 1`;
    * `0 < s < +∞`:  both are `1 / max (√s) 1`, since `min 1 (1/a) = 1 / max a 1` for a real `a > 0`;
    * `s = +∞`:  `s^(-1/2) = 0`, so the minimum is `0`; and `√s = +∞`, `1 / +∞ = 0`.
  Below zero the two sides differ (their conventional values there are not the same), so the hypothesis `0 ≤ s` is
  used; it always holds of a sum of squares, whatever the entries: `x · x ≥ 0` for every extended real `x`, the
  infinities included (`(-∞)·(-∞) = +∞`).
-/
import Idealize.ShloMosaic.PureOps.Ideal
import Mathlib.Algebra.Order.BigOperators.Group.Finset

noncomputable section

open scoped BigOperators

namespace Cert.Clip

open Idealize.ShloMosaic

/-- The single-precision pattern of `1.0` denotes the extended real `1`. -/
theorem ofBits_one : Ideal.ofBits .f32 0x3F800000#32 = 1 := by
  simp [Ideal.ofBits, Ideal.ieee, -EReal.coe_mul]; norm_num

/-- The factor a row of squared length `s` is scaled by: `min 1 (1 · s^(-1/2))`. -/
def scale (s : EReal) : EReal := min 1 (1 * Ideal.rsqrt s)

/-- A square is never negative on the extended reals. -/
theorem mul_self_nonneg (x : EReal) : 0 ≤ x * x := by
  induction x using EReal.rec with
  | bot => rw [EReal.bot_mul_bot]; exact le_top
  | top => rw [EReal.top_mul_top]; exact le_top
  | coe r => rw [← EReal.coe_mul]; exact_mod_cast _root_.mul_self_nonneg r

/-- So a sum of squares is never negative. -/
theorem sum_mul_self_nonneg {ι : Type} [Fintype ι] (f : ι → EReal) : 0 ≤ ∑ k, f k * f k :=
  Finset.sum_nonneg fun k _ => mul_self_nonneg (f k)

/-- Dividing by one changes nothing, at the infinities too. -/
theorem div_one (x : EReal) : Ideal.div x 1 = x := by
  rw [Ideal.div, if_neg one_ne_zero, ← EReal.coe_one, ← EReal.coe_inv, inv_one, EReal.coe_one, mul_one]

/-- One over a nonzero real is the real reciprocal. -/
theorem one_div_coe {y : ℝ} (hy : y ≠ 0) : Ideal.div 1 (y : EReal) = ((y⁻¹ : ℝ) : EReal) := by
  rw [Ideal.div, if_neg (by exact_mod_cast hy), one_mul, ← EReal.coe_inv]

/-- The coercion of the reals into the extended reals keeps maxima and minima. -/
theorem coe_max (a b : ℝ) : ((max a b : ℝ) : EReal) = max (a : EReal) (b : EReal) :=
  EReal.coe_strictMono.monotone.map_max
theorem coe_min (a b : ℝ) : ((min a b : ℝ) : EReal) = min (a : EReal) (b : EReal) :=
  EReal.coe_strictMono.monotone.map_min

/-- For a positive real `a`: `min 1 (1/a) = 1 / max a 1`. -/
theorem min_one_inv {a : ℝ} (ha : 0 < a) : min 1 a⁻¹ = (max a 1)⁻¹ := by
  rcases le_total a 1 with h | h
  · rw [max_eq_right h, inv_one, min_eq_left]
    exact (one_le_inv₀ ha).mpr h
  · rw [max_eq_left h, min_eq_right]
    exact inv_le_one_of_one_le₀ h

/-- THE LAW: on a nonnegative extended real the two spellings of the clipping factor agree. -/
theorem scale_eq (s : EReal) (hs : 0 ≤ s) :
    scale s = Ideal.div 1 (max (Ideal.div (Ideal.sqrt s) 1) 1) := by
  unfold scale
  rw [div_one, one_mul]
  induction s using EReal.rec with
  | bot => exact absurd hs (not_le.mpr EReal.bot_lt_zero)
  | top =>
    rw [Ideal.rsqrt_top, Ideal.sqrt_top, max_eq_left le_top, Ideal.div, if_neg EReal.top_ne_zero, EReal.inv_top,
      mul_zero, min_eq_right zero_le_one]
  | coe r =>
    have hr : 0 ≤ r := EReal.coe_nonneg.mp hs
    rw [Ideal.rsqrt_coe, Ideal.sqrt_coe, if_neg (not_lt.mpr hr), if_neg (not_lt.mpr hr)]
    rcases hr.eq_or_lt with h0 | hpos
    · subst h0
      rw [if_pos rfl, Real.sqrt_zero, min_eq_left le_top, EReal.coe_zero, max_eq_right zero_le_one, div_one]
    · have hq : 0 < Real.sqrt r := Real.sqrt_pos.mpr hpos
      have e1 : max ((Real.sqrt r : ℝ) : EReal) 1 = ((max (Real.sqrt r) 1 : ℝ) : EReal) := by
        rw [coe_max, EReal.coe_one]
      have e2 : min (1 : EReal) (((Real.sqrt r)⁻¹ : ℝ) : EReal) = ((min 1 (Real.sqrt r)⁻¹ : ℝ) : EReal) := by
        rw [coe_min, EReal.coe_one]
      rw [if_neg hpos.ne', e1, e2, one_div_coe (lt_of_lt_of_le hq (le_max_left _ _)).ne', min_one_inv hq]

end Cert.Clip

end
-- ==== Proof.Law.lean ====
/-
  The algebra of streamed attention over the extended reals.

  The 8192 cache positions are cut into 16 tiles of 512: position i·512+s is slot s of tile i, and a sum over all
  positions is the sum over the tiles of the sums over their slots (true in every commutative monoid, so at the
  infinities too). When every query, key and value entry is a real number, every logit is real, every numerator
  e^logit is a positive real, and so is the denominator Σ_p e^logit. Dividing by a positive real d is multiplying by
  the real 1/d, so
      weight(p) = e^logit(p) · (1/den),      Σ_p weight(p)·V(p) = (Σ_p e^logit(p)·V(p)) · (1/den):
  the normalisation may be applied once, after the sum. The second identity is distributivity, which the extended
  reals have on the reals but not at the infinities (∞ + (-∞) = -∞ by convention); that is what the hypotheses
  are for.
-/
import proofs.«128360_j52493090291775_2_alg».proof.Proof.Spec
import proofs.«128360_j52493090291775_2_alg».proof.Proof.LibClipLaw
import Mathlib

noncomputable section

open scoped BigOperators

namespace Cert.Attn

open Idealize.ShloMosaic Idealize.ShloMosaic.ValueIdx

/-! ### Tiles -/

/-- Slot s of tile i is position i·512+s. -/
def pos (i : Fin 16) (s : Fin 512) : Fin 8192 :=
  ⟨i.val * 512 + s.val, by have := i.isLt; have := s.isLt; omega⟩

@[simp] theorem pos_val (i : Fin 16) (s : Fin 512) : (pos i s).val = i.val * 512 + s.val := rfl

/-- A sum over all positions is the sum over the tiles of the sums over their slots. -/
theorem sum_tiles {M : Type*} [AddCommMonoid M] (f : Fin 8192 → M) :
    ∑ p, f p = ∑ i : Fin 16, ∑ s : Fin 512, f (pos i s) := by
  rw [← Fintype.sum_prod_type' (f := fun i s => f (pos i s))]
  symm
  refine Fintype.sum_equiv (finProdFinEquiv (m := 16) (n := 512)) _ _ fun x => ?_
  congr 1
  apply Fin.ext
  show x.1.val * 512 + x.2.val = x.2.val + 512 * x.1.val
  omega

/-- The same with the last tile apart. -/
theorem sum_tiles_split {M : Type*} [AddCommMonoid M] (f : Fin 8192 → M) :
    ∑ p, f p = (∑ i : Fin 15, ∑ s : Fin 512, f (pos i.castSucc s)) + ∑ s : Fin 512, f (pos (Fin.last 15) s) := by
  rw [sum_tiles, Fin.sum_univ_castSucc]

/-! ### Real entries -/

/-- Every entry is a real number. -/
def IsRealH {r : Nat} (a : Heads r) : Prop := ∀ h m d, ∃ v : ℝ, a h m d = (v : EReal)
def IsRealM {a b : Nat} (x : Mat a b) : Prop := ∀ i, ∃ v : ℝ, x i = (v : EReal)
def IsRealT {a b c : Nat} (x : Ten a b c) : Prop := ∀ i, ∃ v : ℝ, x i = (v : EReal)

/-- The coercion of the reals into the extended reals keeps finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem real_sum {ι : Type*} (s : Finset ι) (g : ι → EReal) (hg : ∀ i, ∃ v : ℝ, g i = (v : EReal)) :
    ∃ v : ℝ, ∑ i ∈ s, g i = (v : EReal) := by
  choose v hv using hg
  exact ⟨∑ i ∈ s, v i, by rw [coe_sum]; exact Finset.sum_congr rfl fun i _ => hv i⟩

/-- A product of reals is a real. -/
theorem real_mul {a b : EReal} (ha : ∃ v : ℝ, a = (v : EReal)) (hb : ∃ v : ℝ, b = (v : EReal)) :
    ∃ v : ℝ, a * b = (v : EReal) := by
  obtain ⟨u, rfl⟩ := ha
  obtain ⟨v, rfl⟩ := hb
  exact ⟨u * v, (EReal.coe_mul u v).symm⟩

theorem proj_real {x : Mat 512 1024} {w : Mat 1024 1024} (hx : IsRealM x) (hw : IsRealM w) :
    IsRealH (proj x w) := fun h m d =>
  real_sum _ _ fun n => real_mul (hx _) (hw _)

theorem appended_real {cache : Ten 16 8192 64} {new : Heads 512} (hc : IsRealT cache) (hn : IsRealH new) :
    IsRealH (appended cache new) := fun h p d => by
  unfold appended
  split
  · exact hc _
  · exact hn _ _ _

section Stream

variable {q : Heads 512} {K V : Heads 8192}

/-- Real queries and keys have real logits. -/
theorem logit_real (hq : IsRealH q) (hK : IsRealH K) (h : Fin 16) (m : Fin 512) (p : Fin 8192) :
    ∃ v : ℝ, logit q K h m p = (v : EReal) :=
  real_sum _ _ fun d => real_mul (hq h m d) (hK h p d)

/-- So every numerator is a positive real. -/
theorem num_pos_real (hq : IsRealH q) (hK : IsRealH K) (h : Fin 16) (m : Fin 512) (p : Fin 8192) :
    ∃ v : ℝ, 0 < v ∧ num q K h m p = (v : EReal) := by
  obtain ⟨l, hl⟩ := logit_real hq hK h m p
  exact ⟨Real.exp l, Real.exp_pos l, by rw [num, hl, Ideal.exp_coe]⟩

/-- And so is the denominator. -/
theorem den_pos_real (hq : IsRealH q) (hK : IsRealH K) (h : Fin 16) (m : Fin 512) :
    ∃ v : ℝ, 0 < v ∧ den q K h m = (v : EReal) := by
  choose e he using fun p => num_pos_real hq hK h m p
  refine ⟨∑ p : Fin 8192, e p, Finset.sum_pos (fun p _ => (he p).1) ⟨⟨0, by norm_num⟩, Finset.mem_univ _⟩, ?_⟩
  rw [den, coe_sum]
  exact Finset.sum_congr rfl fun p _ => (he p).2

/-- One over the denominator is the real reciprocal. -/
theorem inv_den (hq : IsRealH q) (hK : IsRealH K) (h : Fin 16) (m : Fin 512) :
    ∃ v : ℝ, 0 < v ∧ den q K h m = (v : EReal) ∧ Ideal.div 1 (den q K h m) = ((v⁻¹ : ℝ) : EReal) := by
  obtain ⟨v, hv, e⟩ := den_pos_real hq hK h m
  exact ⟨v, hv, e, by rw [e, Cert.Clip.one_div_coe hv.ne']⟩

/-- Dividing by the denominator is multiplying by one over it. -/
theorem wgt_eq_mul_inv (hq : IsRealH q) (hK : IsRealH K) (h : Fin 16) (m : Fin 512) (p : Fin 8192) :
    wgt q K h m p = num q K h m p * Ideal.div 1 (den q K h m) := by
  obtain ⟨v, hv, e, ei⟩ := inv_den hq hK h m
  rw [ei, wgt, e, Ideal.div_coe hv.ne', one_div]

/-- The normalisation may be applied once, after the weighted sum of the values. -/
theorem attnOut_eq_stream (hq : IsRealH q) (hK : IsRealH K) (hV : IsRealH V) (h : Fin 16) (m : Fin 512)
    (d : Fin 64) :
    attnOut q K V h m d = (∑ p : Fin 8192, num q K h m p * V h p d) * Ideal.div 1 (den q K h m) := by
  obtain ⟨v, hv, e, ei⟩ := inv_den hq hK h m
  choose a ha using fun p => num_pos_real hq hK h m p
  choose b hb using fun p => hV h p d
  unfold attnOut
  simp_rw [wgt_eq_mul_inv hq hK, ei, fun p => (ha p).2, hb, ← EReal.coe_mul, ← coe_sum, ← EReal.coe_mul]
  congr 1
  rw [Finset.sum_mul]
  exact Finset.sum_congr rfl fun p _ => by ring

/-- The column sums and the squares' sums in the same form. -/
theorem colSum_eq_stream (hq : IsRealH q) (hK : IsRealH K) (h : Fin 16) (p : Fin 8192) :
    colSum q K h p = ∑ m : Fin 512, num q K h m p * Ideal.div 1 (den q K h m) :=
  Finset.sum_congr rfl fun m _ => wgt_eq_mul_inv hq hK h m p

theorem colSq_eq_stream (hq : IsRealH q) (hK : IsRealH K) (h : Fin 16) (p : Fin 8192) :
    colSq q K h p = ∑ m : Fin 512, (num q K h m p * Ideal.div 1 (den q K h m)) *
      (num q K h m p * Ideal.div 1 (den q K h m)) :=
  Finset.sum_congr rfl fun m _ => by rw [wgt_eq_mul_inv hq hK h m p]

end Stream

/-- The single-precision pattern of 1.0 denotes the extended real 1. -/
theorem ofBits_one : Ideal.ofBits .f32 0x3F800000#32 = (1 : EReal) := Cert.Clip.ofBits_one

end Cert.Attn

end
-- ==== Proof.LibRunningTotal.lean ====
/-
  A running total over an additive commutative monoid (no subtraction, no order, nothing asked to be finite — the
  extended reals are an instance): starting from zero and adding one term at a time on the right, in order, gives
  the sum of the terms; and the same when the first step overwrites whatever was there with `0 + s 0` instead of
  reading it.  This is the arithmetic of an accumulator that is cleared at the first of `n` consecutive steps and
  added into at every step, for example an output block kept resident while a contraction is taken in `n` blocks.
-/
import Mathlib.Algebra.BigOperators.Fin
import Mathlib.Algebra.BigOperators.Group.Finset.Basic
import Mathlib.Data.Fintype.BigOperators

open scoped BigOperators

namespace Cert.LibRunningTotal

/-- A running total `a` over `n` terms: `a 0 = 0` and each step adds the next term on the right, `a (k + 1) = a k + s k`.
    After `m ≤ n` steps it is the sum of the first `m` terms. -/
theorem acc_prefix {M : Type*} [AddCommMonoid M] {n : ℕ} (s : Fin n → M) (a : ℕ → M) (h0 : a 0 = 0)
    (hstep : ∀ k (hk : k < n), a (k + 1) = a k + s ⟨k, hk⟩) :
    ∀ m (hm : m ≤ n), a m = ∑ k : Fin m, s (Fin.castLE hm k) := by
  intro m
  induction m with
  | zero => intro _; rw [h0]; exact (Finset.sum_empty).symm
  | succ m ih =>
    intro hm
    rw [hstep m hm, ih (Nat.le_of_succ_le hm), Fin.sum_univ_castSucc]
    rfl

/-- After all `n` steps the running total is the sum of all the terms. -/
theorem acc_total {M : Type*} [AddCommMonoid M] {n : ℕ} (s : Fin n → M) (a : ℕ → M) (h0 : a 0 = 0)
    (hstep : ∀ k (hk : k < n), a (k + 1) = a k + s ⟨k, hk⟩) : a n = ∑ k : Fin n, s k :=
  (acc_prefix s a h0 hstep n le_rfl).trans (Finset.sum_congr rfl fun _ _ => congrArg s (Fin.ext rfl))

/-- The same when the first step does not read what was there before but writes `0 + s 0` (the total is cleared, then
    the first term added), and every later step adds its term on the right. -/
theorem acc_total_cleared {M : Type*} [AddCommMonoid M] {n : ℕ} (s : Fin (n + 1) → M) (a : ℕ → M)
    (hfirst : a 1 = 0 + s 0)
    (hstep : ∀ k (hk : k < n + 1), 0 < k → a (k + 1) = a k + s ⟨k, hk⟩) : a (n + 1) = ∑ k : Fin (n + 1), s k := by
  let a' : ℕ → M := fun k => if k = 0 then 0 else a k
  have h0 : a' 0 = 0 := if_pos rfl
  have hs : ∀ k (hk : k < n + 1), a' (k + 1) = a' k + s ⟨k, hk⟩ := by
    intro k hk
    show (if k + 1 = 0 then 0 else a (k + 1)) = (if k = 0 then 0 else a k) + s ⟨k, hk⟩
    rw [if_neg (Nat.succ_ne_zero k)]
    by_cases hk0 : k = 0
    · subst hk0; rw [if_pos rfl]; exact hfirst
    · rw [if_neg hk0]; exact hstep k hk (Nat.pos_of_ne_zero hk0)
  have := acc_total s a' h0 hs
  rwa [show a' (n + 1) = a (n + 1) from if_neg (Nat.succ_ne_zero n)] at this

end Cert.LibRunningTotal
-- ==== Proof.Stream.lean ====
/-
  Streamed attention from running totals.

  Per head and row the sum over the 8192 positions is taken tile by tile: a running total starts at zero, takes
  in the fifteen cache tiles one after another, and the tile of new positions (tile 15) is added last. In a
  commutative monoid that is the sum over all positions, whatever the terms (a running total is the sum of its
  terms, and a sum over the positions is the sum over the tiles of the sums over their slots). So the two totals
  are the denominator and the unnormalised weighted sum of the values; and for real entries the weighted sum
  times one over the denominator is the attention output, the numerators times one over the denominator summed
  over the rows are the weights' column sums, and likewise their squares.
-/
import proofs.«128360_j52493090291775_2_alg».proof.Proof.Law
import proofs.«128360_j52493090291775_2_alg».proof.Proof.LibRunningTotal
import Idealize.ShloMosaic.PureOps.Ideal.Laws

noncomputable section

open scoped BigOperators

namespace Cert.Attn

open Idealize.ShloMosaic Idealize.ShloMosaic.ValueIdx

/-- A running total over the fifteen cache tiles, plus the last tile, is the sum over all positions. -/
theorem total_tiles {M : Type*} [AddCommMonoid M] (f : Fin 8192 → M) (a : ℕ → M) (h0 : a 0 = 0)
    (hstep : ∀ k (hk : k < 15), a (k + 1) = a k + ∑ s : Fin 512, f (pos ⟨k, by omega⟩ s)) :
    a 15 + ∑ s : Fin 512, f (pos (Fin.last 15) s) = ∑ p, f p := by
  rw [sum_tiles_split,
    Cert.LibRunningTotal.acc_total (fun i : Fin 15 => ∑ s : Fin 512, f (pos i.castSucc s)) a h0
      (fun k hk => hstep k hk)]

section Totals

variable {q : Heads 512} {K V : Heads 8192}

/-- The running total of the numerators is the denominator. -/
theorem den_of_totals (h : Fin 16) (m : Fin 512) (l : ℕ → EReal) (hl0 : l 0 = 0)
    (hl : ∀ k (hk : k < 15), l (k + 1) = l k + ∑ s : Fin 512, num q K h m (pos ⟨k, by omega⟩ s)) :
    l 15 + ∑ s : Fin 512, num q K h m (pos (Fin.last 15) s) = den q K h m :=
  total_tiles (fun p => num q K h m p) l hl0 hl

/-- The running total of the numerators times the values, times one over the running total of the numerators,
    is the attention output. -/
theorem out_of_totals (hq : IsRealH q) (hK : IsRealH K) (hV : IsRealH V) (h : Fin 16) (m : Fin 512) (d : Fin 64)
    (l a : ℕ → EReal) (hl0 : l 0 = 0)
    (hl : ∀ k (hk : k < 15), l (k + 1) = l k + ∑ s : Fin 512, num q K h m (pos ⟨k, by omega⟩ s))
    (ha0 : a 0 = 0)
    (ha : ∀ k (hk : k < 15), a (k + 1) = a k +
      ∑ s : Fin 512, num q K h m (pos ⟨k, by omega⟩ s) * V h (pos ⟨k, by omega⟩ s) d) :
    (a 15 + ∑ s : Fin 512, num q K h m (pos (Fin.last 15) s) * V h (pos (Fin.last 15) s) d) *
        Ideal.div 1 (l 15 + ∑ s : Fin 512, num q K h m (pos (Fin.last 15) s)) = attnOut q K V h m d := by
  rw [den_of_totals h m l hl0 hl, total_tiles (fun p => num q K h m p * V h p d) a ha0 ha,
    attnOut_eq_stream hq hK hV]

/-- The numerators times one over the denominators, summed over the rows, are the weights' column sums. -/
theorem colSum_of_inv (hq : IsRealH q) (hK : IsRealH K) (h : Fin 16) (p : Fin 8192) (inv : Fin 512 → EReal)
    (hinv : ∀ m, inv m = Ideal.div 1 (den q K h m)) :
    ∑ m : Fin 512, num q K h m p * inv m = colSum q K h p := by
  rw [colSum_eq_stream hq hK]
  exact Finset.sum_congr rfl fun m _ => by rw [hinv m]

/-- And their squares summed over the rows are the squared weights' column sums. -/
theorem colSq_of_inv (hq : IsRealH q) (hK : IsRealH K) (h : Fin 16) (p : Fin 8192) (inv : Fin 512 → EReal)
    (hinv : ∀ m, inv m = Ideal.div 1 (den q K h m)) :
    ∑ m : Fin 512, (num q K h m p * inv m) * (num q K h m p * inv m) = colSq q K h p := by
  rw [colSq_eq_stream hq hK]
  exact Finset.sum_congr rfl fun m _ => by rw [hinv m]

end Totals

/-! ### The last tile is the new rows -/

/-- A position of the first fifteen tiles is read from the cache. -/
theorem appended_cache (cache : Ten 16 8192 64) (new : Heads 512) (h : Fin 16) (i : Fin 15) (s : Fin 512)
    (d : Fin 64) : appended cache new h (pos i.castSucc s) d = cache (ix3 h (pos i.castSucc s) d) := by
  unfold appended
  rw [dif_pos]
  have := i.isLt; have := s.isLt
  show i.val * 512 + s.val < 7680
  omega

/-- Slot s of the last tile is new row s. -/
theorem appended_new (cache : Ten 16 8192 64) (new : Heads 512) (h : Fin 16) (s : Fin 512) (d : Fin 64) :
    appended cache new h (pos (Fin.last 15) s) d = new h s d := by
  unfold appended
  rw [dif_neg]
  · refine congrArg (fun t : Fin 512 => new h t d) (Fin.ext ?_)
    show (pos (Fin.last 15) s).val - 7680 = s.val
    rw [pos_val, Fin.val_last]
    omega
  · show ¬ (15 * 512 + s.val < 7680)
    omega

/-- The single-precision pattern of 0.0 denotes the extended real 0. -/
theorem ofBits_zero : Ideal.ofBits .f32 0x00000000#32 = (0 : EReal) := Ideal.ofBits_zero_f32

end Cert.Attn

end
-- ==== Proof.HeadValue.lean ====
/-
  What the attention kernel's body leaves for one head, read at an index and joined to the specification.

  For one head the body holds the query block, the new key and value blocks, and the head's first 7680 cache
  positions of keys and values, fifteen tiles of 512. Write q(m, d), K(p, d), V(p, d) for the head's queries and
  its 8192 keys and values, the new rows being positions 7680 … 8191. With n(m, p) = e^(Σ_d q(m, d)·K(p, d)):
  the first loop's carried pair after k tiles is, at row m, the running totals
      l_k(m) = Σ_{p < 512k} n(m, p),      a_k(m, d) = Σ_{p < 512k} n(m, p)·V(p, d);
  adding the new tile completes them to the denominator and the unnormalised weighted sum, so for real entries the
  stored output block is the attention output, and the stored column sums of n(m, p)·(1/den(m)) and of their
  squares — fifteen cache tiles and the new tile, which together cover the 8192 positions — are the weights'
  column sums and the squared weights' column sums.
-/
import proofs.«128360_j52493090291775_2_alg».proof.Proof.AttnBodyI
import proofs.«128360_j52493090291775_2_alg».proof.Proof.Pay1
import proofs.«128360_j52493090291775_2_alg».proof.Proof.Law
import proofs.«128360_j52493090291775_2_alg».proof.Proof.Stream
import Idealize.ShloMosaic.Lib.Pipeline.Value
import Idealize.ShloMosaic.Lib.ValueIdx

noncomputable section

namespace Cert.Attn.Head

open Idealize.ShloMosaic Idealize.ShloMosaic.ValueIdx Cert.KernelIdeal Cert.KernelIdeal.Gen Cert.KernelIdeal.Hand Cert.Attn Cert.Attn.Pay

/-! ### Tiles and whole blocks read at an index -/

theorem trips1 : k1_t1_loop.trips = 15 := by decide

/-- Cache position 512·k+s, slot s of cache tile k. -/
def cpos (k : ℕ) (hk : k < 15) (s : Fin 512) : Fin 7680 := ⟨512 * k + s.val, by have := s.isLt; omega⟩

/-- A cache position as one of the 8192 positions. -/
def up (p : Fin 7680) : Fin 8192 := ⟨p.val, by have := p.isLt; omega⟩

/-- Slot s of cache tile k is position k·512+s of the 8192. -/
theorem up_cpos (k : ℕ) (hk : k < 15) (s : Fin 512) : up (cpos k hk s) = pos ⟨k, by omega⟩ s :=
  Fin.ext (by show 512 * k + s.val = k * 512 + s.val; omega)

theorem zeros3 : (![0, 0, 0] : Fin 3 → Nat) = fun _ => 0 := funext fun a => by
  match a with
  | ⟨0, _⟩ => rfl
  | ⟨1, _⟩ => rfl
  | ⟨2, _⟩ => rfl

/-- A whole block read through its whole rectangle is the block. -/
theorem ld_rB {e : EltTy} (x : Vec Ideal S1x512x64 e) : View.ld x rB = x :=
  View.ld_unit_zero (S := S1x512x64) zeros3 inb_S1x512x64_S1x512x64_0_0_0 x

/-- Cache tile k as the first loop reads it: entry (0, s, d) is the cache at position 512·k+s. -/
theorem ld_tile1 (x : Vec Ideal S1x7680x64 .f32) (k : ℕ) (hk : k < 15) (hk' : k < k1_t1_loop.trips) (s : Fin 512) (d : Fin 64) :
    View.ld x (tile1 ⟨k, hk'⟩) (ix3 (0 : Fin 1) s d) = x (ix3 (0 : Fin 1) (cpos k hk s) d) := by
  refine congrArg x (funext fun a => Fin.ext ?_)
  rw [LoadRect.idx_apply, Rect.off_unit, Rect.stride_unit, k1_off1_eq]
  match a with
  | ⟨0, _⟩ => rfl
  | ⟨1, _⟩ => show 512 * k + 1 * s.val = 512 * k + s.val; omega
  | ⟨2, _⟩ => show 0 + 1 * d.val = d.val; omega

/-- Cache tile k as the second loop reads it. -/
theorem ld_tile2 (x : Vec Ideal S1x7680x64 .f32) (k : ℕ) (hk : k < 15) (hk' : k < k1_t2_loop.trips) (s : Fin 512) (d : Fin 64) :
    View.ld x (tile2 ⟨k, hk'⟩) (ix3 (0 : Fin 1) s d) = x (ix3 (0 : Fin 1) (cpos k hk s) d) := by
  refine congrArg x (funext fun a => Fin.ext ?_)
  rw [LoadRect.idx_apply, Rect.off_unit, Rect.stride_unit, k1_off2_eq]
  match a with
  | ⟨0, _⟩ => rfl
  | ⟨1, _⟩ => show 512 * k + 1 * s.val = 512 * k + s.val; omega
  | ⟨2, _⟩ => show 0 + 1 * d.val = d.val; omega

/-! ### The carried pair, tile by tile -/

section Carry

variable (v0 : Vec Ideal S1x512x64 .bf16) (x3 x4 : Vec Ideal S1x7680x64 .f32)

theorem carry_fst_zero (m : Fin 512) (u : Fin 1) : (carry (F := Ideal) v0 x3 x4 0).1 (ix2 m u) = 0 :=
  k1_pay7_apply m u

theorem carry_snd_zero (m : Fin 512) (d : Fin 64) : (carry (F := Ideal) v0 x3 x4 0).2 (ix2 m d) = 0 :=
  k1_pay8_apply m d

/-- One more cache tile adds its numerators' row sum to the running row sum. -/
theorem carry_fst_succ (k : ℕ) (hk : k < 15) (m : Fin 512) (u : Fin 1) :
    (carry (F := Ideal) v0 x3 x4 (k + 1)).1 (ix2 m u)
      = (carry (F := Ideal) v0 x3 x4 k).1 (ix2 m u)
        + ∑ s : Fin 512, Ideal.exp (∑ d : Fin 64, v0 (ix3 (0 : Fin 1) m d) * x3 (ix3 (0 : Fin 1) (cpos k hk s) d)) := by
  have hk' : k < k1_t1_loop.trips := by rw [trips1]; exact hk
  rw [carry, dif_pos hk']
  refine (k1_pay10_apply v0 _ _ m u).trans ?_
  refine congrArg (_ + ·) (Finset.sum_congr rfl fun s _ => congrArg Ideal.exp (Finset.sum_congr rfl fun d _ => ?_))
  exact congrArg (v0 (ix3 (0 : Fin 1) m d) * ·) (ld_tile1 x3 k hk hk' s d)

/-- One more cache tile adds its numerators times its values to the running products. -/
theorem carry_snd_succ (k : ℕ) (hk : k < 15) (m : Fin 512) (d : Fin 64) :
    (carry (F := Ideal) v0 x3 x4 (k + 1)).2 (ix2 m d)
      = (carry (F := Ideal) v0 x3 x4 k).2 (ix2 m d)
        + ∑ s : Fin 512, Ideal.exp (∑ e : Fin 64, v0 (ix3 (0 : Fin 1) m e) * x3 (ix3 (0 : Fin 1) (cpos k hk s) e))
            * x4 (ix3 (0 : Fin 1) (cpos k hk s) d) := by
  have hk' : k < k1_t1_loop.trips := by rw [trips1]; exact hk
  rw [carry, dif_pos hk']
  refine (k1_pay11_apply v0 _ _ _ m d).trans ?_
  refine congrArg (_ + ·) (Finset.sum_congr rfl fun s _ => ?_)
  refine congrArg₂ (· * ·) (congrArg Ideal.exp (Finset.sum_congr rfl fun e _ => ?_)) (ld_tile1 x4 k hk hk' s d)
  exact congrArg (v0 (ix3 (0 : Fin 1) m e) * ·) (ld_tile1 x3 k hk hk' s e)

end Carry

/-! ### The head's blocks as the specification's families

  q, K, V are families over all heads; h is the head at hand. The hypotheses say what the five blocks hold:
  the query block is q's head h, cache position p of the key block is K's head h at position p, the new key block
  is K's head h at the last tile, and likewise the values. -/

section Spec

variable {q : Heads 512} {K V : Heads 8192} {h : Fin 16}
variable {x0 x1 x2 : Vec Ideal S1x512x64 .bf16} {x3 x4 : Vec Ideal S1x7680x64 .f32}

/-- A cache tile's numerator is the specification's numerator at the tile's position. -/
theorem num_cache (hq : ∀ (m : Fin 512) (d : Fin 64), x0 (ix3 (0 : Fin 1) m d) = q h m d) (hK : ∀ (p : Fin 7680) (d : Fin 64), x3 (ix3 (0 : Fin 1) p d) = K h (up p) d)
    (k : ℕ) (hk : k < 15) (m s : Fin 512) :
    Ideal.exp (∑ e : Fin 64, x0 (ix3 (0 : Fin 1) m e) * x3 (ix3 (0 : Fin 1) (cpos k hk s) e))
      = num q K h m (pos ⟨k, by omega⟩ s) := by
  rw [← up_cpos k hk s]
  show _ = Ideal.exp (∑ e : Fin 64, q h m e * K h (up (cpos k hk s)) e)
  exact congrArg Ideal.exp (Finset.sum_congr rfl fun e _ => by rw [hq, hK])

/-- The new tile's numerator is the specification's numerator at the last tile. -/
theorem num_new (hq : ∀ (m : Fin 512) (d : Fin 64), x0 (ix3 (0 : Fin 1) m d) = q h m d) (hKn : ∀ (s : Fin 512) (d : Fin 64), x1 (ix3 (0 : Fin 1) s d) = K h (pos (Fin.last 15) s) d)
    (m s : Fin 512) :
    Ideal.exp (∑ e : Fin 64, x0 (ix3 (0 : Fin 1) m e) * x1 (ix3 (0 : Fin 1) s e))
      = num q K h m (pos (Fin.last 15) s) := by
  show _ = Ideal.exp (∑ e : Fin 64, q h m e * K h (pos (Fin.last 15) s) e)
  exact congrArg Ideal.exp (Finset.sum_congr rfl fun e _ => by rw [hq, hKn])

/-- The running row sum takes in the numerators of tile k. -/
theorem l_step (hq : ∀ (m : Fin 512) (d : Fin 64), x0 (ix3 (0 : Fin 1) m d) = q h m d) (hK : ∀ (p : Fin 7680) (d : Fin 64), x3 (ix3 (0 : Fin 1) p d) = K h (up p) d)
    (m : Fin 512) (k : ℕ) (hk : k < 15) :
    (carry (F := Ideal) x0 x3 x4 (k + 1)).1 (ix2 m (0 : Fin 1))
      = (carry (F := Ideal) x0 x3 x4 k).1 (ix2 m (0 : Fin 1)) + ∑ s : Fin 512, num q K h m (pos ⟨k, by omega⟩ s) :=
  (carry_fst_succ x0 x3 x4 k hk m 0).trans
    (congrArg (_ + ·) (Finset.sum_congr rfl fun s _ => num_cache hq hK k hk m s))

/-- The running products take in the numerators of tile k times its values. -/
theorem a_step (hq : ∀ (m : Fin 512) (d : Fin 64), x0 (ix3 (0 : Fin 1) m d) = q h m d) (hK : ∀ (p : Fin 7680) (d : Fin 64), x3 (ix3 (0 : Fin 1) p d) = K h (up p) d) (hV : ∀ (p : Fin 7680) (d : Fin 64), x4 (ix3 (0 : Fin 1) p d) = V h (up p) d)
    (m : Fin 512) (d : Fin 64) (k : ℕ) (hk : k < 15) :
    (carry (F := Ideal) x0 x3 x4 (k + 1)).2 (ix2 m d)
      = (carry (F := Ideal) x0 x3 x4 k).2 (ix2 m d)
        + ∑ s : Fin 512, num q K h m (pos ⟨k, by omega⟩ s) * V h (pos ⟨k, by omega⟩ s) d :=
  (carry_snd_succ x0 x3 x4 k hk m d).trans
    (congrArg (_ + ·) (Finset.sum_congr rfl fun s _ =>
      congrArg₂ (· * ·) (num_cache hq hK k hk m s)
        ((hV (cpos k hk s) d).trans (congrArg (fun p => V h p d) (up_cpos k hk s)))))

/-- The pair after the first loop is the pair after fifteen tiles. -/
theorem totals_eq (x0 : Vec Ideal S1x512x64 .bf16) (x3 x4 : Vec Ideal S1x7680x64 .f32) :
    totals (F := Ideal) x0 x3 x4 = carry (F := Ideal) x0 x3 x4 15 := by
  unfold totals
  rw [ld_rB, trips1]

/-- The completed row sum is the denominator. -/
theorem den_eq (hq : ∀ (m : Fin 512) (d : Fin 64), x0 (ix3 (0 : Fin 1) m d) = q h m d) (hK : ∀ (p : Fin 7680) (d : Fin 64), x3 (ix3 (0 : Fin 1) p d) = K h (up p) d) (hKn : ∀ (s : Fin 512) (d : Fin 64), x1 (ix3 (0 : Fin 1) s d) = K h (pos (Fin.last 15) s) d)
    (m : Fin 512) :
    (totals (F := Ideal) x0 x3 x4).1 (ix2 m (0 : Fin 1))
        + ∑ s : Fin 512, Ideal.exp (∑ e : Fin 64, x0 (ix3 (0 : Fin 1) m e) * x1 (ix3 (0 : Fin 1) s e))
      = den q K h m := by
  rw [totals_eq]
  refine Eq.trans (congrArg (_ + ·) (Finset.sum_congr rfl fun s _ => num_new hq hKn m s)) ?_
  exact den_of_totals h m (fun k => (carry (F := Ideal) x0 x3 x4 k).1 (ix2 m (0 : Fin 1)))
    (carry_fst_zero x0 x3 x4 m 0) (fun k hk => l_step hq hK m k hk)

/-- The reciprocal the body keeps is one over the denominator. -/
theorem invl_apply (hq : ∀ (m : Fin 512) (d : Fin 64), x0 (ix3 (0 : Fin 1) m d) = q h m d) (hK : ∀ (p : Fin 7680) (d : Fin 64), x3 (ix3 (0 : Fin 1) p d) = K h (up p) d) (hKn : ∀ (s : Fin 512) (d : Fin 64), x1 (ix3 (0 : Fin 1) s d) = K h (pos (Fin.last 15) s) d)
    (m : Fin 512) (u : Fin 1) :
    invl (F := Ideal) x0 x1 x3 x4 (ix2 m u) = Ideal.div 1 (den q K h m) := by
  obtain rfl : u = 0 := Subsingleton.elim _ _
  unfold invl
  rw [ld_rB, ld_rB]
  exact (k1_pay13_apply x0 _ x1 m 0).trans (congrArg (Ideal.div 1) (den_eq hq hK hKn m))

/-! ### The output block -/

/-- For real entries the stored output block is the attention output of head h. -/
theorem out1_5_apply (hq : ∀ (m : Fin 512) (d : Fin 64), x0 (ix3 (0 : Fin 1) m d) = q h m d) (hK : ∀ (p : Fin 7680) (d : Fin 64), x3 (ix3 (0 : Fin 1) p d) = K h (up p) d) (hKn : ∀ (s : Fin 512) (d : Fin 64), x1 (ix3 (0 : Fin 1) s d) = K h (pos (Fin.last 15) s) d)
    (hV : ∀ (p : Fin 7680) (d : Fin 64), x4 (ix3 (0 : Fin 1) p d) = V h (up p) d) (hVn : ∀ (s : Fin 512) (d : Fin 64), x2 (ix3 (0 : Fin 1) s d) = V h (pos (Fin.last 15) s) d)
    (rq : IsRealH q) (rK : IsRealH K) (rV : IsRealH V) (u : Fin 1) (m : Fin 512) (d : Fin 64) :
    out1_5 (F := Ideal) x0 x1 x2 x3 x4 (ix3 u m d) = attnOut q K V h m d := by
  unfold out1_5
  rw [View.canon_unit_zero (S := S1x512x64) zeros3 inb_S1x512x64_S1x512x64_0_0_0, ld_rB, ld_rB, ld_rB, totals_eq]
  refine (k1_pay14_apply x0 _ _ x1 x2 u m d).trans ?_
  refine Eq.trans ?_ (out_of_totals rq rK rV h m d
    (fun k => (carry (F := Ideal) x0 x3 x4 k).1 (ix2 m (0 : Fin 1)))
    (fun k => (carry (F := Ideal) x0 x3 x4 k).2 (ix2 m d))
    (carry_fst_zero x0 x3 x4 m 0) (fun k hk => l_step hq hK m k hk)
    (carry_snd_zero x0 x3 x4 m d) (fun k hk => a_step hq hK hV m d k hk))
  exact congrArg₂ (· * ·)
    (congrArg (_ + ·) (Finset.sum_congr rfl fun s _ => congrArg₂ (· * ·) (num_new hq hKn m s) (hVn s d)))
    (congrArg (Ideal.div 1) (congrArg (_ + ·) (Finset.sum_congr rfl fun s _ => num_new hq hKn m s)))

/-! ### The two column buffers -/

/-- Every store of the second loop's first list is one tile's column sums. -/
theorem mem_pieces1 (v1 : FVec Ideal S512x64 .bf16) (v20 : FVec Ideal S512x1 .f32) (x : Vec Ideal S1x7680x64 .f32) :
    ∀ (n : ℕ) (pc : View.Piece (Elt Ideal) S1x1x8192 .f32), pc ∈ (pieces (F := Ideal) v1 v20 x n).1 →
      ∃ (k : ℕ) (hk : k < k1_t2_loop.trips),
        pc = ⟨tileC ⟨k, hk⟩, k1_pay4 (F := Ideal) v1 v20 (View.ld x (tile2 ⟨k, hk⟩))⟩
  | 0, pc, hp => absurd hp List.not_mem_nil
  | n + 1, pc, hp => by
    rw [pieces] at hp
    split at hp
    · next hn =>
      rcases List.mem_cons.mp hp with rfl | hp'
      · exact ⟨n, hn, rfl⟩
      · exact mem_pieces1 v1 v20 x n pc hp'
    · exact mem_pieces1 v1 v20 x n pc hp

/-- Every store of its second list is one tile's column sums of squares. -/
theorem mem_pieces2 (v1 : FVec Ideal S512x64 .bf16) (v20 : FVec Ideal S512x1 .f32) (x : Vec Ideal S1x7680x64 .f32) :
    ∀ (n : ℕ) (pc : View.Piece (Elt Ideal) S1x1x8192 .f32), pc ∈ (pieces (F := Ideal) v1 v20 x n).2 →
      ∃ (k : ℕ) (hk : k < k1_t2_loop.trips),
        pc = ⟨tileC ⟨k, hk⟩, k1_pay5 (F := Ideal) v1 v20 (View.ld x (tile2 ⟨k, hk⟩))⟩
  | 0, pc, hp => absurd hp List.not_mem_nil
  | n + 1, pc, hp => by
    rw [pieces] at hp
    split at hp
    · next hn =>
      rcases List.mem_cons.mp hp with rfl | hp'
      · exact ⟨n, hn, rfl⟩
      · exact mem_pieces2 v1 v20 x n pc hp'
    · exact mem_pieces2 v1 v20 x n pc hp

/-- The weights' column sums as one function of a column buffer's index. -/
def colSumAt (q : Heads 512) (K : Heads 8192) (h : Fin 16) : S1x1x8192.Idx → Elt Ideal .f32 :=
  fun y => colSum q K h ⟨(y 2).val, (y 2).isLt⟩

/-- The squared weights' column sums as one function of a column buffer's index. -/
def colSqAt (q : Heads 512) (K : Heads 8192) (h : Fin 16) : S1x1x8192.Idx → Elt Ideal .f32 :=
  fun y => colSq q K h ⟨(y 2).val, (y 2).isLt⟩

/-- Slot s of column tile k is position k·512+s. -/
theorem tileC_pos (k : ℕ) (hk : k < 15) (hk' : k < k1_t2_loop.trips) (u w : Fin 1) (s : Fin 512) :
    (⟨((tileC ⟨k, hk'⟩).emb (ix3 u w s) 2).val, ((tileC ⟨k, hk'⟩).emb (ix3 u w s) 2).isLt⟩ : Fin 8192) = pos ⟨k, by omega⟩ s :=
  Fin.ext (by
    show ((tileC ⟨k, hk'⟩).emb (ix3 u w s) 2).val = k * 512 + s.val
    rw [Rect.emb_apply, Rect.off_unit, Rect.stride_unit, k1_off3_eq]
    show 512 * k + 1 * s.val = k * 512 + s.val
    omega)

/-- Slot s of the new tile's columns is position 15·512+s. -/
theorem rNew_pos (u w : Fin 1) (s : Fin 512) :
    (⟨(rNew.emb (ix3 u w s) 2).val, (rNew.emb (ix3 u w s) 2).isLt⟩ : Fin 8192) = pos (Fin.last 15) s :=
  Fin.ext (by
    show (rNew.emb (ix3 u w s) 2).val = 15 * 512 + s.val
    rw [Rect.emb_apply, Rect.off_unit, Rect.stride_unit]
    show 7680 + 1 * s.val = 15 * 512 + s.val
    omega)

/-- The normalised numerator of a cache tile, as the second loop recomputes it. -/
theorem wnum_cache (hq : ∀ (m : Fin 512) (d : Fin 64), x0 (ix3 (0 : Fin 1) m d) = q h m d) (hK : ∀ (p : Fin 7680) (d : Fin 64), x3 (ix3 (0 : Fin 1) p d) = K h (up p) d) (hKn : ∀ (s : Fin 512) (d : Fin 64), x1 (ix3 (0 : Fin 1) s d) = K h (pos (Fin.last 15) s) d)
    (k : ℕ) (hk : k < 15) (hk' : k < k1_t2_loop.trips) (m s : Fin 512) :
    Ideal.exp (∑ d : Fin 64, k1_pay6 (F := Ideal) x0 (ix2 m d) * View.ld x3 (tile2 ⟨k, hk'⟩) (ix3 (0 : Fin 1) s d))
        * invl (F := Ideal) x0 x1 x3 x4 (ix2 m (0 : Fin 1))
      = num q K h m (pos ⟨k, by omega⟩ s) * Ideal.div 1 (den q K h m) :=
  congrArg₂ (· * ·)
    ((congrArg Ideal.exp (Finset.sum_congr rfl fun d _ =>
        congrArg₂ (· * ·) (k1_pay6_apply x0 m d) (ld_tile2 x3 k hk hk' s d))).trans (num_cache hq hK k hk m s))
    (invl_apply hq hK hKn m 0)

/-- The normalised numerator of the new tile. -/
theorem wnum_new (hq : ∀ (m : Fin 512) (d : Fin 64), x0 (ix3 (0 : Fin 1) m d) = q h m d) (hK : ∀ (p : Fin 7680) (d : Fin 64), x3 (ix3 (0 : Fin 1) p d) = K h (up p) d) (hKn : ∀ (s : Fin 512) (d : Fin 64), x1 (ix3 (0 : Fin 1) s d) = K h (pos (Fin.last 15) s) d)
    (m s : Fin 512) :
    Ideal.exp (∑ d : Fin 64, x0 (ix3 (0 : Fin 1) m d) * x1 (ix3 (0 : Fin 1) s d))
        * Ideal.div 1 ((totals (F := Ideal) x0 x3 x4).1 (ix2 m (0 : Fin 1))
            + ∑ t : Fin 512, Ideal.exp (∑ d : Fin 64, x0 (ix3 (0 : Fin 1) m d) * x1 (ix3 (0 : Fin 1) t d)))
      = num q K h m (pos (Fin.last 15) s) * Ideal.div 1 (den q K h m) :=
  congrArg₂ (· * ·) (num_new hq hKn m s) (congrArg (Ideal.div 1) (den_eq hq hK hKn m))

/-- A cache tile's stored column sums are the weights' column sums at the tile's positions. -/
theorem piece1_apply (hq : ∀ (m : Fin 512) (d : Fin 64), x0 (ix3 (0 : Fin 1) m d) = q h m d) (hK : ∀ (p : Fin 7680) (d : Fin 64), x3 (ix3 (0 : Fin 1) p d) = K h (up p) d) (hKn : ∀ (s : Fin 512) (d : Fin 64), x1 (ix3 (0 : Fin 1) s d) = K h (pos (Fin.last 15) s) d)
    (rq : IsRealH q) (rK : IsRealH K) (k : ℕ) (hk' : k < k1_t2_loop.trips) (x : (tileC ⟨k, hk'⟩).shape.Idx) :
    k1_pay4 (F := Ideal) (k1_pay6 (F := Ideal) (View.ld x0 rB)) (invl (F := Ideal) x0 x1 x3 x4) (View.ld x3 (tile2 ⟨k, hk'⟩)) x
      = colSumAt q K h ((tileC ⟨k, hk'⟩).emb x) := by
  have hk : k < 15 := by rw [← trips2]; exact hk'
  obtain ⟨u, w, s, rfl⟩ : ∃ (u w : Fin 1) (s : Fin 512), x = ix3 u w s := ⟨x 0, x 1, x 2, eq_ix3 x⟩
  rw [ld_rB]
  refine (k1_pay4_apply _ _ _ u w s).trans ?_
  refine Eq.trans (Finset.sum_congr rfl fun m _ => wnum_cache hq hK hKn k hk hk' m s) ?_
  exact (colSum_of_inv rq rK h _ (fun m => Ideal.div 1 (den q K h m)) (fun _ => rfl)).trans
    (congrArg (colSum q K h) (tileC_pos k hk hk' u w s).symm)

/-- A cache tile's stored column sums of squares are the squared weights' column sums at the tile's positions. -/
theorem piece2_apply (hq : ∀ (m : Fin 512) (d : Fin 64), x0 (ix3 (0 : Fin 1) m d) = q h m d) (hK : ∀ (p : Fin 7680) (d : Fin 64), x3 (ix3 (0 : Fin 1) p d) = K h (up p) d) (hKn : ∀ (s : Fin 512) (d : Fin 64), x1 (ix3 (0 : Fin 1) s d) = K h (pos (Fin.last 15) s) d)
    (rq : IsRealH q) (rK : IsRealH K) (k : ℕ) (hk' : k < k1_t2_loop.trips) (x : (tileC ⟨k, hk'⟩).shape.Idx) :
    k1_pay5 (F := Ideal) (k1_pay6 (F := Ideal) (View.ld x0 rB)) (invl (F := Ideal) x0 x1 x3 x4) (View.ld x3 (tile2 ⟨k, hk'⟩)) x
      = colSqAt q K h ((tileC ⟨k, hk'⟩).emb x) := by
  have hk : k < 15 := by rw [← trips2]; exact hk'
  obtain ⟨u, w, s, rfl⟩ : ∃ (u w : Fin 1) (s : Fin 512), x = ix3 u w s := ⟨x 0, x 1, x 2, eq_ix3 x⟩
  rw [ld_rB]
  refine (k1_pay5_apply _ _ _ u w s).trans ?_
  refine Eq.trans (Finset.sum_congr rfl fun m _ =>
    congrArg₂ (· * ·) (wnum_cache hq hK hKn k hk hk' m s) (wnum_cache hq hK hKn k hk hk' m s)) ?_
  exact (colSq_of_inv rq rK h _ (fun m => Ideal.div 1 (den q K h m)) (fun _ => rfl)).trans
    (congrArg (colSq q K h) (tileC_pos k hk hk' u w s).symm)

/-- The new tile's stored column sums are the weights' column sums at the last 512 positions. -/
theorem pieceNew1_apply (hq : ∀ (m : Fin 512) (d : Fin 64), x0 (ix3 (0 : Fin 1) m d) = q h m d) (hK : ∀ (p : Fin 7680) (d : Fin 64), x3 (ix3 (0 : Fin 1) p d) = K h (up p) d) (hKn : ∀ (s : Fin 512) (d : Fin 64), x1 (ix3 (0 : Fin 1) s d) = K h (pos (Fin.last 15) s) d)
    (rq : IsRealH q) (rK : IsRealH K) (x : rNew.shape.Idx) :
    k1_pay1 (F := Ideal) (k1_pay16 (F := Ideal) (View.ld x0 rB) (totals (F := Ideal) x0 x3 x4).1 (View.ld x1 rB)) x
      = colSumAt q K h (rNew.emb x) := by
  obtain ⟨u, w, s, rfl⟩ : ∃ (u w : Fin 1) (s : Fin 512), x = ix3 u w s := ⟨x 0, x 1, x 2, eq_ix3 x⟩
  rw [ld_rB, ld_rB]
  refine (k1_pay1_apply _ u w s).trans ((k1_pay16_apply' x0 _ x1 w s).trans ?_)
  refine Eq.trans (Finset.sum_congr rfl fun m _ => wnum_new hq hK hKn m s) ?_
  exact (colSum_of_inv rq rK h _ (fun m => Ideal.div 1 (den q K h m)) (fun _ => rfl)).trans
    (congrArg (colSum q K h) (rNew_pos u w s).symm)

/-- The new tile's stored column sums of squares are the squared weights' column sums at the last 512 positions. -/
theorem pieceNew2_apply (hq : ∀ (m : Fin 512) (d : Fin 64), x0 (ix3 (0 : Fin 1) m d) = q h m d) (hK : ∀ (p : Fin 7680) (d : Fin 64), x3 (ix3 (0 : Fin 1) p d) = K h (up p) d) (hKn : ∀ (s : Fin 512) (d : Fin 64), x1 (ix3 (0 : Fin 1) s d) = K h (pos (Fin.last 15) s) d)
    (rq : IsRealH q) (rK : IsRealH K) (x : rNew.shape.Idx) :
    k1_pay2 (F := Ideal) (k1_pay15 (F := Ideal) (View.ld x0 rB) (totals (F := Ideal) x0 x3 x4).1 (View.ld x1 rB)) x
      = colSqAt q K h (rNew.emb x) := by
  obtain ⟨u, w, s, rfl⟩ : ∃ (u w : Fin 1) (s : Fin 512), x = ix3 u w s := ⟨x 0, x 1, x 2, eq_ix3 x⟩
  rw [ld_rB, ld_rB]
  refine (k1_pay2_apply _ u w s).trans ?_
  refine Eq.trans (Finset.sum_congr rfl fun m _ =>
    congrArg₂ (· * ·) ((k1_pay15_apply x0 _ x1 m s).trans (wnum_new hq hK hKn m s))
      ((k1_pay15_apply x0 _ x1 m s).trans (wnum_new hq hK hKn m s))) ?_
  exact (colSq_of_inv rq rK h _ (fun m => Ideal.div 1 (den q K h m)) (fun _ => rfl)).trans
    (congrArg (colSq q K h) (rNew_pos u w s).symm)

/-- For real entries the first column buffer holds, at every one of the 8192 positions, the weights' column sum. -/
theorem out1_6_apply (hq : ∀ (m : Fin 512) (d : Fin 64), x0 (ix3 (0 : Fin 1) m d) = q h m d) (hK : ∀ (p : Fin 7680) (d : Fin 64), x3 (ix3 (0 : Fin 1) p d) = K h (up p) d) (hKn : ∀ (s : Fin 512) (d : Fin 64), x1 (ix3 (0 : Fin 1) s d) = K h (pos (Fin.last 15) s) d)
    (rq : IsRealH q) (rK : IsRealH K) (u w : Fin 1) (p : Fin 8192) :
    out1_6 (F := Ideal) x0 x1 x3 x4 (ix3 u w p) = colSum q K h p := by
  unfold out1_6
  refine View.canon_apply_of_pieces (colSumAt q K h) _ ?_ (ix3 u w p)
    (cover_col _ (fun k hk => rect_mem1 _ _ _ _ k hk hk) _ _)
  intro pc hpc x
  rcases List.mem_append.mp hpc with h1 | h2
  · obtain ⟨k, hk, rfl⟩ := mem_pieces1 _ _ _ _ pc h1
    exact piece1_apply hq hK hKn rq rK k hk x
  · obtain rfl := List.mem_singleton.mp h2
    exact pieceNew1_apply hq hK hKn rq rK x

/-- For real entries the second column buffer holds, at every position, the squared weights' column sum. -/
theorem out1_7_apply (hq : ∀ (m : Fin 512) (d : Fin 64), x0 (ix3 (0 : Fin 1) m d) = q h m d) (hK : ∀ (p : Fin 7680) (d : Fin 64), x3 (ix3 (0 : Fin 1) p d) = K h (up p) d) (hKn : ∀ (s : Fin 512) (d : Fin 64), x1 (ix3 (0 : Fin 1) s d) = K h (pos (Fin.last 15) s) d)
    (rq : IsRealH q) (rK : IsRealH K) (u w : Fin 1) (p : Fin 8192) :
    out1_7 (F := Ideal) x0 x1 x3 x4 (ix3 u w p) = colSq q K h p := by
  unfold out1_7
  refine View.canon_apply_of_pieces (colSqAt q K h) _ ?_ (ix3 u w p)
    (cover_col _ (fun k hk => rect_mem2 _ _ _ _ k hk hk) _ _)
  intro pc hpc x
  rcases List.mem_append.mp hpc with h1 | h2
  · obtain ⟨k, hk, rfl⟩ := mem_pieces2 _ _ _ _ pc h1
    exact piece2_apply hq hK hKn rq rK k hk x
  · obtain rfl := List.mem_singleton.mp h2
    exact pieceNew2_apply hq hK hKn rq rK x

end Spec

end Cert.Attn.Head

end
-- ==== Proof.KernelValue.lean ====
/-
  Over the extended reals, the kernel's three result buffers at the end of the run are the specification.

  The run passes four boundaries: the projection region writes the three products x·wᵀ; a stretch of layout
  operations cuts each product into sixteen heads; the attention region works on one head per grid point and writes
  each head's output block and its two column statistics back to that head of the three result arrays; a last
  stretch of layout operations lays the heads' outputs side by side and drops the statistics' unit axis. Reading
  one element back through the four boundaries: head h's query block is head h of x·wqᵀ, its new key and value blocks
  are head h of x·wkᵀ and x·wvᵀ — the last 512 positions of the head's keys and values — and its cache blocks are
  the head's first 7680 cache positions, which nothing before the attention region writes. So for real entries the
  head's output block is the attention output, and its two column buffers are the weights' column sums and the
  squared weights' column sums, of the specification's queries, keys and values.
-/
import proofs.«128360_j52493090291775_2_alg».proof.Proof.RunI
import proofs.«128360_j52493090291775_2_alg».proof.Proof.HostRead
import proofs.«128360_j52493090291775_2_alg».proof.Proof.AttnValue
import proofs.«128360_j52493090291775_2_alg».proof.Proof.ProjValue
import proofs.«128360_j52493090291775_2_alg».proof.Proof.HeadValue

noncomputable section

namespace Cert.Attn.KV

open Cert.KernelIdeal Cert.KernelIdeal.Gen Cert.KernelIdeal.Hand
open Idealize.ShloMosaic Idealize.ShloMosaic.TcCoe Idealize.ShloMosaic.ValueIdx Idealize.SL.Sem
open Cert.Attn Cert.Attn.Head Cert.Attn.Host Cert.Attn.Blocks Cert.Attn.Proj

variable (m : (ℓ : Loc nD τ sig) → Buf (Elt Ideal) ℓ) (ρ : Dev nD → PrngReg) (c : Dev nD)

/-- The six argument arrays at launch, as matrices and arrays of extended reals. -/
abbrev aX : Mat 512 1024 := m ((c.tc : Thread nD τ).loc main_arg0)
abbrev aWq : Mat 1024 1024 := m ((c.tc : Thread nD τ).loc main_arg1)
abbrev aWk : Mat 1024 1024 := m ((c.tc : Thread nD τ).loc main_arg2)
abbrev aWv : Mat 1024 1024 := m ((c.tc : Thread nD τ).loc main_arg3)
abbrev acK : Ten 16 8192 64 := m ((c.tc : Thread nD τ).loc main_arg4)
abbrev acV : Ten 16 8192 64 := m ((c.tc : Thread nD τ).loc main_arg5)

/-! ### The arrays nothing has written yet are the launch's -/

theorem arg0_eq : (V0 m ρ c main_arg0 : S512x1024.Idx → Elt Ideal .f32) = (aX m c) := rfl
theorem arg1_eq : (V0 m ρ c main_arg1 : S1024x1024.Idx → Elt Ideal .f32) = (aWq m c) := rfl
theorem arg2_eq : (V0 m ρ c main_arg2 : S1024x1024.Idx → Elt Ideal .f32) = (aWk m c) := rfl
theorem arg3_eq : (V0 m ρ c main_arg3 : S1024x1024.Idx → Elt Ideal .f32) = (aWv m c) := rfl

/-- The key cache as the attention region finds it is the launch's. -/
theorem cacheK_eq : (V2 m ρ c main_arg4 : S16x8192x64.Idx → Elt Ideal .f32) = (acK m c) :=
  (after1_keep (W1 m ρ c) main_arg4 (by decide)).trans ((W1_of_ne m ρ c main_arg4 (by decide)).trans rfl)

/-- The value cache as the attention region finds it is the launch's. -/
theorem cacheV_eq : (V2 m ρ c main_arg5 : S16x8192x64.Idx → Elt Ideal .f32) = (acV m c) :=
  (after1_keep (W1 m ρ c) main_arg5 (by decide)).trans ((W1_of_ne m ρ c main_arg5 (by decide)).trans rfl)

/-! ### The three products, by heads, as the attention region finds them -/

/-- Head h of the queries is head h of x·wqᵀ. -/
theorem q_heads (h : Fin 16) (r : Fin 512) (d : Fin 64) :
    (V2 m ρ c main_v2 : S16x512x64.Idx → Elt Ideal .bf16) (ix3 h r d) = proj (aX m c) (aWq m c) h r d :=
  (after1_q (W1 m ρ c) h r d).trans <|
    (congrFun (W1_arr m ρ c 4) (ix2 r (col h d))).trans <|
      (proj_q_heads (V0 m ρ) c h r d).trans <|
        congrArg₂ (fun a b => proj a b h r d) (arg0_eq m ρ c) (arg1_eq m ρ c)

/-- Head h of the new keys is head h of x·wkᵀ. -/
theorem k_heads (h : Fin 16) (r : Fin 512) (d : Fin 64) :
    (V2 m ρ c main_v4 : S16x512x64.Idx → Elt Ideal .bf16) (ix3 h r d) = proj (aX m c) (aWk m c) h r d :=
  (after1_k (W1 m ρ c) h r d).trans <|
    (congrFun (W1_arr m ρ c 5) (ix2 r (col h d))).trans <|
      (proj_k_heads (V0 m ρ) c h r d).trans <|
        congrArg₂ (fun a b => proj a b h r d) (arg0_eq m ρ c) (arg2_eq m ρ c)

/-- Head h of the new values is head h of x·wvᵀ. -/
theorem v_heads (h : Fin 16) (r : Fin 512) (d : Fin 64) :
    (V2 m ρ c main_v6 : S16x512x64.Idx → Elt Ideal .bf16) (ix3 h r d) = proj (aX m c) (aWv m c) h r d :=
  (after1_v (W1 m ρ c) h r d).trans <|
    (congrFun (W1_arr m ρ c 6) (ix2 r (col h d))).trans <|
      (proj_v_heads (V0 m ρ) c h r d).trans <|
        congrArg₂ (fun a b => proj a b h r d) (arg0_eq m ρ c) (arg3_eq m ρ c)

/-! ### The five blocks of head h's grid point are the specification's families at head h -/

/-- A cache position below 7680 of the appended keys or values is the cache's. -/
theorem appended_up (cache : Ten 16 8192 64) (new : Heads 512) (h : Fin 16) (p : Fin 7680) (d : Fin 64) :
    appended cache new h (up p) d = cache (ix3 h (up p) d) := by
  unfold appended
  exact dif_pos p.isLt

theorem blk_q (h : Fin 16) (r : Fin 512) (d : Fin 64) :
    (iblk1 (V2 m ρ) c 0 (pt h) : S1x512x64.Idx → Elt Ideal .bf16) (ix3 (0 : Fin 1) r d) = proj (aX m c) (aWq m c) h r d :=
  (iblk_q (V2 m ρ) c (pt h) h rfl r d).trans (q_heads m ρ c h r d)

theorem blk_kn (h : Fin 16) (s : Fin 512) (d : Fin 64) :
    (iblk1 (V2 m ρ) c 1 (pt h) : S1x512x64.Idx → Elt Ideal .bf16) (ix3 (0 : Fin 1) s d)
      = keys (aX m c) (aWk m c) (acK m c) h (pos (Fin.last 15) s) d :=
  (iblk_k (V2 m ρ) c (pt h) h rfl s d).trans <|
    (k_heads m ρ c h s d).trans (appended_new (acK m c) (proj (aX m c) (aWk m c)) h s d).symm

theorem blk_vn (h : Fin 16) (s : Fin 512) (d : Fin 64) :
    (iblk1 (V2 m ρ) c 2 (pt h) : S1x512x64.Idx → Elt Ideal .bf16) (ix3 (0 : Fin 1) s d)
      = vals (aX m c) (aWv m c) (acV m c) h (pos (Fin.last 15) s) d :=
  (iblk_v (V2 m ρ) c (pt h) h rfl s d).trans <|
    (v_heads m ρ c h s d).trans (appended_new (acV m c) (proj (aX m c) (aWv m c)) h s d).symm

theorem blk_kc (h : Fin 16) (p : Fin 7680) (d : Fin 64) :
    (cblk1_3 (V2 m ρ) c (pt h) : S1x7680x64.Idx → Elt Ideal .f32) (ix3 (0 : Fin 1) p d) = keys (aX m c) (aWk m c) (acK m c) h (up p) d :=
  (cblk_K (V2 m ρ) c (pt h) h rfl p d).trans <|
    (congrFun (cacheK_eq m ρ c) (ix3 h (up p) d)).trans (appended_up (acK m c) (proj (aX m c) (aWk m c)) h p d).symm

theorem blk_vc (h : Fin 16) (p : Fin 7680) (d : Fin 64) :
    (cblk1_4 (V2 m ρ) c (pt h) : S1x7680x64.Idx → Elt Ideal .f32) (ix3 (0 : Fin 1) p d) = vals (aX m c) (aWv m c) (acV m c) h (up p) d :=
  (cblk_V (V2 m ρ) c (pt h) h rfl p d).trans <|
    (congrFun (cacheV_eq m ρ c) (ix3 h (up p) d)).trans (appended_up (acV m c) (proj (aX m c) (aWv m c)) h p d).symm

/-! ### Head by head after the attention region -/

section Real

variable (rX : IsRealM (aX m c)) (rWq : IsRealM (aWq m c)) (rWk : IsRealM (aWk m c)) (rWv : IsRealM (aWv m c)) (rK : IsRealT (acK m c)) (rV : IsRealT (acV m c))

include rX rWq rWk rWv rK rV in
/-- Head h of the attention region's output array is the attention output of head h. -/
theorem head_out (h : Fin 16) (r : Fin 512) (d : Fin 64) :
    (W3 m ρ c (Proc.devRef .tc main_v7_0) : S16x512x64.Idx → Elt Ideal .f32) (ix3 h r d)
      = attnOut (proj (aX m c) (aWq m c)) (keys (aX m c) (aWk m c) (acK m c)) (vals (aX m c) (aWv m c) (acV m c)) h r d :=
  (congrFun (W3_arr m ρ c 5) (ix3 h r d)).trans <|
    (arr5_read (V2 m ρ) c (pt h) h rfl r d).trans <|
      out1_5_apply (q := proj (aX m c) (aWq m c)) (K := keys (aX m c) (aWk m c) (acK m c)) (V := vals (aX m c) (aWv m c) (acV m c)) (h := h)
        (blk_q m ρ c h) (blk_kc m ρ c h) (blk_kn m ρ c h) (blk_vc m ρ c h) (blk_vn m ρ c h)
        (proj_real rX rWq) (appended_real rK (proj_real rX rWk)) (appended_real rV (proj_real rX rWv)) 0 r d

include rX rWq rWk rK in
/-- Head h of the first column statistic is the weights' column sums of head h. -/
theorem head_sum (h : Fin 16) (p : Fin 8192) :
    (W3 m ρ c (Proc.devRef .tc main_v7_1) : S16x1x8192.Idx → Elt Ideal .f32) (ix3 h (0 : Fin 1) p)
      = colSum (proj (aX m c) (aWq m c)) (keys (aX m c) (aWk m c) (acK m c)) h p :=
  (congrFun (W3_arr m ρ c 6) (ix3 h (0 : Fin 1) p)).trans <|
    (arr6_read (V2 m ρ) c (pt h) h rfl p).trans <|
      out1_6_apply (q := proj (aX m c) (aWq m c)) (K := keys (aX m c) (aWk m c) (acK m c)) (h := h)
        (blk_q m ρ c h) (blk_kc m ρ c h) (blk_kn m ρ c h)
        (proj_real rX rWq) (appended_real rK (proj_real rX rWk)) 0 0 p

include rX rWq rWk rK in
/-- Head h of the second column statistic is the squared weights' column sums of head h. -/
theorem head_sq (h : Fin 16) (p : Fin 8192) :
    (W3 m ρ c (Proc.devRef .tc main_v7_2) : S16x1x8192.Idx → Elt Ideal .f32) (ix3 h (0 : Fin 1) p)
      = colSq (proj (aX m c) (aWq m c)) (keys (aX m c) (aWk m c) (acK m c)) h p :=
  (congrFun (W3_arr m ρ c 7) (ix3 h (0 : Fin 1) p)).trans <|
    (arr7_read (V2 m ρ) c (pt h) h rfl p).trans <|
      out1_7_apply (q := proj (aX m c) (aWq m c)) (K := keys (aX m c) (aWk m c) (acK m c)) (h := h)
        (blk_q m ρ c h) (blk_kc m ρ c h) (blk_kn m ρ c h)
        (proj_real rX rWq) (appended_real rK (proj_real rX rWk)) 0 0 p

/-! ### The three result buffers at the end of the run -/

include rX rWq rWk rWv rK rV in
/-- The first result buffer is the specification's attention output. -/
theorem W4_out' :
    (W4 (F := Ideal) m ρ c (Proc.devRef .tc main_v9) : S512x1024.Idx → EReal) = resultOut (aX m c) (aWq m c) (aWk m c) (aWv m c) (acK m c) (acV m c) := by
  funext i
  refine (after2_out_at (W3 m ρ c) i).trans ?_
  exact head_out m ρ c rX rWq rWk rWv rK rV _ _ _

include rX rWq rWk rK in
/-- The second result buffer is the specification's column sums of the weights. -/
theorem W4_sum' :
    (W4 (F := Ideal) m ρ c (Proc.devRef .tc main_v10) : S16x8192.Idx → EReal) = resultSum (aX m c) (aWq m c) (aWk m c) (acK m c) := by
  funext i
  obtain ⟨h, p, rfl⟩ : ∃ (h : Fin 16) (p : Fin 8192), i = ix2 h p := ⟨i 0, i 1, eq_ix2 i⟩
  refine (after2_sum (W3 m ρ c) h p).trans ?_
  exact head_sum m ρ c rX rWq rWk rK h p

include rX rWq rWk rK in
/-- The third result buffer is the specification's column sums of the squared weights. -/
theorem W4_sq' :
    (W4 (F := Ideal) m ρ c (Proc.devRef .tc main_v11) : S16x8192.Idx → EReal) = resultSq (aX m c) (aWq m c) (aWk m c) (acK m c) := by
  funext i
  obtain ⟨h, p, rfl⟩ : ∃ (h : Fin 16) (p : Fin 8192), i = ix2 h p := ⟨i 0, i 1, eq_ix2 i⟩
  refine (after2_sq (W3 m ρ c) h p).trans ?_
  exact head_sq m ρ c rX rWq rWk rK h p

end Real

/-! ### The same, over the launch's arrays written out, from the six facts as one conjunction -/

/-- The six argument arrays hold real numbers. -/
abbrev RealArgs : Prop :=
  IsRealM (a := 512) (b := 1024) (m ((c.tc : Thread nD τ).loc main_arg0))
  ∧ IsRealM (a := 1024) (b := 1024) (m ((c.tc : Thread nD τ).loc main_arg1))
  ∧ IsRealM (a := 1024) (b := 1024) (m ((c.tc : Thread nD τ).loc main_arg2))
  ∧ IsRealM (a := 1024) (b := 1024) (m ((c.tc : Thread nD τ).loc main_arg3))
  ∧ IsRealT (a := 16) (b := 8192) (c := 64) (m ((c.tc : Thread nD τ).loc main_arg4))
  ∧ IsRealT (a := 16) (b := 8192) (c := 64) (m ((c.tc : Thread nD τ).loc main_arg5))

/-- The first result buffer at the end of the run is the specification's attention output. -/
theorem W4_out (hr : RealArgs m c) :
    (W4 (F := Ideal) m ρ c (Proc.devRef .tc main_v9) : S512x1024.Idx → EReal)
      = resultOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  W4_out' m ρ c hr.1 hr.2.1 hr.2.2.1 hr.2.2.2.1 hr.2.2.2.2.1 hr.2.2.2.2.2

/-- The second result buffer at the end of the run is the specification's column sums of the weights. -/
theorem W4_sum (hr : RealArgs m c) :
    (W4 (F := Ideal) m ρ c (Proc.devRef .tc main_v10) : S16x8192.Idx → EReal)
      = resultSum (m ((c.tc : Thread nD τ).loc main_arg0)) (m ((c.tc : Thread nD τ).loc main_arg1)) (m ((c.tc : Thread nD τ).loc main_arg2)) (m ((c.tc : Thread nD τ).loc main_arg4)) :=
  W4_sum' m ρ c hr.1 hr.2.1 hr.2.2.1 hr.2.2.2.2.1

/-- The third result buffer at the end of the run is the specification's column sums of the squared weights. -/
theorem W4_sq (hr : RealArgs m c) :
    (W4 (F := Ideal) m ρ c (Proc.devRef .tc main_v11) : S16x8192.Idx → EReal)
      = resultSq (m ((c.tc : Thread nD τ).loc main_arg0)) (m ((c.tc : Thread nD τ).loc main_arg1)) (m ((c.tc : Thread nD τ).loc main_arg2)) (m ((c.tc : Thread nD τ).loc main_arg4)) :=
  W4_sq' m ρ c hr.1 hr.2.1 hr.2.2.1 hr.2.2.2.2.1

end Cert.Attn.KV

end
-- ==== Proof.RefScatter.lean ====
/-
  Writing a block into an array at one literal offset.

  A scatter whose body returns the update is a left fold over the update's elements: each element is
  put at its own target position. When the targets of different update elements are different, the
  array read at a position p is the update's element whose target is p, if there is one, and the old
  element at p otherwise. Here there is one start offset, 7680 along the middle axis, and the update
  block has 512 rows there, so the targets are the positions (h, 7680 + m, d): the array read at
  (h, p, d) is the old element when p < 7680 and the update's element (h, p - 7680, d) when p ≥ 7680.
-/
import proofs.«128360_j52493090291775_2_alg».proof.Proof.Gen.ReferenceIdeal.Read
import proofs.«128360_j52493090291775_2_alg».proof.Proof.Spec

noncomputable section

namespace Cert.Attn.Ref

open Idealize.ShloMosaic Idealize.ShloMosaic.ValueIdx

section Fold

variable {ι α κ : Type} [DecidableEq ι]

/-- A fold of "put" steps read at a position no step targets is the initial array there. -/
theorem foldl_put_miss (φ : κ → Option ι) (v : κ → α) (step : (ι → α) → κ → (ι → α))
    (hnone : ∀ r n, φ n = none → ∀ i', step r n i' = r i')
    (hsome : ∀ r n i, φ n = some i → ∀ i', step r n i' = if i' = i then v n else r i')
    (i' : ι) (l : List κ) (r : ι → α) (hl : ∀ n ∈ l, φ n ≠ some i') :
    l.foldl step r i' = r i' := by
  induction l generalizing r with
  | nil => rfl
  | cons n l ih =>
    rw [List.foldl_cons, ih (step r n) (fun m hm => hl m (List.mem_cons_of_mem _ hm))]
    have hn := hl n (List.mem_cons_self ..)
    cases h : φ n with
    | none => exact hnone r n h i'
    | some i =>
      rw [hsome r n i h i', if_neg]
      intro hi; exact hn (by rw [h, hi])

/-- A fold of "put" steps read at a position exactly one step targets is that step's value. -/
theorem foldl_put_hit (φ : κ → Option ι) (v : κ → α) (step : (ι → α) → κ → (ι → α))
    (hnone : ∀ r n, φ n = none → ∀ i', step r n i' = r i')
    (hsome : ∀ r n i, φ n = some i → ∀ i', step r n i' = if i' = i then v n else r i')
    (i' : ι) (n₀ : κ) (h₀ : φ n₀ = some i') (l : List κ) (r : ι → α) (hmem : n₀ ∈ l)
    (huniq : ∀ n ∈ l, φ n = some i' → n = n₀) :
    l.foldl step r i' = v n₀ := by
  induction l generalizing r with
  | nil => cases hmem
  | cons n l ih =>
    rw [List.foldl_cons]
    by_cases hin : n₀ ∈ l
    · exact ih (step r n) hin (fun m hm => huniq m (List.mem_cons_of_mem _ hm))
    · have hn : n = n₀ := by
        rcases List.mem_cons.1 hmem with h | h
        · exact h.symm
        · exact absurd h hin
      rw [foldl_put_miss φ v step hnone hsome i' l (step r n)
        (fun m hm hφ => hin ((huniq m (List.mem_cons_of_mem _ hm) hφ) ▸ hm))]
      rw [hn, hsome r n₀ i' h₀ i', if_pos rfl]

end Fold

section Scatter

variable {s si u : Shape} {w : Nat} {α : Type}

/-- A set-scatter read at a position no update element lands on is the operand there. -/
theorem scatter_set_miss (d : ScatterDims s si u) (x : s.Idx → α) (idx : IVec si w) (upd : u.Idx → α)
    (i : s.Idx) (hmiss : ∀ j, d.resultIdx? j idx ≠ some i) :
    Host.scatter d (fun _ b => b) x idx upd i = x i := by
  unfold Host.scatter
  refine foldl_put_miss (fun n => d.resultIdx? (u.rowMajor.symm n) idx) (fun n => upd (u.rowMajor.symm n)) _
    ?_ ?_ i _ x (fun n _ => hmiss _)
  · intro r n h i'
    simp only [h]
  · intro r n i0 h i'
    simp only [h]

/-- A set-scatter read at a position exactly one update element lands on is that element. -/
theorem scatter_set_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  unfold Host.scatter
  refine (foldl_put_hit (fun n => d.resultIdx? (u.rowMajor.symm n) idx) (fun n => upd (u.rowMajor.symm n)) _
    ?_ ?_ i (u.rowMajor j) ?_ (List.finRange u.numel) x (List.mem_finRange _) ?_).trans ?_
  · intro r n h i'
    simp only [h]
  · intro r n i0 h i'
    simp only [h]
  · show d.resultIdx? (u.rowMajor.symm (u.rowMajor j)) idx = some i
    rw [Equiv.symm_apply_apply]; exact hj
  · intro n _ hn
    have := huniq _ hn
    rw [← this, Equiv.apply_symm_apply]
  · show upd (u.rowMajor.symm (u.rowMajor j)) = upd j
    rw [Equiv.symm_apply_apply]

end Scatter

section Window

open Cert.ReferenceIdeal Cert.ReferenceIdeal.Gen

/-- The scatter's dimension numbers: the whole update is one window, placed by one start offset along axis 1. -/
abbrev dS : ScatterDims S16x8192x64 S1 S16x512x64 := scatter_S16x8192x64_S1_S16x512x64_012_n_1_0

variable (idx : IVec S1 32) (hidx : ∀ i, idx i = 7680#32) (j : S16x512x64.Idx)

theorem start_0 : dS.start j idx 0 = 0 := by
  unfold ScatterDims.start
  rw [dif_neg (by decide)]

theorem start_1 (hidx : ∀ i, idx i = 7680#32) : dS.start j idx 1 = 7680 := by
  unfold ScatterDims.start
  rw [dif_pos (by decide), hidx]
  decide

theorem start_2 : dS.start j idx 2 = 0 := by
  unfold ScatterDims.start
  rw [dif_neg (by decide)]

theorem window_0 : dS.window j 0 = (j 0).val := by
  unfold ScatterDims.window
  rw [dif_pos (by decide)]
  rfl

theorem window_1 : dS.window j 1 = (j 1).val := by
  unfold ScatterDims.window
  rw [dif_pos (by decide)]
  rfl

theorem window_2 : dS.window j 2 = (j 2).val := by
  unfold ScatterDims.window
  rw [dif_pos (by decide)]
  rfl

/-- Where the update's element j is put: the same head and component, 7680 rows further along the middle axis. -/
def tgt (j : S16x512x64.Idx) : S16x8192x64.Idx := fun a => match a with
  | ⟨0, _⟩ => ⟨(j 0).val, (j 0).isLt⟩
  | ⟨1, _⟩ => ⟨7680 + (j 1).val, by have h : (j 1).val < 512 := (j 1).isLt; show 7680 + (j 1).val < 8192; omega⟩
  | ⟨2, _⟩ => ⟨(j 2).val, (j 2).isLt⟩

theorem resultIdx_eq (hidx : ∀ i, idx i = 7680#32) : dS.resultIdx? j idx = some (tgt j) := by
  have h0 : (j 0).val < 16 := (j 0).isLt
  have h1 : (j 1).val < 512 := (j 1).isLt
  have h2 : (j 2).val < 64 := (j 2).isLt
  have hc : ∀ a, 0 ≤ dS.start j idx a + dS.window j a ∧ dS.start j idx a + dS.window j a < S16x8192x64.size a := by
    intro a
    match a with
    | ⟨0, _⟩ =>
      show (0:Int) ≤ dS.start j idx 0 + ((dS.window j 0 : Nat) : Int) ∧ dS.start j idx 0 + ((dS.window j 0 : Nat) : Int) < ((16 : Nat) : Int)
      rw [start_0, window_0]; omega
    | ⟨1, _⟩ =>
      show (0:Int) ≤ dS.start j idx 1 + ((dS.window j 1 : Nat) : Int) ∧ dS.start j idx 1 + ((dS.window j 1 : Nat) : Int) < ((8192 : Nat) : Int)
      rw [start_1 idx j hidx, window_1]; omega
    | ⟨2, _⟩ =>
      show (0:Int) ≤ dS.start j idx 2 + ((dS.window j 2 : Nat) : Int) ∧ dS.start j idx 2 + ((dS.window j 2 : Nat) : Int) < ((64 : Nat) : Int)
      rw [start_2, window_2]; omega
  unfold ScatterDims.resultIdx?
  rw [dif_pos hc]
  congr 1
  funext a
  apply Fin.ext
  match a with
  | ⟨0, _⟩ =>
    show (dS.start j idx 0 + ((dS.window j 0 : Nat) : Int)).toNat = (j 0).val
    rw [start_0, window_0]; omega
  | ⟨1, _⟩ =>
    show (dS.start j idx 1 + ((dS.window j 1 : Nat) : Int)).toNat = 7680 + (j 1).val
    rw [start_1 idx j hidx, window_1]; omega
  | ⟨2, _⟩ =>
    show (dS.start j idx 2 + ((dS.window j 2 : Nat) : Int)).toNat = (j 2).val
    rw [start_2, window_2]; omega

/-- Two positions of a rank-three array with equal coordinates are equal. -/
theorem idx3_ext {n0 n1 n2 : Nat} (f g : (⟨3, ![n0, n1, n2]⟩ : Shape).Idx) (h0 : (f 0).val = (g 0).val)
    (h1 : (f 1).val = (g 1).val) (h2 : (f 2).val = (g 2).val) : f = g := by
  funext a
  match a with
  | ⟨0, _⟩ => exact Fin.ext h0
  | ⟨1, _⟩ => exact Fin.ext h1
  | ⟨2, _⟩ => exact Fin.ext h2

theorem tgt_0 (j : S16x512x64.Idx) : (tgt j 0).val = (j 0).val := rfl
theorem tgt_1 (j : S16x512x64.Idx) : (tgt j 1).val = 7680 + (j 1).val := rfl
theorem tgt_2 (j : S16x512x64.Idx) : (tgt j 2).val = (j 2).val := rfl

/-- The array after the write, read at (h, p, d): the old element below row 7680, the update's row p - 7680 from there on. -/
theorem scatter_read {α : Type} (x : S16x8192x64.Idx → α) (idx : IVec S1 32) (hidx : ∀ i, idx i = 7680#32)
    (upd : S16x512x64.Idx → α) (h : Fin 16) (p : Fin 8192) (d : Fin 64) :
    Host.scatter dS (fun _ b => b) x idx upd (ix3 h p d)
      = if hp : p.val < 7680 then x (ix3 h p d)
        else upd (ix3 h ⟨p.val - 7680, by have := p.isLt; omega⟩ d) := by
  by_cases hp : p.val < 7680
  · rw [dif_pos hp]
    refine scatter_set_miss dS x idx upd _ (fun j hj => ?_)
    rw [resultIdx_eq idx j hidx] at hj
    have e := congrArg (fun f : S16x8192x64.Idx => (f 1).val) (Option.some.inj hj)
    have e' : (tgt j 1).val = p.val := e
    rw [tgt_1] at e'
    omega
  · rw [dif_neg hp]
    have hlt : p.val - 7680 < 512 := by have := p.isLt; omega
    refine scatter_set_hit dS x idx upd _ (ix3 h ⟨p.val - 7680, hlt⟩ d) ?_ (fun j' hj' => ?_)
    · rw [resultIdx_eq idx _ hidx]
      congr 1
      refine idx3_ext _ _ ?_ ?_ ?_
      · rw [tgt_0]
      · rw [tgt_1]; show 7680 + (p.val - 7680) = p.val; omega
      · rw [tgt_2]
    · rw [resultIdx_eq idx j' hidx] at hj'
      have e := Option.some.inj hj'
      have e0 : (tgt j' 0).val = h.val := congrArg (fun f : S16x8192x64.Idx => (f 0).val) e
      have e1 : (tgt j' 1).val = p.val := congrArg (fun f : S16x8192x64.Idx => (f 1).val) e
      have e2 : (tgt j' 2).val = d.val := congrArg (fun f : S16x8192x64.Idx => (f 2).val) e
      rw [tgt_0] at e0; rw [tgt_1] at e1; rw [tgt_2] at e2
      refine idx3_ext _ _ e0 ?_ e2
      show (j' 1).val = p.val - 7680
      omega

end Window

end Cert.Attn.Ref

end
-- ==== Proof.RefValue.lean ====
/-
  The reference program computes the specification.

  Read one element at a time, the reference program is: three matrix products x·wᵀ, each reshaped and
  transposed into heads (entry (h, m, d) is entry (m, h·64+d) of the product); the key and value caches with
  their last 512 rows replaced by the new heads; the logits Σ_d q·K; their exponentials; the exponentials'
  sums over the positions; the quotients; and then the quotients' sums over the rows, the sums of their
  squares, and the quotient-weighted sums of the values, laid back side by side along the features.
  Each of these is, element by element, the quantity of the same name in the specification; a sum that starts
  from the constant zero is the plain sum.
-/
import proofs.«128360_j52493090291775_2_alg».proof.Proof.Gen.ReferenceIdeal.Read
import proofs.«128360_j52493090291775_2_alg».proof.Proof.Spec
import proofs.«128360_j52493090291775_2_alg».proof.Proof.RefScatter

noncomputable section

namespace Cert.Attn.Ref

open Cert.ReferenceIdeal Cert.ReferenceIdeal.Gen Cert.ReferenceIdeal.Read Idealize.ShloMosaic Idealize.ShloMosaic.ValueIdx

/-- Two positions of a matrix with equal coordinates are equal. -/
theorem idx2_ext {n0 n1 : Nat} (f g : (⟨2, ![n0, n1]⟩ : Shape).Idx) (h0 : (f 0).val = (g 0).val)
    (h1 : (f 1).val = (g 1).val) : f = g := by
  funext a
  match a with
  | ⟨0, _⟩ => exact Fin.ext h0
  | ⟨1, _⟩ => exact Fin.ext h1

section Stages

variable (x0 : (⟨S512x1024, .f32⟩ : BufTy).Contents (Elt Ideal))
variable (x1 x2 x3 : (⟨S1024x1024, .f32⟩ : BufTy).Contents (Elt Ideal))
variable (x4 x5 : (⟨S16x8192x64, .f32⟩ : BufTy).Contents (Elt Ideal))

/-- The product x·wᵀ arranged by heads is the projection. -/
theorem v3_read (h : Fin 16) (m : Fin 512) (d : Fin 64) :
    val_main_v3 (F := Ideal) x0 x1 (ix3 h m d) = proj x0 x1 h m d := by
  have hh := h.isLt
  have hm := m.isLt
  have hd := d.isLt
  rw [val_main_v3_apply, val_main_v2_apply, val_main_v1_apply]
  unfold proj
  refine Finset.sum_congr rfl fun n _ => ?_
  rw [val_main_v0_apply]
  have el : lidx_main_v1 (idx_main_v2 (idx_main_v3 (ix3 h m d))) n = ix2 m n := by
    refine idx2_ext _ _ ?_ rfl
    show ((m.val * 16 + h.val) * 64 + d.val) / 1024 = m.val
    omega
  have er : idx_main_v0 (ridx_main_v1 (idx_main_v2 (idx_main_v3 (ix3 h m d))) n) = ix2 (col h d) n := by
    refine idx2_ext _ _ ?_ rfl
    show ((m.val * 16 + h.val) * 64 + d.val) % 1024 = h.val * 64 + d.val
    omega
  rw [el, er]

/-- The same program text at another weight matrix. -/
theorem v7_read (h : Fin 16) (m : Fin 512) (d : Fin 64) :
    val_main_v7 (F := Ideal) x0 x2 (ix3 h m d) = proj x0 x2 h m d := v3_read x0 x2 h m d

theorem v11_read (h : Fin 16) (m : Fin 512) (d : Fin 64) :
    val_main_v11 (F := Ideal) x0 x3 (ix3 h m d) = proj x0 x3 h m d := v3_read x0 x3 h m d

theorem v12_const (i : S1.Idx) : val_main_v12 (F := Ideal) i = 7680#32 := by
  rw [val_main_v12_apply, val_main_c_apply]

/-- The key cache after the write is the specification's keys. -/
theorem v13_read (h : Fin 16) (p : Fin 8192) (d : Fin 64) :
    val_main_v13 (F := Ideal) x0 x2 x4 (ix3 h p d) = keys x0 x2 x4 h p d := by
  unfold val_main_v13 keys appended
  rw [scatter_read x4 _ v12_const _ h p d]
  by_cases hp : p.val < 7680
  · rw [dif_pos hp, dif_pos hp]
  · rw [dif_neg hp, dif_neg hp, v7_read]

/-- The value cache after the write is the specification's values. -/
theorem v15_read (h : Fin 16) (p : Fin 8192) (d : Fin 64) :
    val_main_v15 (F := Ideal) x0 x3 x5 (ix3 h p d) = vals x0 x3 x5 h p d :=
  v13_read x0 x3 x5 h p d

/-- The first batched product is the logit. -/
theorem v16_read (h : Fin 16) (m : Fin 512) (p : Fin 8192) :
    val_main_v16 (F := Ideal) x0 x1 x2 x4 (ix3 h m p) = logit (proj x0 x1) (keys x0 x2 x4) h m p := by
  rw [val_main_v16_apply]
  unfold logit
  refine Finset.sum_congr rfl fun k _ => ?_
  have el : lidx_main_v16 (ix3 h m p) k = ix3 h m k := idx3_ext _ _ rfl rfl rfl
  have er : ridx_main_v16 (ix3 h m p) k = ix3 h p k := idx3_ext _ _ rfl rfl rfl
  rw [el, er, v3_read, v13_read]

/-- Its exponential is the numerator. -/
theorem v17_read (h : Fin 16) (m : Fin 512) (p : Fin 8192) :
    val_main_v17 (F := Ideal) x0 x1 x2 x4 (ix3 h m p) = num (proj x0 x1) (keys x0 x2 x4) h m p := by
  rw [val_main_v17_apply, v16_read]
  rfl

/-- The numerators' sum over the positions, started from zero, is the denominator. -/
theorem v18_read (h : Fin 16) (m : Fin 512) :
    val_main_v18 (F := Ideal) x0 x1 x2 x4 (ix2 h m) = den (proj x0 x1) (keys x0 x2 x4) h m := by
  rw [val_main_v18_apply, val_main_cst_apply, Ideal.ofBits_def, Ideal.ofBits_zero_f32, zero_add]
  unfold den
  refine Finset.sum_congr rfl fun p _ => ?_
  have e : idx_main_v18 (ix2 h m) p = ix3 h m p := idx3_ext _ _ rfl rfl rfl
  rw [e, v17_read]

/-- The quotient by the denominator, repeated along the positions, is the weight. -/
theorem v21_read (h : Fin 16) (m : Fin 512) (p : Fin 8192) :
    val_main_v21 (F := Ideal) x0 x1 x2 x4 (ix3 h m p) = wgt (proj x0 x1) (keys x0 x2 x4) h m p := by
  rw [val_main_v21_apply, val_main_v20_apply, val_main_v19_apply]
  have e : idx_main_v19 (idx_main_v20 (ix3 h m p)) = ix2 h m := idx2_ext _ _ rfl rfl
  rw [e, v17_read, v18_read]
  rfl

/-- The second batched product is the weighted sum of the values. -/
theorem v22_read (h : Fin 16) (m : Fin 512) (d : Fin 64) :
    val_main_v22 (F := Ideal) x0 x1 x2 x3 x4 x5 (ix3 h m d)
      = attnOut (proj x0 x1) (keys x0 x2 x4) (vals x0 x3 x5) h m d := by
  rw [val_main_v22_apply]
  unfold attnOut
  refine Finset.sum_congr rfl fun p _ => ?_
  have el : lidx_main_v22 (ix3 h m d) p = ix3 h m p := idx3_ext _ _ rfl rfl rfl
  have er : ridx_main_v22 (ix3 h m d) p = ix3 h p d := idx3_ext _ _ rfl rfl rfl
  rw [el, er, v21_read, v15_read]

end Stages

/-- The reference's first result is the attention output. -/
theorem ref_out (x0 : (⟨Cert.ReferenceIdeal.S512x1024, .f32⟩ : BufTy).Contents (Elt Ideal))
    (x1 x2 x3 : (⟨Cert.ReferenceIdeal.S1024x1024, .f32⟩ : BufTy).Contents (Elt Ideal))
    (x4 x5 : (⟨Cert.ReferenceIdeal.S16x8192x64, .f32⟩ : BufTy).Contents (Elt Ideal)) :
    Cert.ReferenceIdeal.Read.val_main_v27 (F := Ideal) x0 x1 x2 x3 x4 x5 = Cert.Attn.resultOut x0 x1 x2 x3 x4 x5 := by
  funext i
  obtain ⟨m, c, rfl⟩ : ∃ (m : Fin 512) (c : Fin 1024), i = ix2 m c := ⟨i 0, i 1, eq_ix2 i⟩
  have hm := m.isLt
  have hc := c.isLt
  rw [val_main_v27_apply, val_main_v26_apply]
  have e : idx_main_v26 (idx_main_v27 (ix2 m c))
      = ix3 (⟨c.val / 64, by omega⟩ : Fin 16) m (⟨c.val % 64, Nat.mod_lt _ (by norm_num)⟩ : Fin 64) := by
    refine idx3_ext _ _ ?_ ?_ ?_
    · show (m.val * 1024 + c.val) / 64 % 16 = c.val / 64
      omega
    · show (m.val * 1024 + c.val) / 1024 = m.val
      omega
    · show (m.val * 1024 + c.val) % 64 = c.val % 64
      omega
  rw [e, v22_read]
  rfl

/-- The reference's second result is the weights' column sums. -/
theorem ref_sum (x0 : (⟨Cert.ReferenceIdeal.S512x1024, .f32⟩ : BufTy).Contents (Elt Ideal))
    (x1 x2 : (⟨Cert.ReferenceIdeal.S1024x1024, .f32⟩ : BufTy).Contents (Elt Ideal))
    (x4 : (⟨Cert.ReferenceIdeal.S16x8192x64, .f32⟩ : BufTy).Contents (Elt Ideal)) :
    Cert.ReferenceIdeal.Read.val_main_v23 (F := Ideal) x0 x1 x2 x4 = Cert.Attn.resultSum x0 x1 x2 x4 := by
  funext i
  obtain ⟨h, p, rfl⟩ : ∃ (h : Fin 16) (p : Fin 8192), i = ix2 h p := ⟨i 0, i 1, eq_ix2 i⟩
  rw [val_main_v23_apply, val_main_cst_1_apply, Ideal.ofBits_def, Ideal.ofBits_zero_f32, zero_add]
  show _ = colSum (proj x0 x1) (keys x0 x2 x4) h p
  unfold colSum
  refine Finset.sum_congr rfl fun m _ => ?_
  have e : idx_main_v23 (ix2 h p) m = ix3 h m p := idx3_ext _ _ rfl rfl rfl
  rw [e, v21_read]

/-- The reference's third result is the squared weights' column sums. -/
theorem ref_sq (x0 : (⟨Cert.ReferenceIdeal.S512x1024, .f32⟩ : BufTy).Contents (Elt Ideal))
    (x1 x2 : (⟨Cert.ReferenceIdeal.S1024x1024, .f32⟩ : BufTy).Contents (Elt Ideal))
    (x4 : (⟨Cert.ReferenceIdeal.S16x8192x64, .f32⟩ : BufTy).Contents (Elt Ideal)) :
    Cert.ReferenceIdeal.Read.val_main_v25 (F := Ideal) x0 x1 x2 x4 = Cert.Attn.resultSq x0 x1 x2 x4 := by
  funext i
  obtain ⟨h, p, rfl⟩ : ∃ (h : Fin 16) (p : Fin 8192), i = ix2 h p := ⟨i 0, i 1, eq_ix2 i⟩
  rw [val_main_v25_apply, val_main_cst_2_apply, Ideal.ofBits_def, Ideal.ofBits_zero_f32, zero_add]
  show _ = colSq (proj x0 x1) (keys x0 x2 x4) h p
  unfold colSq
  refine Finset.sum_congr rfl fun m _ => ?_
  have e : idx_main_v25 (ix2 h p) m = ix3 h m p := idx3_ext _ _ rfl rfl rfl
  rw [e, val_main_v24_apply, v21_read]
  rfl

end Cert.Attn.Ref

end
-- ==== Proof.Finite.lean ====
/-
  From the precondition to real entries.

  The precondition is the conjunction, over the six argument arrays, of "every entry x has |x| < +∞", each
  conjunct a reduction by "and" of the elementwise comparisons. A conjunction that is true has every conjunct
  true, and a reduction by "and" that is true met only true elements, so every entry x of every array has
  max x (-x) < +∞. Neither infinity does: max (+∞) (-∞) = max (-∞) (+∞) = +∞. So every entry is a real number.
-/
import proofs.«128360_j52493090291775_2_alg».proof.Pre_finite_inputs
import Idealize.ShloMosaic.Lib.ReduceAll
import Idealize.ShloMosaic.Lib.ValueIdx
import Mathlib

noncomputable section

namespace Cert.Attn.Fin

open Idealize.ShloMosaic

/-- The shape of a scalar has one index. -/
instance : Subsingleton Cert.Pre_finite_inputs.S_.Idx := ⟨fun a b => funext fun d => d.elim0⟩

/-- The single-precision pattern 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ v : ℝ, x = (v : EReal) := by
  rw [ofBits_inf] at h
  induction x using EReal.rec with
  | bot => simp [Ideal.cmp] at h
  | top => simp [Ideal.cmp] at h
  | coe r => exact ⟨r, rfl⟩

open Cert.Pre_finite_inputs in
/-- Under the precondition every entry of every argument array is a real number. -/
theorem real_of_pre [Cert.Pre_finite_inputs.Facts]
    (a0 : FVec Ideal S512x1024 .f32) (a1 a2 a3 : FVec Ideal S1024x1024 .f32) (a4 a5 : FVec Ideal S16x8192x64 .f32)
    (hpre : Cert.Pre_finite_inputs.fn (F := Ideal) a0 a1 a2 a3 a4 a5 = (fun _ => 1#1)) :
    (∀ i, ∃ v : ℝ, a0 i = (v : EReal)) ∧ (∀ i, ∃ v : ℝ, a1 i = (v : EReal)) ∧ (∀ i, ∃ v : ℝ, a2 i = (v : EReal))
      ∧ (∀ i, ∃ v : ℝ, a3 i = (v : EReal)) ∧ (∀ i, ∃ v : ℝ, a4 i = (v : EReal))
      ∧ (∀ i, ∃ v : ℝ, a5 i = (v : EReal)) := by
  have h := congrFun hpre ValueIdx.ix0
  dsimp only [Cert.Pre_finite_inputs.fn, Cert.Pre_finite_inputs.fn_part1, andi] at h
  simp only [IntOp.andi_eq_one] at h
  obtain ⟨⟨⟨⟨⟨h0, h1⟩, h2⟩, h3⟩, h4⟩, h5⟩ := h
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i),
    fun i => real_of_abs_lt _ (Host.reduce_andi_all _ _ _ _ _ h5 i)⟩

end Cert.Attn.Fin

end
-- ==== Proof.FiniteK.lean ====
/-
  The precondition, read at the kernel's own argument arrays: on every device each of the six arrays (the row
  block, the three weight matrices, the two caches) holds only real numbers. This is the finiteness of the
  entries (every |x| < +∞ excludes both infinities) stated for the arrays the run starts from.
-/
import proofs.«128360_j52493090291775_2_alg».proof.Defs
import proofs.«128360_j52493090291775_2_alg».proof.Proof.Law
import proofs.«128360_j52493090291775_2_alg».proof.Proof.Finite

noncomputable section

namespace Cert.Attn

open Idealize.ShloMosaic Idealize.SL.Sem

/-- Under the precondition the six argument arrays of the kernel hold real numbers. -/
theorem real_args [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    IsRealM (a := 512) (b := 1024) (m ((c.tc : Thread Cert.KernelIdeal.nD Cert.KernelIdeal.τ).loc Cert.KernelIdeal.main_arg0))
    ∧ IsRealM (a := 1024) (b := 1024) (m ((c.tc : Thread Cert.KernelIdeal.nD Cert.KernelIdeal.τ).loc Cert.KernelIdeal.main_arg1))
    ∧ IsRealM (a := 1024) (b := 1024) (m ((c.tc : Thread Cert.KernelIdeal.nD Cert.KernelIdeal.τ).loc Cert.KernelIdeal.main_arg2))
    ∧ IsRealM (a := 1024) (b := 1024) (m ((c.tc : Thread Cert.KernelIdeal.nD Cert.KernelIdeal.τ).loc Cert.KernelIdeal.main_arg3))
    ∧ IsRealT (a := 16) (b := 8192) (c := 64) (m ((c.tc : Thread Cert.KernelIdeal.nD Cert.KernelIdeal.τ).loc Cert.KernelIdeal.main_arg4))
    ∧ IsRealT (a := 16) (b := 8192) (c := 64) (m ((c.tc : Thread Cert.KernelIdeal.nD Cert.KernelIdeal.τ).loc Cert.KernelIdeal.main_arg5)) :=
  Cert.Attn.Fin.real_of_pre _ _ _ _ _ _ (hpre c)

end Cert.Attn

end
-- ==== Proof.lean ====
/-
  One step of cached attention without maximum subtraction — sixteen heads of width 64, 512 new rows, 8192 cache
  positions per head of which the last 512 are replaced by the new keys and values — as a two-kernel program against
  its plain array reference, over the extended reals.

  The kernel program projects the row block by the three weight matrices in a first kernel, splits the products into
  heads on the host, and in a second kernel, one head per grid point, streams the 7680 cached positions in fifteen
  tiles: it keeps the running row sums l of the numerators e^{q·k} and the running products acc of the numerators
  with the values, adds the new tile, and emits acc·(1/l); the column sums of the normalised numerators and of their
  squares are emitted tile by tile. The reference forms the whole 512×8192 matrix of weights e^{q·k}/Σ e^{q·k} and
  contracts it with the values, and sums it (and its square) down the rows.

  The two agree entry by entry: a sum over 8192 positions is the sum of its sixteen tiles' sums in any grouping, and
  for finite inputs — where every numerator is a positive real and every row sum a positive real — multiplying a
  finite sum by 1/l is dividing each term by l. The frames (each program runs to the end and leaves its arguments
  unchanged) come from the programs' runs: the kernel program's from its two regions' bodies run symbolically at
  every grid point, at either float instance; the reference's from its operations' composed run.
-/
import proofs.«128360_j52493090291775_2_alg».proof.Defs
import proofs.«128360_j52493090291775_2_alg».proof.Proof.RunK
import proofs.«128360_j52493090291775_2_alg».proof.Proof.ResultsI
import proofs.«128360_j52493090291775_2_alg».proof.Proof.KernelValue
import proofs.«128360_j52493090291775_2_alg».proof.Proof.RefValue
import proofs.«128360_j52493090291775_2_alg».proof.Proof.FiniteK
import proofs.«128360_j52493090291775_2_alg».proof.Proof.Gen.ReferenceIdeal.Run
import proofs.«128360_j52493090291775_2_alg».proof.Proof.Gen.ReferenceIdeal.Read
import proofs.«128360_j52493090291775_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_p : Cert.frame_Kernel := fun m ρ _ => Cert.Kernel.Hand.frame m ρ

/-- So does its idealization. -/
theorem frame_pi : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From finite inputs that agree, both idealized programs end at the specification's three results. -/
theorem algebraic : Cert.algebraic_KernelIdeal_ReferenceIdeal := by
  intro m ρ m' ρ' hpre hagree
  refine ⟨fun c => Cert.Attn.resultOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Attn.resultSum (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    fun c => Cert.Attn.resultSq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Hand.run_results (F := Ideal) m ρ)
    have hr := Cert.Attn.real_args m hpre c
    exact ⟨(h c).1.trans (Cert.Attn.KV.W4_out m ρ c hr), (h c).2.1.trans (Cert.Attn.KV.W4_sum m ρ c hr),
      (h c).2.2.1.trans (Cert.Attn.KV.W4_sq m ρ c hr), (h c).2.2.2⟩
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v27_eq, Cert.Attn.Ref.ref_out, (hagree c).1, (hagree c).2.1, (hagree c).2.2.1,
        (hagree c).2.2.2.1, (hagree c).2.2.2.2.1, (hagree c).2.2.2.2.2]
    · rw [(h c).2.1, Cert.ReferenceIdeal.Read.val_main_v23_eq, Cert.Attn.Ref.ref_sum, (hagree c).1, (hagree c).2.1, (hagree c).2.2.1,
        (hagree c).2.2.2.2.1]
    · rw [(h c).2.2.1, Cert.ReferenceIdeal.Read.val_main_v25_eq, Cert.Attn.Ref.ref_sq, (hagree c).1, (hagree c).2.1, (hagree c).2.2.1,
        (hagree c).2.2.2.2.1]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
